-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v67_2)) (v2 : (c : Dev Cert.KernelIdeal.nD) → Buf (Elt Ideal) ((c.tc : Thread Cert.KernelIdeal.nD Cert.KernelIdeal.τ).loc Cert.KernelIdeal.main_v67_0)) (v3 : (c : Dev Cert.KernelIdeal.nD) → Buf (Elt Ideal) ((c.tc : Thread Cert.KernelIdeal.nD Cert.KernelIdeal.τ).loc Cert.KernelIdeal.main_v67_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v67_2) = v1 c
          ∧ r.2.mem ((c.tc : Thread Cert.KernelIdeal.nD Cert.KernelIdeal.τ).loc Cert.KernelIdeal.main_v67_0) = v2 c
          ∧ r.2.mem ((c.tc : Thread Cert.KernelIdeal.nD Cert.KernelIdeal.τ).loc Cert.KernelIdeal.main_v67_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2x524288 : Shape := ⟨2, ![2, 524288]⟩
abbrev S512x256 : Shape := ⟨2, ![512, 256]⟩
abbrev S256 : Shape := ⟨1, ![256]⟩
abbrev S256x128 : Shape := ⟨2, ![256, 128]⟩
abbrev S128 : Shape := ⟨1, ![128]⟩
abbrev S16384x128 : Shape := ⟨2, ![16384, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S16384x128 : S_.BroadcastsInDim S16384x128 (![] : Fin 0 → Fin S16384x128.rank)
  reducesTo_S16384x128_S_d0_1 : S16384x128.ReducesTo [0, 1] S_

variable [Facts]

def fn_part2 {F : FTy → Type} [FloatOps F] (main_arg8 : FVec F S256x128 .f32) (main_arg9 : FVec F S128 .f32) (main_arg10 : FVec F S16384x128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S16384x128 .f32 := Host.absf main_arg10
  let main_cst_16 : FVec F S_ .f32 := constant S_ .f32 0x7F800000#32
  let main_v45 : FVec F S16384x128 .f32 := broadcastInDim S16384x128 ![] bcast_S_S16384x128 main_cst_16
  let main_v46 : IVec S16384x128 1 := cmpf .olt main_v44 main_v45
  let main_c_17 : IVec S_ 1 := constantI S_ 1 1#1
  let main_v47 : IVec S_ 1 := (fun x v => Host.reduce IntOp.andi x v reducesTo_S16384x128_S_d0_1 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S256x128 .f32) (main_arg8 : FVec F S256x128 .f32) (main_arg9 : FVec F S128 .f32) (main_arg10 : FVec F S16384x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S16384x512 .f32) (main_arg1 : IVec S2x524288 32) (main_arg2 : FVec F S512x256 .f32) (main_arg3 : FVec F S256 .f32) (main_arg4 : FVec F S256x128 .f32) (main_arg5 : FVec F S256x128 .f32) (main_arg6 : FVec F S128 .f32) (main_arg7 : FVec F S256x128 .f32) (main_arg8 : FVec F S256x128 .f32) (main_arg9 : FVec F S128 .f32) (main_arg10 : FVec F S16384x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_v13 main_v16
-- ==== Kernel.lean ====
abbrev S16384x512 : Shape := ⟨2, ![16384, 512]⟩
abbrev S2x524288 : Shape := ⟨2, ![2, 524288]⟩
abbrev S512x256 : Shape := ⟨2, ![512, 256]⟩
abbrev S256 : Shape := ⟨1, ![256]⟩
abbrev S256x128 : Shape := ⟨2, ![256, 128]⟩
abbrev S128 : Shape := ⟨1, ![128]⟩
abbrev S16384x128 : Shape := ⟨2, ![16384, 128]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S16384x256 : Shape := ⟨2, ![16384, 256]⟩
abbrev S2048x512 : Shape := ⟨2, ![2048, 512]⟩
abbrev S2048x256 : Shape := ⟨2, ![2048, 256]⟩
abbrev S540672x256 : Shape := ⟨2, ![540672, 256]⟩
abbrev S1x256 : Shape := ⟨2, ![1, 256]⟩
abbrev S524288x1 : Shape := ⟨2, ![524288, 1]⟩
abbrev S524288x256 : Shape := ⟨2, ![524288, 256]⟩
abbrev S512x128 : Shape := ⟨2, ![512, 128]⟩
abbrev S1024x512 : Shape := ⟨2, ![1024, 512]⟩
abbrev S1024x128 : Shape := ⟨2, ![1024, 128]⟩
abbrev S1024x256 : Shape := ⟨2, ![1024, 256]⟩
abbrev S16384x16384 : Shape := ⟨2, ![16384, 16384]⟩
abbrev S2048x128 : Shape := ⟨2, ![2048, 128]⟩
abbrev S1024x2048 : Shape := ⟨2, ![1024, 2048]⟩

abbrev nBuf : Space → Nat
  | .hbm => 99
  | .vmem => 25
  | .smem => 0
  | _ => 0

abbrev bufTy : (tb : Table) → Fin (tcTables nBuf tb) → BufTy
  | .hbm, ⟨0, _⟩ => ⟨S16384x512, .f32⟩
  | .hbm, ⟨1, _⟩ => ⟨S2x524288, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S256x128, .f32⟩
  | .hbm, ⟨9, _⟩ => ⟨S128, .f32⟩
  | .hbm, ⟨10, _⟩ => ⟨S16384x128, .f32⟩
  | .hbm, ⟨11, _⟩ => ⟨S16384, .i32⟩
  | .hbm, ⟨12, _⟩ => ⟨S1x524288, .i32⟩
  | .hbm, ⟨13, _⟩ => ⟨S524288, .i32⟩
  | .hbm, ⟨14, _⟩ => ⟨S540672, .i32⟩
  | .hbm, ⟨15, _⟩ => ⟨S1x524288, .i32⟩
  | .hbm, ⟨16, _⟩ => ⟨S524288, .i32⟩
  | .hbm, ⟨17, _⟩ => ⟨S540672, .i32⟩
  | .hbm, ⟨18, _⟩ => ⟨S_, .f32⟩
  | .hbm, ⟨19, _⟩ => ⟨S540672, .f32⟩
  | .hbm, ⟨20, _⟩ => ⟨S_, .f32⟩
  | .hbm, ⟨21, _⟩ => ⟨S16384, .f32⟩
  | .hbm, ⟨22, _⟩ => ⟨S540672x1, .i32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .i1⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .i32⟩
  | .hbm, ⟨33, _⟩ => ⟨S540672, .i32⟩
  | .hbm, ⟨34, _⟩ => ⟨S540672, .i1⟩
  | .hbm, ⟨35, _⟩ => ⟨S_, .i32⟩
  | .hbm, ⟨36, _⟩ => ⟨S540672, .i32⟩
  | .hbm, ⟨37, _⟩ => ⟨S540672, .i32⟩
  | .hbm, ⟨38, _⟩ => ⟨S540672, .i32⟩
  | .hbm, ⟨39, _⟩ => ⟨S540672x1, .i32⟩
  | .hbm, ⟨40, _⟩ => ⟨S540672, .f32⟩
  | .hbm, ⟨41, _⟩ => ⟨S_, .i32⟩
  | .hbm, ⟨42, _⟩ => ⟨S540672, .i32⟩
  | .hbm, ⟨43, _⟩ => ⟨S540672, .i1⟩
  | .hbm, ⟨44, _⟩ => ⟨S_, .i32⟩
  | .hbm, ⟨45, _⟩ => ⟨S540672, .i32⟩
  | .hbm, ⟨46, _⟩ => ⟨S540672, .i32⟩
  | .hbm, ⟨47, _⟩ => ⟨S540672, .i32⟩
  | .hbm, ⟨48, _⟩ => ⟨S540672x1, .i32⟩
  | .hbm, ⟨49, _⟩ => ⟨S540672, .f32⟩
  | .hbm, ⟨50, _⟩ => ⟨S540672, .f32⟩
  | .hbm, ⟨51, _⟩ => ⟨S16384x256, .f32⟩
  | .hbm, ⟨52, _⟩ => ⟨S_, .i32⟩
  | .hbm, ⟨53, _⟩ => ⟨S540672, .i32⟩
  | .hbm, ⟨54, _⟩ => ⟨S540672, .i1⟩
  | .hbm, ⟨55, _⟩ => ⟨S_, .i32⟩
  | .hbm, ⟨56, _⟩ => ⟨S540672, .i32⟩
  | .hbm, ⟨57, _⟩ => ⟨S540672, .i32⟩
  | .hbm, ⟨58, _⟩ => ⟨S540672, .i32⟩
  | .hbm, ⟨59, _⟩ => ⟨S540672x1, .i32⟩
  | .hbm, ⟨60, _⟩ => ⟨S540672x256, .f32⟩
  | .hbm, ⟨61, _⟩ => ⟨S540672x1, .f32⟩
  | .hbm, ⟨62, _⟩ => ⟨S540672x256, .f32⟩
  | .hbm, ⟨63, _⟩ => ⟨S540672x256, .f32⟩
  | .hbm, ⟨64, _⟩ => ⟨S_, .f32⟩
  | .hbm, ⟨65, _⟩ => ⟨S16384x256, .f32⟩
  | .hbm, ⟨66, _⟩ => ⟨S540672x1, .i32⟩
  | .hbm, ⟨67, _⟩ => ⟨S16384x256, .f32⟩
  | .hbm, ⟨68, _⟩ => ⟨S1x256, .f32⟩
  | .hbm, ⟨69, _⟩ => ⟨S16384x256, .f32⟩
  | .hbm, ⟨70, _⟩ => ⟨S16384x256, .f32⟩
  | .hbm, ⟨71, _⟩ => ⟨S1x524288, .i32⟩
  | .hbm, ⟨72, _⟩ => ⟨S524288, .i32⟩
  | .hbm, ⟨73, _⟩ => ⟨S_, .i32⟩
  | .hbm, ⟨74, _⟩ => ⟨S524288, .i32⟩
  | .hbm, ⟨75, _⟩ => ⟨S524288, .i1⟩
  | .hbm, ⟨76, _⟩ => ⟨S_, .i32⟩
  | .hbm, ⟨77, _⟩ => ⟨S524288, .i32⟩
  | .hbm, ⟨78, _⟩ => ⟨S524288, .i32⟩
  | .hbm, ⟨79, _⟩ => ⟨S524288, .i32⟩
  | .hbm, ⟨80, _⟩ => ⟨S524288x1, .i32⟩
  | .hbm, ⟨81, _⟩ => ⟨S524288x256, .f32⟩
  | .hbm, ⟨82, _⟩ => ⟨S1x524288, .i32⟩
  | .hbm, ⟨83, _⟩ => ⟨S524288, .i32⟩
  | .hbm, ⟨84, _⟩ => ⟨S_, .f32⟩
  | .hbm, ⟨85, _⟩ => ⟨S16384x256, .f32⟩
  | .hbm, ⟨86, _⟩ => ⟨S524288x1, .i32⟩
  | .hbm, ⟨87, _⟩ => ⟨S16384x256, .f32⟩
  | .hbm, ⟨88, _⟩ => ⟨S16384x512, .f32⟩
  | .hbm, ⟨89, _⟩ => ⟨S512x128, .f32⟩
  | .hbm, ⟨90, _⟩ => ⟨S512x128, .f32⟩
  | .hbm, ⟨91, _⟩ => ⟨S512x256, .f32⟩
  | .hbm, ⟨92, _⟩ => ⟨S256, .f32⟩
  | .hbm, ⟨93, _⟩ => ⟨S1x256, .f32⟩
  | .hbm, ⟨94, _⟩ => ⟨S16384x128, .f32⟩
  | .hbm, ⟨95, _⟩ => ⟨S16384x128, .f32⟩
  | .hbm, ⟨96, _⟩ => ⟨S16384x128, .f32⟩
  | .hbm, ⟨97, _⟩ => ⟨S16384x128, .bf16⟩
  | .hbm, ⟨98, _⟩ => ⟨S16384x16384, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .f32⟩
  | .local _ .vmem, ⟨4, _⟩ => ⟨S2048x256, .f32⟩
  | .local _ .vmem, ⟨5, _⟩ => ⟨S1024x512, .f32⟩
  | .local _ .vmem, ⟨6, _⟩ => ⟨S1024x512, .f32⟩
  | .local _ .vmem, ⟨7, _⟩ => ⟨S512x256, .f32⟩
  | .local _ .vmem, ⟨8, _⟩ => ⟨S1x256, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S2048x128, .bf16⟩
  | .local _ .vmem, ⟨22, _⟩ => ⟨S2048x128, .bf16⟩
  | .local _ .vmem, ⟨23, _⟩ => ⟨S1024x2048, .f32⟩
  | .local _ .vmem, ⟨24, _⟩ => ⟨S1024x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67_0 : Ref sig .tc := ⟨.hbm, 94, rfl⟩
abbrev main_v67_1 : Ref sig .tc := ⟨.hbm, 95, rfl⟩
abbrev main_v67_2 : Ref sig .tc := ⟨.hbm, 96, rfl⟩
abbrev main_v67_3 : Ref sig .tc := ⟨.hbm, 97, rfl⟩
abbrev main_v68 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![16, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  bcast_S540672x1_S540672x256_0_1 : S540672x1.BroadcastsInDim S540672x256 (![0, 1] : Fin 2 → Fin S540672x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S524288 : S_.BroadcastsInDim S524288 (![] : Fin 0 → Fin S524288.rank)
  bcast_S524288_S524288x1_0 : S524288.BroadcastsInDim S524288x1 (![0] : Fin 1 → Fin S524288x1.rank)
  concatenates_S16384x256_S16384x256_S16384x512_d1 : Shape.Concatenates [S16384x256, S16384x256] S16384x512 1
  concatenates_S256x128_S256x128_S512x128_d0 : Shape.Concatenates [S256x128, S256x128] S512x128 0
  concatenates_S512x128_S512x128_S512x256_d1 : Shape.Concatenates [S512x128, S512x128] S512x256 1
  concatenates_S128_S128_S256_d0 : Shape.Concatenates [S128, S128] S256 0
  shapeCasts_S256_S1x256 : S256.ShapeCasts S1x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S1024x256_o0_0_S1024x128 : S1024x256.Slices ![0, 0] S1024x128
  slices_S1024x256_o0_128_S1024x128 : S1024x256.Slices ![0, 128] S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S2048x512_S512x256_S2048x256_1_0_0_1_n_n_wf : DotDims.WF S2048x512 S512x256 S2048x256 [1] [0] [0] [1] [] []
  gather_S16384x256_S540672x1_S540672x256_1_0_n_n_0_1_1256_wf : GatherDims.WF S16384x256 S540672x1 S540672x256 [1] [0] [] [0] [] 1 ![1, 256]
  scatter_S16384x256_S540672x1_S540672x256_1_0_0_1_wf : ScatterDims.WF S16384x256 S540672x1 S540672x256 [1] [0] [0] 1
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S1024x512_S512x256_S1024x256_1_0_0_1_n_n_wf : DotDims.WF S1024x512 S512x256 S1024x256 [1] [0] [0] [1] [] []
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x512.size a
  hwx1_0 : ∀ i : grid1.Coords, EltTy.bits .f32 = 32 ∨ (Rect.block (s := S16384x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S16384x128.size a
  hwx1_3 : ∀ i : grid1.Coords, EltTy.bits .f32 = 32 ∨ (Rect.block (s := S16384x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S16384x128.size a
  hwx1_4 : ∀ i : grid1.Coords, EltTy.bits .f32 = 32 ∨ (Rect.block (s := S16384x128) S1024x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S16384x128.size a
  hwx1_5 : ∀ i : grid1.Coords, EltTy.bits .f32 = 32 ∨ (Rect.block (s := S16384x128) S1024x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S16384x128.size a
  hwx1_6 : ∀ i : grid1.Coords, EltTy.bits .f32 = 32 ∨ (Rect.block (s := S16384x128) S1024x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S16384x128.size a
  hwx1_7 : ∀ i : grid1.Coords, EltTy.bits .bf16 = 32 ∨ (Rect.block (s := S16384x128) S1024x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S16384x128.size a
  hwx2_0 : ∀ i : grid2.Coords, EltTy.bits .bf16 = 32 ∨ (Rect.block (s := S16384x128) S1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .bf16 = 32 ∨ (Rect.block (s := S16384x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S16384x16384.size a
  hwx2_2 : ∀ i : grid2.Coords, EltTy.bits .f32 = 32 ∨ (Rect.block (s := S16384x16384) S1024x2048.size (cc2_transform_2 i) (hinb2_2 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S16384x256_S540672x1_S540672x256_1_0_n_n_0_1_1256 : GatherDims S16384x256 S540672x1 S540672x256 where
  offsetDims := [1]
  collapsedSliceDims := [0]
  operandBatchingDims := []
  startIndicesBatchingDims := []
  startIndexMap := [0]
  indexVectorDim := 1
  sliceSizes := ![1, 256]
  wf := gather_S16384x256_S540672x1_S540672x256_1_0_n_n_0_1_1256_wf
def scatter_S16384x256_S540672x1_S540672x256_1_0_0_1 : ScatterDims S16384x256 S540672x1 S540672x256 where
  updateWindowDims := [1]
  insertedWindowDims := [0]
  scatterDimsToOperandDims := [0]
  indexVectorDim := 1
  wf := scatter_S16384x256_S540672x1_S540672x256_1_0_0_1_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v61) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v67_0) S1024x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v67_1) S1024x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v67_2) S1024x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v67_3) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v67_3) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67_3) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x512 : Shape := ⟨2, ![16384, 512]⟩
abbrev S2x524288 : Shape := ⟨2, ![2, 524288]⟩
abbrev S512x256 : Shape := ⟨2, ![512, 256]⟩
abbrev S256 : Shape := ⟨1, ![256]⟩
abbrev S256x128 : Shape := ⟨2, ![256, 128]⟩
abbrev S128 : Shape := ⟨1, ![128]⟩
abbrev S16384x128 : Shape := ⟨2, ![16384, 128]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S16384x256 : Shape := ⟨2, ![16384, 256]⟩
abbrev S540672x256 : Shape := ⟨2, ![540672, 256]⟩
abbrev S1x256 : Shape := ⟨2, ![1, 256]⟩
abbrev S524288x1 : Shape := ⟨2, ![524288, 1]⟩
abbrev S524288x256 : Shape := ⟨2, ![524288, 256]⟩
abbrev S1x128 : Shape := ⟨2, ![1, 128]⟩
abbrev S128x16384 : Shape := ⟨2, ![128, 16384]⟩
abbrev S16384x16384 : Shape := ⟨2, ![16384, 16384]⟩

abbrev nBuf : Space → Nat
  | .hbm => 130
  | .vmem => 0
  | .smem => 0
  | _ => 0

abbrev hbmTy0_0 (i : Nat) : BufTy := match i % 128 with
  | 0 => ⟨S16384x512, .f32⟩
  | 1 => ⟨S2x524288, .i32⟩
  | 2 => ⟨S512x256, .f32⟩
  | 3 => ⟨S256, .f32⟩
  | 4 => ⟨S256x128, .f32⟩
  | 5 => ⟨S256x128, .f32⟩
  | 6 => ⟨S128, .f32⟩
  | 7 => ⟨S256x128, .f32⟩
  | 8 => ⟨S256x128, .f32⟩
  | 9 => ⟨S128, .f32⟩
  | 10 => ⟨S16384x128, .f32⟩
  | 11 => ⟨S16384, .i32⟩
  | 12 => ⟨S1x524288, .i32⟩
  | 13 => ⟨S524288, .i32⟩
  | 14 => ⟨S540672, .i32⟩
  | 15 => ⟨S1x524288, .i32⟩
  | 16 => ⟨S524288, .i32⟩
  | 17 => ⟨S540672, .i32⟩
  | 18 => ⟨S_, .f32⟩
  | 19 => ⟨S540672, .f32⟩
  | 20 => ⟨S_, .f32⟩
  | 21 => ⟨S16384, .f32⟩
  | 22 => ⟨S540672x1, .i32⟩
  | 23 => ⟨S16384, .f32⟩
  | 24 => ⟨S_, .f32⟩
  | 25 => ⟨S16384, .f32⟩
  | 26 => ⟨S16384, .i1⟩
  | 27 => ⟨S16384, .f32⟩
  | 28 => ⟨S_, .f32⟩
  | 29 => ⟨S_, .f32⟩
  | 30 => ⟨S16384, .f32⟩
  | 31 => ⟨S16384, .f32⟩
  | 32 => ⟨S_, .i32⟩
  | 33 => ⟨S540672, .i32⟩
  | 34 => ⟨S540672, .i1⟩
  | 35 => ⟨S_, .i32⟩
  | 36 => ⟨S540672, .i32⟩
  | 37 => ⟨S540672, .i32⟩
  | 38 => ⟨S540672, .i32⟩
  | 39 => ⟨S540672x1, .i32⟩
  | 40 => ⟨S540672, .f32⟩
  | 41 => ⟨S_, .i32⟩
  | 42 => ⟨S540672, .i32⟩
  | 43 => ⟨S540672, .i1⟩
  | 44 => ⟨S_, .i32⟩
  | 45 => ⟨S540672, .i32⟩
  | 46 => ⟨S540672, .i32⟩
  | 47 => ⟨S540672, .i32⟩
  | 48 => ⟨S540672x1, .i32⟩
  | 49 => ⟨S540672, .f32⟩
  | 50 => ⟨S540672, .f32⟩
  | 51 => ⟨S16384x256, .f32⟩
  | 52 => ⟨S_, .i32⟩
  | 53 => ⟨S540672, .i32⟩
  | 54 => ⟨S540672, .i1⟩
  | 55 => ⟨S_, .i32⟩
  | 56 => ⟨S540672, .i32⟩
  | 57 => ⟨S540672, .i32⟩
  | 58 => ⟨S540672, .i32⟩
  | 59 => ⟨S540672x1, .i32⟩
  | 60 => ⟨S540672x256, .f32⟩
  | 61 => ⟨S540672x1, .f32⟩
  | 62 => ⟨S540672x256, .f32⟩
  | 63 => ⟨S540672x256, .f32⟩
  | 64 => ⟨S_, .f32⟩
  | 65 => ⟨S16384x256, .f32⟩
  | 66 => ⟨S540672x1, .i32⟩
  | 67 => ⟨S16384x256, .f32⟩
  | 68 => ⟨S1x256, .f32⟩
  | 69 => ⟨S16384x256, .f32⟩
  | 70 => ⟨S16384x256, .f32⟩
  | 71 => ⟨S1x524288, .i32⟩
  | 72 => ⟨S524288, .i32⟩
  | 73 => ⟨S_, .i32⟩
  | 74 => ⟨S524288, .i32⟩
  | 75 => ⟨S524288, .i1⟩
  | 76 => ⟨S_, .i32⟩
  | 77 => ⟨S524288, .i32⟩
  | 78 => ⟨S524288, .i32⟩
  | 79 => ⟨S524288, .i32⟩
  | 80 => ⟨S524288x1, .i32⟩
  | 81 => ⟨S524288x256, .f32⟩
  | 82 => ⟨S1x524288, .i32⟩
  | 83 => ⟨S524288, .i32⟩
  | 84 => ⟨S_, .f32⟩
  | 85 => ⟨S16384x256, .f32⟩
  | 86 => ⟨S524288x1, .i32⟩
  | 87 => ⟨S16384x256, .f32⟩
  | 88 => ⟨S16384x128, .f32⟩
  | 89 => ⟨S16384x128, .f32⟩
  | 90 => ⟨S16384x128, .f32⟩
  | 91 => ⟨S1x128, .f32⟩
  | 92 => ⟨S16384x128, .f32⟩
  | 93 => ⟨S16384x128, .f32⟩
  | 94 => ⟨S1x524288, .i32⟩
  | 95 => ⟨S524288, .i32⟩
  | 96 => ⟨S_, .i32⟩
  | 97 => ⟨S524288, .i32⟩
  | 98 => ⟨S524288, .i1⟩
  | 99 => ⟨S_, .i32⟩
  | 100 => ⟨S524288, .i32⟩
  | 101 => ⟨S524288, .i32⟩
  | 102 => ⟨S524288, .i32⟩
  | 103 => ⟨S524288x1, .i32⟩
  | 104 => ⟨S524288x256, .f32⟩
  | 105 => ⟨S1x524288, .i32⟩
  | 106 => ⟨S524288, .i32⟩
  | 107 => ⟨S_, .f32⟩
  | 108 => ⟨S16384x256, .f32⟩
  | 109 => ⟨S524288x1, .i32⟩
  | 110 => ⟨S16384x256, .f32⟩
  | 111 => ⟨S16384x128, .f32⟩
  | 112 => ⟨S16384x128, .f32⟩
  | 113 => ⟨S16384x128, .f32⟩
  | 114 => ⟨S1x128, .f32⟩
  | 115 => ⟨S16384x128, .f32⟩
  | 116 => ⟨S16384x128, .f32⟩
  | 117 => ⟨S16384x128, .f32⟩
  | 118 => ⟨S16384x128, .f32⟩
  | 119 => ⟨S16384x128, .f32⟩
  | 120 => ⟨S128x16384, .f32⟩
  | 121 => ⟨S16384x16384, .f32⟩
  | 122 => ⟨S16384x16384, .f32⟩
  | 123 => ⟨S16384x16384, .f32⟩
  | 124 => ⟨S_, .f32⟩
  | 125 => ⟨S16384x16384, .f32⟩
  | 126 => ⟨S16384x16384, .f32⟩
  | 127 => ⟨S_, .f32⟩
  | _ => ⟨S16384x512, .f32⟩

abbrev hbmTy0_1 (i : Nat) : BufTy := match i % 128 with
  | 0 => ⟨S16384x16384, .f32⟩
  | 1 => ⟨S16384x16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_15 : Ref sig .tc := ⟨.hbm, 124, rfl⟩
abbrev main_v94 : Ref sig .tc := ⟨.hbm, 125, rfl⟩
abbrev main_v95 : Ref sig .tc := ⟨.hbm, 126, rfl⟩
abbrev main_cst_16 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x256_0_1 : S540672x1.BroadcastsInDim S540672x256 (![0, 1] : Fin 2 → Fin S540672x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S524288 : S_.BroadcastsInDim S524288 (![] : Fin 0 → Fin S524288.rank)
  bcast_S524288_S524288x1_0 : S524288.BroadcastsInDim S524288x1 (![0] : Fin 1 → Fin S524288x1.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S16384x128_S128x16384_1_0 : S16384x128.Transposes [1, 0] S128x16384
  bcast_S_S16384x16384 : S_.BroadcastsInDim S16384x16384 (![] : Fin 0 → Fin S16384x16384.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x512_S512x256_S16384x256_1_0_0_1_n_n_wf : DotDims.WF S16384x512 S512x256 S16384x256 [1] [0] [0] [1] [] []
  gather_S16384x256_S540672x1_S540672x256_1_0_n_n_0_1_1256_wf : GatherDims.WF S16384x256 S540672x1 S540672x256 [1] [0] [] [0] [] 1 ![1, 256]
  scatter_S16384x256_S540672x1_S540672x256_1_0_0_1_wf : ScatterDims.WF S16384x256 S540672x1 S540672x256 [1] [0] [0] 1
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x128_S16384x128_1_0_0_1_n_n_wf : DotDims.WF S16384x256 S256x128 S16384x128 [1] [0] [0] [1] [] []
  dot_S16384x128_S128x16384_S16384x16384_1_0_0_1_n_n_wf : DotDims.WF S16384x128 S128x16384 S16384x16384 [1] [0] [0] [1] [] []

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def gather_S16384x256_S540672x1_S540672x256_1_0_n_n_0_1_1256 : GatherDims S16384x256 S540672x1 S540672x256 where
  offsetDims := [1]
  collapsedSliceDims := [0]
  operandBatchingDims := []
  startIndicesBatchingDims := []
  startIndexMap := [0]
  indexVectorDim := 1
  sliceSizes := ![1, 256]
  wf := gather_S16384x256_S540672x1_S540672x256_1_0_n_n_0_1_1256_wf
def scatter_S16384x256_S540672x1_S540672x256_1_0_0_1 : ScatterDims S16384x256 S540672x1 S540672x256 where
  updateWindowDims := [1]
  insertedWindowDims := [0]
  scatterDimsToOperandDims := [0]
  indexVectorDim := 1
  wf := scatter_S16384x256_S540672x1_S540672x256_1_0_0_1_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.KRegion0.lean ====
/-
  The first kernel region: xw = x · W over eight row tiles of 2048 rows. At a grid point t the body is handed rows
  [2048 t, 2048 (t+1)) of x (window 0), the whole of W (window 1, its block index constant) and the output tile's
  staging buffer (window 2), and stores the 2048 × 256 product of the two loaded blocks over the whole output tile.
  Stated at any float instance and at any contents `V` of the core's buffers when the region is entered.
-/
import proofs.«131769_j3100966387958_2_alg».proof.Proof.Gen.Kernel.Launch
import proofs.«131769_j3100966387958_2_alg».proof.Proof.Gen.Kernel.Skeleton
import proofs.«131769_j3100966387958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetched it or not:
    the block index of an unfetched window has not moved since the fetch. One statement per input window. -/
theorem found0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-- The whole of a 2048 × 512 buffer, of a 512 × 256 one and of a 2048 × 256 one: the three rectangles the body touches. -/
abbrev whole0_x : Rect S2048x512 := Rect.unit (s := S2048x512) ![0, 0] S2048x512.size inb_S2048x512_S2048x512_0_0
abbrev whole0_w : Rect S512x256 := Rect.unit (s := S512x256) ![0, 0] S512x256.size inb_S512x256_S512x256_0_0
abbrev whole0_o : Rect S2048x256 := Rect.unit (s := S2048x256) ![0, 0] S2048x256.size inb_S2048x256_S2048x256_0_0

/-- What the body leaves in the output tile's buffer: its one store, the product of the two loaded blocks. -/
def prodTile (x0 : Vec F S2048x512 .f32) (x1 : Vec F S512x256 .f32) : Vec F S2048x256 .f32 :=
  View.canon [⟨whole0_o, k0_pay1 (View.ld x0 whole0_x) (View.ld x1 whole0_w)⟩]

/-- The one store covers the output tile. -/
theorem prodTile_cover (p0 : Vec F S2048x256 .f32) (y : S2048x256.Idx) :
    ∃ pc ∈ ([⟨whole0_o, p0⟩] : List (View.Piece (Elt F) S2048x256 .f32)), y ∈ pc.1.set :=
  View.cover_of_tiled [⟨whole0_o, p0⟩] S2048x256.size (by rfl) y

set_option maxHeartbeats 1000000 in
/-- The body on whole staging memrefs: the two inputs' buffers are read and left as found, the output's ends at the
    product of what was read. -/
theorem body0_triple (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S2048x256 .f32) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (prodTile x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prodTile_cover _)

/-- The region's proof data on core `c`: the arrays as the region finds them; after the body at point `t` each input's
    buffer at its block, the output's at the product of the two blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => prodTile (tile0 V c 0 t) (tile0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = tile0 V c 0 t := by dsimp only [dat0]
theorem dat0_after1 (c : Dev nD) (t : Fin cfg0.N) : (dat0 V c).after 1 t = tile0 V c 1 t := by dsimp only [dat0]
theorem dat0_after2 (c : Dev nD) (t : Fin cfg0.N) :
    (dat0 V c).after 2 t = prodTile (tile0 V c 0 t) (tile0 V c 1 t) := by dsimp only [dat0]

theorem dat0_found0 (c : Dev nD) (t : Fin cfg0.N) (d) : (dat0 V c).before 0 t d = tile0 V c 0 t :=
  found0_0_of V (dat0 V c) (dat0_A V c 0) (dat0_after0 V c) t d
theorem dat0_found1 (c : Dev nD) (t : Fin cfg0.N) (d) : (dat0 V c).before 1 t d = tile0 V c 1 t :=
  found0_1_of V (dat0 V c) (dat0_A V c 1) (dat0_after1 V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's
    dues pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_found0, dat0_found1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0_triple c Set.univ _ _ _ _ _ _ _ (tile0 V c 0 t) (tile0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body0_obligation (c : Dev nD) : BodyObligation (dat0 (F := F) V c) (defs₀ (F := F)) Variants.none () Set.univ := fun t => by
  rw [bigSep_W0, bigSep_W0]
  exact body0_at V c t

end Cert.Kernel.Fr

end
-- ==== Proof.KRegion1.lean ====
/-
  The second kernel region: the fused projection and the reparameterisation, over sixteen row tiles of 1024 rows.
  At a grid point t the body is handed rows [1024 t, 1024 (t+1)) of the concatenated features (window 0), the whole
  512 × 256 weight (window 1) and the 1 × 256 bias row (window 2), rows [1024 t, 1024 (t+1)) of eps (window 3), and
  four output tiles' staging buffers (windows 4–7). With acc = feat · w + bias it stores acc[:, 0:128] (the mean),
  acc[:, 128:256] (the log-variance), eps · exp(log-variance) + mean (the sample) and the sample again in the
  narrower float format, each over its whole tile. Stated at any float instance and any entry contents `V`.
-/
import proofs.«131769_j3100966387958_2_alg».proof.Proof.Gen.Kernel.Launch
import proofs.«131769_j3100966387958_2_alg».proof.Proof.Gen.Kernel.Skeleton
import proofs.«131769_j3100966387958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or not:
    the block index of an unfetched window has not moved since the fetch. One statement per input window. -/
theorem found1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)
theorem found1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)
theorem found1_2_of {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)
theorem found1_3_of {c : Dev nD} (dat : Dat τ (Elt F) Unit ℕ (UR sig nD τ) ℕ cfg1 c) (hA : dat.A 3 = V c (Pipeline.arrRef spec1 3))
    (hafter : ∀ t, dat.after 3 t = tile1 V c 3 t) (t : Fin cfg1.N) (d) : dat.before 3 t d = tile1 V c 3 t :=
  (dat.before_in_eq_fetched 3 rfl (fun _ => rfl) (fun _ _ _ => rfl) (fun t => by rw [hafter]; unfold Dat.blockOf tile1; rw [hA]; try rfl) t d).trans
    (by unfold Dat.fetched Dat.blockOf tile1; rw [hA]; try rfl)

/-- The whole of each buffer shape the body touches. -/
abbrev whole1_f : Rect S1024x512 := Rect.unit (s := S1024x512) ![0, 0] S1024x512.size inb_S1024x512_S1024x512_0_0
abbrev whole1_w : Rect S512x256 := Rect.unit (s := S512x256) ![0, 0] S512x256.size inb_S512x256_S512x256_0_0
abbrev whole1_b : Rect S1x256 := Rect.unit (s := S1x256) ![0, 0] S1x256.size inb_S1x256_S1x256_0_0
abbrev whole1_o : Rect S1024x128 := Rect.unit (s := S1024x128) ![0, 0] S1024x128.size inb_S1024x128_S1024x128_0_0

/-- What the body leaves in the four output tiles' buffers, each its one store. -/
def meanTile (x0 : Vec F S1024x512 .f32) (x1 : Vec F S512x256 .f32) (x2 : Vec F S1x256 .f32) : Vec F S1024x128 .f32 :=
  View.canon [⟨whole1_o, k1_pay2 (View.ld x0 whole1_f) (View.ld x1 whole1_w) (View.ld x2 whole1_b)⟩]
def logvarTile (x0 : Vec F S1024x512 .f32) (x1 : Vec F S512x256 .f32) (x2 : Vec F S1x256 .f32) : Vec F S1024x128 .f32 :=
  View.canon [⟨whole1_o, k1_pay3 (View.ld x0 whole1_f) (View.ld x1 whole1_w) (View.ld x2 whole1_b)⟩]
def sampleTile (x0 : Vec F S1024x512 .f32) (x1 : Vec F S512x256 .f32) (x2 : Vec F S1x256 .f32) (x3 : Vec F S1024x128 .f32) : Vec F S1024x128 .f32 :=
  View.canon [⟨whole1_o, k1_pay4 (View.ld x0 whole1_f) (View.ld x1 whole1_w) (View.ld x2 whole1_b) (View.ld x3 whole1_o)⟩]
def narrowTile (x0 : Vec F S1024x512 .f32) (x1 : Vec F S512x256 .f32) (x2 : Vec F S1x256 .f32) (x3 : Vec F S1024x128 .f32) : Vec F S1024x128 .bf16 :=
  View.canon [⟨whole1_o, k1_pay5 (View.ld x0 whole1_f) (View.ld x1 whole1_w) (View.ld x2 whole1_b) (View.ld x3 whole1_o)⟩]

/-- One whole-tile store covers a 1024 × 128 tile, at either element type. -/
theorem tile1_cover {ty : EltTy} (p0 : S1024x128.Idx → Elt F ty) (y : S1024x128.Idx) :
    ∃ pc ∈ ([⟨whole1_o, p0⟩] : List (View.Piece (Elt F) S1024x128 ty)), y ∈ pc.1.set :=
  View.cover_of_tiled [⟨whole1_o, p0⟩] S1024x128.size (by rfl) y

set_option maxHeartbeats 2000000 in
/-- The body on whole staging memrefs: the four inputs' buffers are read and left as found, each output's ends at
    its tile of what was read. -/
theorem body1_triple (c : Dev nD) (E : Set ℕ) (i : grid1.Coords)
    (arg1 : Memref sig .tc .vmem S1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .bf16) (harg8 : arg8.IsWhole)
    (x0 : Vec F S1024x512 .f32) (x1 : Vec F S512x256 .f32) (x2 : Vec F S1x256 .f32) (x3 : Vec F S1024x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (meanTile x0 x1 x2) ∗ owns (c : Thread nD τ) arg6 fullShare (logvarTile x0 x1 x2)
            ∗ owns (c : Thread nD τ) arg7 fullShare (sampleTile x0 x1 x2 x3) ∗ owns (c : Thread nD τ) arg8 fullShare (narrowTile x0 x1 x2 x3)) -∗ K ⟨⟩))
      ⊢ wp frame (wpE (defs₀ (F := F)) Variants.none c none) E
          (cc1__mu_logvar_z_kernel i arg1 harg1 arg2 harg2 arg3 harg3 arg4 harg4 arg5 harg5 arg6 harg6 arg7 harg7 arg8 harg8) K := by
  simp only [cc1__mu_logvar_z_kernel_eq_skeleton]; unfold cc1__mu_logvar_z_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (tile1_cover _)
  isplitl [H5]
  · iexists _; isplitr
    swap; · iexact H5
    ipureintro
    exact View.read_writes_eq_canon _ _ _ (tile1_cover _)
  isplitl [H6]
  · iexists _; isplitr
    swap; · iexact H6
    ipureintro
    exact View.read_writes_eq_canon _ _ _ (tile1_cover _)
  iexists _; isplitr
  swap; · iexact H7
  ipureintro
  exact View.read_writes_eq_canon _ _ _ (tile1_cover _)

/-- The region's proof data on core `c`. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => meanTile (tile1 V c 0 t) (tile1 V c 1 t) (tile1 V c 2 t)
    | ⟨5, _⟩ => logvarTile (tile1 V c 0 t) (tile1 V c 1 t) (tile1 V c 2 t)
    | ⟨6, _⟩ => sampleTile (tile1 V c 0 t) (tile1 V c 1 t) (tile1 V c 2 t) (tile1 V c 3 t)
    | ⟨7, _⟩ => narrowTile (tile1 V c 0 t) (tile1 V c 1 t) (tile1 V c 2 t) (tile1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = tile1 V c 0 t := by dsimp only [dat1]
theorem dat1_after1 (c : Dev nD) (t : Fin cfg1.N) : (dat1 V c).after 1 t = tile1 V c 1 t := by dsimp only [dat1]
theorem dat1_after2 (c : Dev nD) (t : Fin cfg1.N) : (dat1 V c).after 2 t = tile1 V c 2 t := by dsimp only [dat1]
theorem dat1_after3 (c : Dev nD) (t : Fin cfg1.N) : (dat1 V c).after 3 t = tile1 V c 3 t := by dsimp only [dat1]
theorem dat1_after4 (c : Dev nD) (t : Fin cfg1.N) :
    (dat1 V c).after 4 t = meanTile (tile1 V c 0 t) (tile1 V c 1 t) (tile1 V c 2 t) := by dsimp only [dat1]
theorem dat1_after5 (c : Dev nD) (t : Fin cfg1.N) :
    (dat1 V c).after 5 t = logvarTile (tile1 V c 0 t) (tile1 V c 1 t) (tile1 V c 2 t) := by dsimp only [dat1]
theorem dat1_after6 (c : Dev nD) (t : Fin cfg1.N) :
    (dat1 V c).after 6 t = sampleTile (tile1 V c 0 t) (tile1 V c 1 t) (tile1 V c 2 t) (tile1 V c 3 t) := by dsimp only [dat1]
theorem dat1_after7 (c : Dev nD) (t : Fin cfg1.N) :
    (dat1 V c).after 7 t = narrowTile (tile1 V c 0 t) (tile1 V c 1 t) (tile1 V c 2 t) (tile1 V c 3 t) := by dsimp only [dat1]

theorem dat1_found0 (c : Dev nD) (t : Fin cfg1.N) (d) : (dat1 V c).before 0 t d = tile1 V c 0 t :=
  found1_0_of V (dat1 V c) (dat1_A V c 0) (dat1_after0 V c) t d
theorem dat1_found1 (c : Dev nD) (t : Fin cfg1.N) (d) : (dat1 V c).before 1 t d = tile1 V c 1 t :=
  found1_1_of V (dat1 V c) (dat1_A V c 1) (dat1_after1 V c) t d
theorem dat1_found2 (c : Dev nD) (t : Fin cfg1.N) (d) : (dat1 V c).before 2 t d = tile1 V c 2 t :=
  found1_2_of V (dat1 V c) (dat1_A V c 2) (dat1_after2 V c) t d
theorem dat1_found3 (c : Dev nD) (t : Fin cfg1.N) (d) : (dat1 V c).before 3 t d = tile1 V c 3 t :=
  found1_3_of V (dat1 V c) (dat1_A V c 3) (dat1_after3 V c) t d

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_found0, dat1_found1, dat1_found2, dat1_found3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body1_triple c Set.univ _ _ _ _ _ _ _ _ _ _ _ _ _ _ _ _ _ (tile1 V c 0 t) (tile1 V c 1 t) (tile1 V c 2 t) (tile1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body1_obligation (c : Dev nD) : BodyObligation (dat1 (F := F) V c) (defs₀ (F := F)) Variants.none () Set.univ := fun t => by
  rw [bigSep_W1, bigSep_W1]
  exact body1_at V c t

end Cert.Kernel.Fr

end
-- ==== Proof.KRegion2.lean ====
/-
  The third kernel region: adj = logistic (z · zᵀ), over a 16 × 8 grid of output tiles of 1024 × 2048. At the grid
  point (i, j) the body is handed rows [1024 i, 1024 (i+1)) of the narrowed sample (window 0), rows
  [2048 j, 2048 (j+1)) of THE SAME array (window 1) and the output tile's staging buffer (window 2), and stores the
  logistic of the product of the first block with the transpose of the second over the whole output tile.
  The two input windows read one array: the proof data holds it at the left half share for window 0 and the right
  half share for window 1. Stated at any float instance and any entry contents `V`.
-/
import proofs.«131769_j3100966387958_2_alg».proof.Proof.Gen.Kernel.Launch
import proofs.«131769_j3100966387958_2_alg».proof.Proof.Gen.Kernel.Skeleton
import proofs.«131769_j3100966387958_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetched it or not:
    the block index of an unfetched window has not moved since the fetch. One statement per input window. -/
theorem found2_0_of {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)
theorem found2_1_of {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-- The whole of each buffer shape the body touches. -/
abbrev whole2_i : Rect S1024x128 := Rect.unit (s := S1024x128) ![0, 0] S1024x128.size inb_S1024x128_S1024x128_0_0
abbrev whole2_j : Rect S2048x128 := Rect.unit (s := S2048x128) ![0, 0] S2048x128.size inb_S2048x128_S2048x128_0_0
abbrev whole2_o : Rect S1024x2048 := Rect.unit (s := S1024x2048) ![0, 0] S1024x2048.size inb_S1024x2048_S1024x2048_0_0

/-- What the body leaves in the output tile's buffer: its one store. -/
def adjTile (x0 : Vec F S1024x128 .bf16) (x1 : Vec F S2048x128 .bf16) : Vec F S1024x2048 .f32 :=
  View.canon [⟨whole2_o, k2_pay1 (View.ld x0 whole2_i) (View.ld x1 whole2_j)⟩]

/-- The one store covers the output tile. -/
theorem adjTile_cover (p0 : Vec F S1024x2048 .f32) (y : S1024x2048.Idx) :
    ∃ pc ∈ ([⟨whole2_o, p0⟩] : List (View.Piece (Elt F) S1024x2048 .f32)), y ∈ pc.1.set :=
  View.cover_of_tiled [⟨whole2_o, p0⟩] S1024x2048.size (by rfl) y

set_option maxHeartbeats 1000000 in
/-- The body on whole staging memrefs. -/
theorem body2_triple (c : Dev nD) (E : Set ℕ) (i : grid2.Coords)
    (arg2 : Memref sig .tc .vmem S1024x128 .bf16) (harg2 : arg2.IsWhole) (arg3 : Memref sig .tc .vmem S2048x128 .bf16) (harg3 : arg3.IsWhole)
    (arg4 : Memref sig .tc .vmem S1024x2048 .f32) (harg4 : arg4.IsWhole)
    (x0 : Vec F S1024x128 .bf16) (x1 : Vec F S2048x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (adjTile x0 x1)) -∗ K ⟨⟩))
      ⊢ wp frame (wpE (defs₀ (F := F)) Variants.none c none) E (cc2__adj_kernel i arg2 harg2 arg3 harg3 arg4 harg4) K := by
  simp only [cc2__adj_kernel_eq_skeleton]; unfold cc2__adj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (adjTile_cover _)

/-- The region's proof data on core `c`: the one input array at the left half share for window 0 and at the right
    half share for window 1. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => adjTile (tile2 V c 0 t) (tile2 V c 1 t)
  Φ _ := Pipeline.ΦA spec2 c
  q w := match w with
    | ⟨0, _⟩ => fullShare.left
    | ⟨1, _⟩ => fullShare.right
    | ⟨2, _⟩ => fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = tile2 V c 0 t := by dsimp only [dat2]
theorem dat2_after1 (c : Dev nD) (t : Fin cfg2.N) : (dat2 V c).after 1 t = tile2 V c 1 t := by dsimp only [dat2]
theorem dat2_after2 (c : Dev nD) (t : Fin cfg2.N) :
    (dat2 V c).after 2 t = adjTile (tile2 V c 0 t) (tile2 V c 1 t) := by dsimp only [dat2]
theorem dat2_q0 (c : Dev nD) : (dat2 V c).q 0 = fullShare.left := by dsimp only [dat2]
theorem dat2_q1 (c : Dev nD) : (dat2 V c).q 1 = fullShare.right := by dsimp only [dat2]

theorem dat2_found0 (c : Dev nD) (t : Fin cfg2.N) (d) : (dat2 V c).before 0 t d = tile2 V c 0 t :=
  found2_0_of V (dat2 V c) (dat2_A V c 0) (dat2_after0 V c) t d
theorem dat2_found1 (c : Dev nD) (t : Fin cfg2.N) (d) : (dat2 V c).before 1 t d = tile2 V c 1 t :=
  found2_1_of V (dat2 V c) (dat2_A V c 1) (dat2_after1 V c) t d

def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_found0, dat2_found1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (body2_triple c Set.univ _ _ _ _ _ _ _ (tile2 V c 0 t) (tile2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body2_obligation (c : Dev nD) : BodyObligation (dat2 (F := F) V c) (defs₀ (F := F)) Variants.none () Set.univ := fun t => by
  rw [bigSep_W2, bigSep_W2]
  exact body2_at V c t

/-! ## The one input array, split between the two windows at entry and joined again at exit -/

/-- A window's array held at a share, spelt at its buffer: the array is a whole buffer. -/
theorem arr2_at (c : Dev nD) (w : Fin cfg2.W) (q : PosShare TreeShare) (f : Buf (Elt F) ((cfg2.win w).arr.view.loc (c : Thread nD τ))) :
    (((cfg2.win w).arr.view.loc (c : Thread nD τ)) ↦[(cfg2.win w).arr.view.set]{q} f : sProp 𝕄)
      = (((c : Thread nD τ).loc (Pipeline.arrRef spec2 w)) ↦{q} f) := by
  rw [(arr_whole2 w).set_eq_univ]

set_option maxHeartbeats 2000000 in
/-- The region's three arrays, spelt buffer by buffer: window 0's array at the left half share, window 1's at the right
    half share, the output's at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc (Pipeline.arrRef spec2 0)) ↦{fullShare.left} G 0)
          ∗ (((c : Thread nD τ).loc (Pipeline.arrRef spec2 1)) ↦{fullShare.right} G 1)
          ∗ (((c : Thread nD τ).loc (Pipeline.arrRef spec2 2)) ↦{fullShare} G 2)) := by
  have h0 : (dat2 V c).share 0 = fullShare.left := by unfold Dat.share; rw [if_neg (by decide)]; dsimp only [dat2]
  have h1 : (dat2 V c).share 1 = fullShare.right := by unfold Dat.share; rw [if_neg (by decide)]; dsimp only [dat2]
  have h2 : (dat2 V c).share 2 = fullShare := by unfold Dat.share; rw [if_pos (by decide)]
  have hg : ((dat2 V c).arrays G : sProp 𝕄)
      = bigSep Finset.univ fun w : Fin cfg2.W => ((((c : Thread nD τ).loc (Pipeline.arrRef spec2 w)) ↦{(dat2 V c).share w} G w) : sProp 𝕄) := by
    unfold Dat.arrays
    exact bigSep_congr fun w _ => arr2_at c w _ _
  rw [hg, bigSep_W2, h0, h1, h2]

/-- The two input windows read one array. -/
theorem arr2_shared : Pipeline.arrRef spec2 1 = Pipeline.arrRef spec2 0 := rfl

/-- The buffers behind the region's arrays: the shared input array's and the output array's. -/
theorem arr2_image : Finset.univ.image (Pipeline.arrRef (cfgs 2).spec) = {Pipeline.arrRef spec2 0, Pipeline.arrRef spec2 2} := by decide

theorem arrBufs2_eq (c : Dev nD) (W : (b : Ref sig .tc) → Buf (Elt F) ((c : Thread nD τ).loc b)) :
    (Pipeline.arrBufs (cfgs 2).spec c W : sProp 𝕄)
      = iprop((((c : Thread nD τ).loc (Pipeline.arrRef spec2 0)) ↦{fullShare} W (Pipeline.arrRef spec2 0))
          ∗ (((c : Thread nD τ).loc (Pipeline.arrRef spec2 2)) ↦{fullShare} W (Pipeline.arrRef spec2 2))) := by
  unfold Pipeline.arrBufs
  rw [arr2_image, bigSep_insert (by decide), bigSep_singleton]
  rfl

/-- Entry: the core's unscoped buffers at `V` are the region's arrays at the contents `V` gives them — the shared input
    array's full share split into the two windows' halves — and the unscoped rest. -/
theorem split2 (c : Dev nD) :
    (unscopedBufs c (V c) : sProp 𝕄)
      ⊢ iprop((dat2 V c).arrays (fun w => V c (Pipeline.arrRef spec2 w)) ∗ Pipeline.unscopedRest (cfgs 2).spec c (V c)) := by
  rw [Pipeline.unscopedBufs_split₀ cfgs 2 winFacts₀2.arr_unscoped c (V c), arrays2_eq, arrBufs2_eq, arr2_shared]
  refine sep_mono ?_ .rfl
  exact (sep_mono (pointsTo_share (PosShare.mem_left_op_right fullShare)).1 .rfl).trans Idealize.SL.BI.sep_assoc

/-- Exit: the two halves of the input array still at `V`'s contents, the output array at `Z` and the unscoped rest at `V`
    are the core's unscoped buffers at any `V'` that has the output array at `Z` and agrees with `V` elsewhere. -/
theorem join2 (V' : (c : Dev nD) → (b : Ref sig .tc) → Buf (Elt F) ((c : Thread nD τ).loc b)) (c : Dev nD)
    (Z : Buf (Elt F) ((c : Thread nD τ).loc (Pipeline.arrRef spec2 2)))
    (hout : V' c (Pipeline.arrRef spec2 2) = Z) (hrest : ∀ b, b ≠ Pipeline.arrRef spec2 2 → V' c b = V c b) :
    iprop((((c : Thread nD τ).loc (Pipeline.arrRef spec2 0)) ↦{fullShare.left} V c (Pipeline.arrRef spec2 0))
        ∗ (((c : Thread nD τ).loc (Pipeline.arrRef spec2 0)) ↦{fullShare.right} V c (Pipeline.arrRef spec2 0))
        ∗ (((c : Thread nD τ).loc (Pipeline.arrRef spec2 2)) ↦{fullShare} Z)
        ∗ Pipeline.unscopedRest (cfgs 2).spec c (V c)) ⊢ (unscopedBufs c (V' c) : sProp 𝕄) := by
  have hR : (Pipeline.unscopedRest (cfgs 2).spec c (V' c) : sProp 𝕄) = Pipeline.unscopedRest (cfgs 2).spec c (V c) := by
    unfold Pipeline.unscopedRest
    refine bigSep_congr fun b hb => ?_
    rw [hrest b fun e => (Finset.mem_sdiff.mp hb).2 (Finset.mem_image.mpr ⟨2, Finset.mem_univ _, e.symm⟩)]
  rw [Pipeline.unscopedBufs_split₀ cfgs 2 winFacts₀2.arr_unscoped c (V' c), arrBufs2_eq, hout, hrest _ (by decide), hR]
  iintro ⟨Hl, Hr, Ho, Hrest⟩
  isplitl [Hl Hr Ho]
  · isplitl [Hl Hr]
    · iapply (pointsTo_share (PosShare.mem_left_op_right fullShare)).2
      isplitl [Hl] <;> iassumption
    iexact Ho
  iexact Hrest

/-- The entry in the form a region's record asks: the arrays at the proof data's contents before the first point. -/
theorem enter2 (c : Dev nD) :
    (unscopedBufs c (V c) : sProp 𝕄) ⊢ iprop((dat2 V c).arrays ((dat2 V c).arrAt · 0) ∗ Pipeline.unscopedRest (cfgs 2).spec c (V c)) :=
  split2 V c

/-- The exit in the form a region's record asks: the arrays at the proof data's contents after the last point. -/
theorem leave2 (V' : (c : Dev nD) → (b : Ref sig .tc) → Buf (Elt F) ((c : Thread nD τ).loc b)) (c : Dev nD)
    (hout : V' c (Pipeline.arrRef spec2 2) = (dat2 V c).arrAt 2 cfg2.N) (hrest : ∀ b, b ≠ Pipeline.arrRef spec2 2 → V' c b = V c b) :
    iprop((dat2 V c).arrays ((dat2 V c).arrAt · cfg2.N) ∗ Pipeline.unscopedRest (cfgs 2).spec c (V c)) ⊢ (unscopedBufs c (V' c) : sProp 𝕄) := by
  have e0 : (dat2 V c).arrAt 0 cfg2.N = V c (Pipeline.arrRef spec2 0) := ((dat2 V c).arrAt_in 0 rfl _).trans (dat2_A V c 0)
  have e1 : (dat2 V c).arrAt 1 cfg2.N = V c (Pipeline.arrRef spec2 1) := ((dat2 V c).arrAt_in 1 rfl _).trans (dat2_A V c 1)
  rw [arrays2_eq, e0, e1, arr2_shared]
  iintro ⟨⟨Hl, Hr, Ho⟩, Hrest⟩
  iapply (join2 V V' c _ hout hrest)
  isplitl [Hl]; · iexact Hl
  isplitl [Hr]; · iexact Hr
  isplitl [Ho]; · iexact Ho
  iexact Hrest

end Cert.Kernel.Fr

end
-- ==== Proof.KRun.lean ====
/-
  The run of @main as seven segments — three stretches of host operations, the first kernel region, a fourth stretch,
  the second and the third kernel regions — over one thread state per boundary: every unscoped buffer of the core held
  at that boundary's contents, the generator register at some state, nothing owed. The contents are a fold from the
  launch memory: a host stretch applies its operations; a region leaves its output arrays at what its write-backs
  leave and everything else as entered. The run ends with every unscoped buffer read at the last boundary's contents.
-/
import proofs.«131769_j3100966387958_2_alg».proof.Proof.KRegion0
import proofs.«131769_j3100966387958_2_alg».proof.Proof.KRegion1
import proofs.«131769_j3100966387958_2_alg».proof.Proof.KRegion2
import proofs.«131769_j3100966387958_2_alg».proof.Proof.Gen.Kernel.Regions
import Idealize.ShloMosaic.Lib.Pipeline.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the boundaries -/

/-- At launch. -/
abbrev B0 (c : Dev nD) : Valuation τ sig (Elt F) := fun b => m (c, b)
/-- After the first, second and third stretches of host operations (the first region's entry). -/
abbrev B1 (c : Dev nD) : Valuation τ sig (Elt F) := StableHlo.after hostOps0 (B0 m c)
abbrev B2 (c : Dev nD) : Valuation τ sig (Elt F) := StableHlo.after hostOps0_1 (B1 m c)
abbrev B3 (c : Dev nD) : Valuation τ sig (Elt F) := StableHlo.after hostOps0_2 (B2 m c)
abbrev E3 : (c : Dev nD) → (b : Ref sig .tc) → Buf (Elt F) ((c : Thread nD τ).loc b) := fun c b => B3 m c b
/-- After the first region: its arrays at what the pipeline leaves, the rest as entered. -/
def B4 (c : Dev nD) : Valuation τ sig (Elt F) :=
  Pipeline.withArrays spec0 c (B3 m c) fun w => (dat0 (E3 m) c).arrAt w cfg0.N
abbrev E4 : (c : Dev nD) → (b : Ref sig .tc) → Buf (Elt F) ((c : Thread nD τ).loc b) := fun c b => B4 m c b
/-- After the fourth stretch (the second region's entry). -/
abbrev B5 (c : Dev nD) : Valuation τ sig (Elt F) := StableHlo.after hostOps1 (B4 m c)
abbrev E5 : (c : Dev nD) → (b : Ref sig .tc) → Buf (Elt F) ((c : Thread nD τ).loc b) := fun c b => B5 m c b
/-- After the second region (the third region's entry). -/
def B6 (c : Dev nD) : Valuation τ sig (Elt F) :=
  Pipeline.withArrays spec1 c (B5 m c) fun w => (dat1 (E5 m) c).arrAt w cfg1.N
abbrev E6 : (c : Dev nD) → (b : Ref sig .tc) → Buf (Elt F) ((c : Thread nD τ).loc b) := fun c b => B6 m c b
/-- After the third region: its one output array at what the write-backs leave; its input array is only read. -/
def B7 (c : Dev nD) : Valuation τ sig (Elt F) :=
  Function.update (B6 m c) (Proc.devRef .tc main_v68) ((dat2 (E6 m) c).arrAt 2 cfg2.N)
abbrev E7 : (c : Dev nD) → (b : Ref sig .tc) → Buf (Elt F) ((c : Thread nD τ).loc b) := fun c b => B7 m c b

theorem B4_arr (c : Dev nD) (w : Fin cfg0.W) :
    B4 m c (Proc.devRef .tc (Pipeline.arrRef spec0 w)) = (dat0 (E3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
theorem exitArr0 (c : Dev nD) (w : Fin cfg0.W) : (dat0 (E3 m) c).arrAt w cfg0.N = E4 m c (Pipeline.arrRef spec0 w) :=
  (B4_arr m c w).symm
theorem exitRest0 (c : Dev nD) : ∀ b, b ∉ Finset.univ.image (Pipeline.arrRef spec0) → E4 m c b = E3 m c b :=
  fun b hb => B4_of_ne m c b fun w e => hb (Finset.mem_image.mpr ⟨w, Finset.mem_univ _, e⟩)

theorem B6_arr (c : Dev nD) (w : Fin cfg1.W) :
    B6 m c (Proc.devRef .tc (Pipeline.arrRef spec1 w)) = (dat1 (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
theorem exitArr1 (c : Dev nD) (w : Fin cfg1.W) : (dat1 (E5 m) c).arrAt w cfg1.N = E6 m c (Pipeline.arrRef spec1 w) :=
  (B6_arr m c w).symm
theorem exitRest1 (c : Dev nD) : ∀ b, b ∉ Finset.univ.image (Pipeline.arrRef spec1) → E6 m c b = E5 m c b :=
  fun b hb => B6_of_ne m c b fun w e => hb (Finset.mem_image.mpr ⟨w, Finset.mem_univ _, e⟩)

theorem B7_out (c : Dev nD) : B7 m c (Proc.devRef .tc main_v68) = (dat2 (E6 m) c).arrAt 2 cfg2.N := by
  unfold B7; exact Function.update_self _ _ _
theorem B7_of_ne (c : Dev nD) (b : Ref sig .tc) (hb : b ≠ main_v68) :
    B7 m c (Proc.devRef .tc b) = B6 m c (Proc.devRef .tc b) := by
  unfold B7; exact Function.update_of_ne (StableHlo.devRef_ne_of_ne hb) _ _

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (B7 m c) ∗ ∃ r, prngReg c r)

/-! ## The regions as segments -/

set_option backward.isDefEq.respectTransparency.types false in
/-- The first region over the thread state: entered from every unscoped buffer at `B3`, left at `B4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0_obligation (E3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `B5`, left at `B6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1_obligation (E5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region over the thread state: entered from every unscoped buffer at `B6`, left at `B7`. Its two input
    windows read one array: the entry splits that array's share between them, the exit joins the halves. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body2_obligation (E6 m) c).loose
  hwaits := Pipeline.hwaits_of_owed_zero _ _ _ _ L lv 2 fun _ _ => rfl
  pre c := iprop(StableHlo.held (c : Thread nD τ) (Pipeline.ucRefs τ sig) (B6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) (cfgs 2).spec c (E6 m c)
  hentry c := by
    rw [Pipeline.ownSems0_none]
    have hsplit : (unscopedBufs c (E6 m c) : sProp 𝕄)
        ⊢ iprop((pdats m 2 c).arrays ((pdats m 2 c).arrAt · 0)
          ∗ Pipeline.unscopedRest (Ix := Unit) (Name := ℕ) (U := UR sig nD τ) (Lvl := ℕ) (cfgs 2).spec c (E6 m c)) :=
      enter2 (F := F) (E6 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) (cfgs 2).spec c (E6 m c))
        ⊢ (unscopedBufs c (E7 m c) : sProp 𝕄) :=
      leave2 (F := F) (E6 m) (E7 m) c (B7_out m c) (fun b hb => B7_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .host (hseg hostOps1 hostOps1_sub hostOps1_fresh (B4 m)),
    .region (reg1 m),
    .region (reg2 m) ]

/-- @main is the run of the segments. -/
theorem main_is_segs (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds each unscoped buffer of each core at the last boundary's contents. -/
theorem run_reads (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B7 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c => h c)

/-! ## The arguments end as launched -/

/-- A buffer no operation of the first three stretches writes holds its launch contents at the first region's entry. -/
theorem B3_launch (c : Dev nD) (r : Ref sig .tc) (h0 : r ∉ hostOps0_W) (h1 : r ∉ hostOps0_1_W) (h2 : r ∉ hostOps0_2_W) :
    B3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl
/-- A buffer no operation of the fourth stretch writes is unchanged by it. -/
theorem B5_B4 (c : Dev nD) (r : Ref sig .tc) (h : r ∉ hostOps1_W) : B5 m c (Proc.devRef .tc r) = B4 m c (Proc.devRef .tc r) :=
  StableHlo.after_of_writes_sub hostOps1 _ hostOps1_writes h

/-- `main_arg0` reaches the end as launched. -/
theorem B7_main_arg0 (c : Dev nD) : B7 m c (Proc.devRef .tc main_arg0) = m ((c : Thread nD τ).loc main_arg0) :=
  (B7_of_ne m c main_arg0 (by decide)).trans <|
    (B6_of_ne m c main_arg0 (by decide)).trans <|
    (B5_B4 m c main_arg0 (by decide)).trans <|
    ((B4_arr m c 0).trans (((dat0 (E3 m) c).arrAt_in 0 rfl _).trans (dat0_A (E3 m) c 0))).trans <|
    B3_launch m c main_arg0 (by decide) (by decide) (by decide)
/-- `main_arg1` reaches the end as launched. -/
theorem B7_main_arg1 (c : Dev nD) : B7 m c (Proc.devRef .tc main_arg1) = m ((c : Thread nD τ).loc main_arg1) :=
  (B7_of_ne m c main_arg1 (by decide)).trans <|
    (B6_of_ne m c main_arg1 (by decide)).trans <|
    (B5_B4 m c main_arg1 (by decide)).trans <|
    (B4_of_ne m c main_arg1 (by decide)).trans <|
    B3_launch m c main_arg1 (by decide) (by decide) (by decide)
/-- `main_arg2` reaches the end as launched. -/
theorem B7_main_arg2 (c : Dev nD) : B7 m c (Proc.devRef .tc main_arg2) = m ((c : Thread nD τ).loc main_arg2) :=
  (B7_of_ne m c main_arg2 (by decide)).trans <|
    (B6_of_ne m c main_arg2 (by decide)).trans <|
    (B5_B4 m c main_arg2 (by decide)).trans <|
    ((B4_arr m c 1).trans (((dat0 (E3 m) c).arrAt_in 1 rfl _).trans (dat0_A (E3 m) c 1))).trans <|
    B3_launch m c main_arg2 (by decide) (by decide) (by decide)
/-- `main_arg3` reaches the end as launched. -/
theorem B7_main_arg3 (c : Dev nD) : B7 m c (Proc.devRef .tc main_arg3) = m ((c : Thread nD τ).loc main_arg3) :=
  (B7_of_ne m c main_arg3 (by decide)).trans <|
    (B6_of_ne m c main_arg3 (by decide)).trans <|
    (B5_B4 m c main_arg3 (by decide)).trans <|
    (B4_of_ne m c main_arg3 (by decide)).trans <|
    B3_launch m c main_arg3 (by decide) (by decide) (by decide)
/-- `main_arg4` reaches the end as launched. -/
theorem B7_main_arg4 (c : Dev nD) : B7 m c (Proc.devRef .tc main_arg4) = m ((c : Thread nD τ).loc main_arg4) :=
  (B7_of_ne m c main_arg4 (by decide)).trans <|
    (B6_of_ne m c main_arg4 (by decide)).trans <|
    (B5_B4 m c main_arg4 (by decide)).trans <|
    (B4_of_ne m c main_arg4 (by decide)).trans <|
    B3_launch m c main_arg4 (by decide) (by decide) (by decide)
/-- `main_arg5` reaches the end as launched. -/
theorem B7_main_arg5 (c : Dev nD) : B7 m c (Proc.devRef .tc main_arg5) = m ((c : Thread nD τ).loc main_arg5) :=
  (B7_of_ne m c main_arg5 (by decide)).trans <|
    (B6_of_ne m c main_arg5 (by decide)).trans <|
    (B5_B4 m c main_arg5 (by decide)).trans <|
    (B4_of_ne m c main_arg5 (by decide)).trans <|
    B3_launch m c main_arg5 (by decide) (by decide) (by decide)
/-- `main_arg6` reaches the end as launched. -/
theorem B7_main_arg6 (c : Dev nD) : B7 m c (Proc.devRef .tc main_arg6) = m ((c : Thread nD τ).loc main_arg6) :=
  (B7_of_ne m c main_arg6 (by decide)).trans <|
    (B6_of_ne m c main_arg6 (by decide)).trans <|
    (B5_B4 m c main_arg6 (by decide)).trans <|
    (B4_of_ne m c main_arg6 (by decide)).trans <|
    B3_launch m c main_arg6 (by decide) (by decide) (by decide)
/-- `main_arg7` reaches the end as launched. -/
theorem B7_main_arg7 (c : Dev nD) : B7 m c (Proc.devRef .tc main_arg7) = m ((c : Thread nD τ).loc main_arg7) :=
  (B7_of_ne m c main_arg7 (by decide)).trans <|
    (B6_of_ne m c main_arg7 (by decide)).trans <|
    (B5_B4 m c main_arg7 (by decide)).trans <|
    (B4_of_ne m c main_arg7 (by decide)).trans <|
    B3_launch m c main_arg7 (by decide) (by decide) (by decide)
/-- `main_arg8` reaches the end as launched. -/
theorem B7_main_arg8 (c : Dev nD) : B7 m c (Proc.devRef .tc main_arg8) = m ((c : Thread nD τ).loc main_arg8) :=
  (B7_of_ne m c main_arg8 (by decide)).trans <|
    (B6_of_ne m c main_arg8 (by decide)).trans <|
    (B5_B4 m c main_arg8 (by decide)).trans <|
    (B4_of_ne m c main_arg8 (by decide)).trans <|
    B3_launch m c main_arg8 (by decide) (by decide) (by decide)
/-- `main_arg9` reaches the end as launched. -/
theorem B7_main_arg9 (c : Dev nD) : B7 m c (Proc.devRef .tc main_arg9) = m ((c : Thread nD τ).loc main_arg9) :=
  (B7_of_ne m c main_arg9 (by decide)).trans <|
    (B6_of_ne m c main_arg9 (by decide)).trans <|
    (B5_B4 m c main_arg9 (by decide)).trans <|
    (B4_of_ne m c main_arg9 (by decide)).trans <|
    B3_launch m c main_arg9 (by decide) (by decide) (by decide)
/-- `main_arg10` reaches the end as launched. -/
theorem B7_main_arg10 (c : Dev nD) : B7 m c (Proc.devRef .tc main_arg10) = m ((c : Thread nD τ).loc main_arg10) :=
  (B7_of_ne m c main_arg10 (by decide)).trans <|
    ((B6_arr m c 3).trans (((dat1 (E5 m) c).arrAt_in 3 rfl _).trans (dat1_A (E5 m) c 3))).trans <|
    (B5_B4 m c main_arg10 (by decide)).trans <|
    (B4_of_ne m c main_arg10 (by decide)).trans <|
    B3_launch m c main_arg10 (by decide) (by decide) (by decide)

/-- THE FRAME: every weakly fair execution of @main terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (B7_main_arg0 m c),
    (h c _ (mem_uc main_arg1 (by decide))).trans (B7_main_arg1 m c),
    (h c _ (mem_uc main_arg2 (by decide))).trans (B7_main_arg2 m c),
    (h c _ (mem_uc main_arg3 (by decide))).trans (B7_main_arg3 m c),
    (h c _ (mem_uc main_arg4 (by decide))).trans (B7_main_arg4 m c),
    (h c _ (mem_uc main_arg5 (by decide))).trans (B7_main_arg5 m c),
    (h c _ (mem_uc main_arg6 (by decide))).trans (B7_main_arg6 m c),
    (h c _ (mem_uc main_arg7 (by decide))).trans (B7_main_arg7 m c),
    (h c _ (mem_uc main_arg8 (by decide))).trans (B7_main_arg8 m c),
    (h c _ (mem_uc main_arg9 (by decide))).trans (B7_main_arg9 m c),
    (h c _ (mem_uc main_arg10 (by decide))).trans (B7_main_arg10 m c)⟩) (run_reads m ρ)

end Cert.Kernel.Fr

end
-- ==== Proof.KIRegion0.lean ====
/-
  The first kernel region: xw = x · W over eight row tiles of 2048 rows. At a grid point t the body is handed rows
  [2048 t, 2048 (t+1)) of x (window 0), the whole of W (window 1, its block index constant) and the output tile's
  staging buffer (window 2), and stores the 2048 × 256 product of the two loaded blocks over the whole output tile.
  Stated at any float instance and at any contents `V` of the core's buffers when the region is entered.
-/
import proofs.«131769_j3100966387958_2_alg».proof.Proof.Gen.KernelIdeal.Launch
import proofs.«131769_j3100966387958_2_alg».proof.Proof.Gen.KernelIdeal.Skeleton
import proofs.«131769_j3100966387958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the point fetched it or not:
    the block index of an unfetched window has not moved since the fetch. One statement per input window. -/
theorem found0_0_of {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-- The whole of a 2048 × 512 buffer, of a 512 × 256 one and of a 2048 × 256 one: the three rectangles the body touches. -/
abbrev whole0_x : Rect S2048x512 := Rect.unit (s := S2048x512) ![0, 0] S2048x512.size inb_S2048x512_S2048x512_0_0
abbrev whole0_w : Rect S512x256 := Rect.unit (s := S512x256) ![0, 0] S512x256.size inb_S512x256_S512x256_0_0
abbrev whole0_o : Rect S2048x256 := Rect.unit (s := S2048x256) ![0, 0] S2048x256.size inb_S2048x256_S2048x256_0_0

/-- What the body leaves in the output tile's buffer: its one store, the product of the two loaded blocks. -/
def prodTile (x0 : Vec F S2048x512 .f32) (x1 : Vec F S512x256 .f32) : Vec F S2048x256 .f32 :=
  View.canon [⟨whole0_o, k0_pay1 (View.ld x0 whole0_x) (View.ld x1 whole0_w)⟩]

/-- The one store covers the output tile. -/
theorem prodTile_cover (p0 : Vec F S2048x256 .f32) (y : S2048x256.Idx) :
    ∃ pc ∈ ([⟨whole0_o, p0⟩] : List (View.Piece (Elt F) S2048x256 .f32)), y ∈ pc.1.set :=
  View.cover_of_tiled [⟨whole0_o, p0⟩] S2048x256.size (by rfl) y

set_option maxHeartbeats 1000000 in
/-- The body on whole staging memrefs: the two inputs' buffers are read and left as found, the output's ends at the
    product of what was read. -/
theorem body0_triple (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S2048x256 .f32) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (prodTile x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prodTile_cover _)

/-- The region's proof data on core `c`: the arrays as the region finds them; after the body at point `t` each input's
    buffer at its block, the output's at the product of the two blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => prodTile (tile0 V c 0 t) (tile0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = tile0 V c 0 t := by dsimp only [dat0]
theorem dat0_after1 (c : Dev nD) (t : Fin cfg0.N) : (dat0 V c).after 1 t = tile0 V c 1 t := by dsimp only [dat0]
theorem dat0_after2 (c : Dev nD) (t : Fin cfg0.N) :
    (dat0 V c).after 2 t = prodTile (tile0 V c 0 t) (tile0 V c 1 t) := by dsimp only [dat0]

theorem dat0_found0 (c : Dev nD) (t : Fin cfg0.N) (d) : (dat0 V c).before 0 t d = tile0 V c 0 t :=
  found0_0_of V (dat0 V c) (dat0_A V c 0) (dat0_after0 V c) t d
theorem dat0_found1 (c : Dev nD) (t : Fin cfg0.N) (d) : (dat0 V c).before 1 t d = tile0 V c 1 t :=
  found0_1_of V (dat0 V c) (dat0_A V c 1) (dat0_after1 V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's
    dues pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_found0, dat0_found1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0_triple c Set.univ _ _ _ _ _ _ _ (tile0 V c 0 t) (tile0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body0_obligation (c : Dev nD) : BodyObligation (dat0 (F := F) V c) (defs₀ (F := F)) Variants.none () Set.univ := fun t => by
  rw [bigSep_W0, bigSep_W0]
  exact body0_at V c t

end Cert.KernelIdeal.Fr

end
-- ==== Proof.KIRegion1.lean ====
/-
  The second kernel region: the fused projection and the reparameterisation, over sixteen row tiles of 1024 rows.
  At a grid point t the body is handed rows [1024 t, 1024 (t+1)) of the concatenated features (window 0), the whole
  512 × 256 weight (window 1) and the 1 × 256 bias row (window 2), rows [1024 t, 1024 (t+1)) of eps (window 3), and
  four output tiles' staging buffers (windows 4–7). With acc = feat · w + bias it stores acc[:, 0:128] (the mean),
  acc[:, 128:256] (the log-variance), eps · exp(log-variance) + mean (the sample) and the sample again in the
  narrower float format, each over its whole tile. Stated at any float instance and any entry contents `V`.
-/
import proofs.«131769_j3100966387958_2_alg».proof.Proof.Gen.KernelIdeal.Launch
import proofs.«131769_j3100966387958_2_alg».proof.Proof.Gen.KernelIdeal.Skeleton
import proofs.«131769_j3100966387958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the point fetched it or not:
    the block index of an unfetched window has not moved since the fetch. One statement per input window. -/
theorem found1_0_of {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)
theorem found1_1_of {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)
theorem found1_2_of {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)
theorem found1_3_of {c : Dev nD} (dat : Dat τ (Elt F) Unit ℕ (UR sig nD τ) ℕ cfg1 c) (hA : dat.A 3 = V c (Pipeline.arrRef spec1 3))
    (hafter : ∀ t, dat.after 3 t = tile1 V c 3 t) (t : Fin cfg1.N) (d) : dat.before 3 t d = tile1 V c 3 t :=
  (dat.before_in_eq_fetched 3 rfl (fun _ => rfl) (fun _ _ _ => rfl) (fun t => by rw [hafter]; unfold Dat.blockOf tile1; rw [hA]; try rfl) t d).trans
    (by unfold Dat.fetched Dat.blockOf tile1; rw [hA]; try rfl)

/-- The whole of each buffer shape the body touches. -/
abbrev whole1_f : Rect S1024x512 := Rect.unit (s := S1024x512) ![0, 0] S1024x512.size inb_S1024x512_S1024x512_0_0
abbrev whole1_w : Rect S512x256 := Rect.unit (s := S512x256) ![0, 0] S512x256.size inb_S512x256_S512x256_0_0
abbrev whole1_b : Rect S1x256 := Rect.unit (s := S1x256) ![0, 0] S1x256.size inb_S1x256_S1x256_0_0
abbrev whole1_o : Rect S1024x128 := Rect.unit (s := S1024x128) ![0, 0] S1024x128.size inb_S1024x128_S1024x128_0_0

/-- What the body leaves in the four output tiles' buffers, each its one store. -/
def meanTile (x0 : Vec F S1024x512 .f32) (x1 : Vec F S512x256 .f32) (x2 : Vec F S1x256 .f32) : Vec F S1024x128 .f32 :=
  View.canon [⟨whole1_o, k1_pay2 (View.ld x0 whole1_f) (View.ld x1 whole1_w) (View.ld x2 whole1_b)⟩]
def logvarTile (x0 : Vec F S1024x512 .f32) (x1 : Vec F S512x256 .f32) (x2 : Vec F S1x256 .f32) : Vec F S1024x128 .f32 :=
  View.canon [⟨whole1_o, k1_pay3 (View.ld x0 whole1_f) (View.ld x1 whole1_w) (View.ld x2 whole1_b)⟩]
def sampleTile (x0 : Vec F S1024x512 .f32) (x1 : Vec F S512x256 .f32) (x2 : Vec F S1x256 .f32) (x3 : Vec F S1024x128 .f32) : Vec F S1024x128 .f32 :=
  View.canon [⟨whole1_o, k1_pay4 (View.ld x0 whole1_f) (View.ld x1 whole1_w) (View.ld x2 whole1_b) (View.ld x3 whole1_o)⟩]
def narrowTile (x0 : Vec F S1024x512 .f32) (x1 : Vec F S512x256 .f32) (x2 : Vec F S1x256 .f32) (x3 : Vec F S1024x128 .f32) : Vec F S1024x128 .bf16 :=
  View.canon [⟨whole1_o, k1_pay5 (View.ld x0 whole1_f) (View.ld x1 whole1_w) (View.ld x2 whole1_b) (View.ld x3 whole1_o)⟩]

/-- One whole-tile store covers a 1024 × 128 tile, at either element type. -/
theorem tile1_cover {ty : EltTy} (p0 : S1024x128.Idx → Elt F ty) (y : S1024x128.Idx) :
    ∃ pc ∈ ([⟨whole1_o, p0⟩] : List (View.Piece (Elt F) S1024x128 ty)), y ∈ pc.1.set :=
  View.cover_of_tiled [⟨whole1_o, p0⟩] S1024x128.size (by rfl) y

set_option maxHeartbeats 2000000 in
/-- The body on whole staging memrefs: the four inputs' buffers are read and left as found, each output's ends at
    its tile of what was read. -/
theorem body1_triple (c : Dev nD) (E : Set ℕ) (i : grid1.Coords)
    (arg1 : Memref sig .tc .vmem S1024x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .f32) (harg7 : arg7.IsWhole) (arg8 : Memref sig .tc .vmem S1024x128 .bf16) (harg8 : arg8.IsWhole)
    (x0 : Vec F S1024x512 .f32) (x1 : Vec F S512x256 .f32) (x2 : Vec F S1x256 .f32) (x3 : Vec F S1024x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (meanTile x0 x1 x2) ∗ owns (c : Thread nD τ) arg6 fullShare (logvarTile x0 x1 x2)
            ∗ owns (c : Thread nD τ) arg7 fullShare (sampleTile x0 x1 x2 x3) ∗ owns (c : Thread nD τ) arg8 fullShare (narrowTile x0 x1 x2 x3)) -∗ K ⟨⟩))
      ⊢ wp frame (wpE (defs₀ (F := F)) Variants.none c none) E
          (cc1__mu_logvar_z_kernel i arg1 harg1 arg2 harg2 arg3 harg3 arg4 harg4 arg5 harg5 arg6 harg6 arg7 harg7 arg8 harg8) K := by
  simp only [cc1__mu_logvar_z_kernel_eq_skeleton]; unfold cc1__mu_logvar_z_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (tile1_cover _)
  isplitl [H5]
  · iexists _; isplitr
    swap; · iexact H5
    ipureintro
    exact View.read_writes_eq_canon _ _ _ (tile1_cover _)
  isplitl [H6]
  · iexists _; isplitr
    swap; · iexact H6
    ipureintro
    exact View.read_writes_eq_canon _ _ _ (tile1_cover _)
  iexists _; isplitr
  swap; · iexact H7
  ipureintro
  exact View.read_writes_eq_canon _ _ _ (tile1_cover _)

/-- The region's proof data on core `c`. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => meanTile (tile1 V c 0 t) (tile1 V c 1 t) (tile1 V c 2 t)
    | ⟨5, _⟩ => logvarTile (tile1 V c 0 t) (tile1 V c 1 t) (tile1 V c 2 t)
    | ⟨6, _⟩ => sampleTile (tile1 V c 0 t) (tile1 V c 1 t) (tile1 V c 2 t) (tile1 V c 3 t)
    | ⟨7, _⟩ => narrowTile (tile1 V c 0 t) (tile1 V c 1 t) (tile1 V c 2 t) (tile1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = tile1 V c 0 t := by dsimp only [dat1]
theorem dat1_after1 (c : Dev nD) (t : Fin cfg1.N) : (dat1 V c).after 1 t = tile1 V c 1 t := by dsimp only [dat1]
theorem dat1_after2 (c : Dev nD) (t : Fin cfg1.N) : (dat1 V c).after 2 t = tile1 V c 2 t := by dsimp only [dat1]
theorem dat1_after3 (c : Dev nD) (t : Fin cfg1.N) : (dat1 V c).after 3 t = tile1 V c 3 t := by dsimp only [dat1]
theorem dat1_after4 (c : Dev nD) (t : Fin cfg1.N) :
    (dat1 V c).after 4 t = meanTile (tile1 V c 0 t) (tile1 V c 1 t) (tile1 V c 2 t) := by dsimp only [dat1]
theorem dat1_after5 (c : Dev nD) (t : Fin cfg1.N) :
    (dat1 V c).after 5 t = logvarTile (tile1 V c 0 t) (tile1 V c 1 t) (tile1 V c 2 t) := by dsimp only [dat1]
theorem dat1_after6 (c : Dev nD) (t : Fin cfg1.N) :
    (dat1 V c).after 6 t = sampleTile (tile1 V c 0 t) (tile1 V c 1 t) (tile1 V c 2 t) (tile1 V c 3 t) := by dsimp only [dat1]
theorem dat1_after7 (c : Dev nD) (t : Fin cfg1.N) :
    (dat1 V c).after 7 t = narrowTile (tile1 V c 0 t) (tile1 V c 1 t) (tile1 V c 2 t) (tile1 V c 3 t) := by dsimp only [dat1]

theorem dat1_found0 (c : Dev nD) (t : Fin cfg1.N) (d) : (dat1 V c).before 0 t d = tile1 V c 0 t :=
  found1_0_of V (dat1 V c) (dat1_A V c 0) (dat1_after0 V c) t d
theorem dat1_found1 (c : Dev nD) (t : Fin cfg1.N) (d) : (dat1 V c).before 1 t d = tile1 V c 1 t :=
  found1_1_of V (dat1 V c) (dat1_A V c 1) (dat1_after1 V c) t d
theorem dat1_found2 (c : Dev nD) (t : Fin cfg1.N) (d) : (dat1 V c).before 2 t d = tile1 V c 2 t :=
  found1_2_of V (dat1 V c) (dat1_A V c 2) (dat1_after2 V c) t d
theorem dat1_found3 (c : Dev nD) (t : Fin cfg1.N) (d) : (dat1 V c).before 3 t d = tile1 V c 3 t :=
  found1_3_of V (dat1 V c) (dat1_A V c 3) (dat1_after3 V c) t d

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_found0, dat1_found1, dat1_found2, dat1_found3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6, dat1_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body1_triple c Set.univ _ _ _ _ _ _ _ _ _ _ _ _ _ _ _ _ _ (tile1 V c 0 t) (tile1 V c 1 t) (tile1 V c 2 t) (tile1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body1_obligation (c : Dev nD) : BodyObligation (dat1 (F := F) V c) (defs₀ (F := F)) Variants.none () Set.univ := fun t => by
  rw [bigSep_W1, bigSep_W1]
  exact body1_at V c t

end Cert.KernelIdeal.Fr

end
-- ==== Proof.KIRegion2.lean ====
/-
  The third kernel region: adj = logistic (z · zᵀ), over a 16 × 8 grid of output tiles of 1024 × 2048. At the grid
  point (i, j) the body is handed rows [1024 i, 1024 (i+1)) of the narrowed sample (window 0), rows
  [2048 j, 2048 (j+1)) of THE SAME array (window 1) and the output tile's staging buffer (window 2), and stores the
  logistic of the product of the first block with the transpose of the second over the whole output tile.
  The two input windows read one array: the proof data holds it at the left half share for window 0 and the right
  half share for window 1. Stated at any float instance and any entry contents `V`.
-/
import proofs.«131769_j3100966387958_2_alg».proof.Proof.Gen.KernelIdeal.Launch
import proofs.«131769_j3100966387958_2_alg».proof.Proof.Gen.KernelIdeal.Skeleton
import proofs.«131769_j3100966387958_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether the point fetched it or not:
    the block index of an unfetched window has not moved since the fetch. One statement per input window. -/
theorem found2_0_of {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)
theorem found2_1_of {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-- The whole of each buffer shape the body touches. -/
abbrev whole2_i : Rect S1024x128 := Rect.unit (s := S1024x128) ![0, 0] S1024x128.size inb_S1024x128_S1024x128_0_0
abbrev whole2_j : Rect S2048x128 := Rect.unit (s := S2048x128) ![0, 0] S2048x128.size inb_S2048x128_S2048x128_0_0
abbrev whole2_o : Rect S1024x2048 := Rect.unit (s := S1024x2048) ![0, 0] S1024x2048.size inb_S1024x2048_S1024x2048_0_0

/-- What the body leaves in the output tile's buffer: its one store. -/
def adjTile (x0 : Vec F S1024x128 .bf16) (x1 : Vec F S2048x128 .bf16) : Vec F S1024x2048 .f32 :=
  View.canon [⟨whole2_o, k2_pay1 (View.ld x0 whole2_i) (View.ld x1 whole2_j)⟩]

/-- The one store covers the output tile. -/
theorem adjTile_cover (p0 : Vec F S1024x2048 .f32) (y : S1024x2048.Idx) :
    ∃ pc ∈ ([⟨whole2_o, p0⟩] : List (View.Piece (Elt F) S1024x2048 .f32)), y ∈ pc.1.set :=
  View.cover_of_tiled [⟨whole2_o, p0⟩] S1024x2048.size (by rfl) y

set_option maxHeartbeats 1000000 in
/-- The body on whole staging memrefs. -/
theorem body2_triple (c : Dev nD) (E : Set ℕ) (i : grid2.Coords)
    (arg2 : Memref sig .tc .vmem S1024x128 .bf16) (harg2 : arg2.IsWhole) (arg3 : Memref sig .tc .vmem S2048x128 .bf16) (harg3 : arg3.IsWhole)
    (arg4 : Memref sig .tc .vmem S1024x2048 .f32) (harg4 : arg4.IsWhole)
    (x0 : Vec F S1024x128 .bf16) (x1 : Vec F S2048x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (adjTile x0 x1)) -∗ K ⟨⟩))
      ⊢ wp frame (wpE (defs₀ (F := F)) Variants.none c none) E (cc2__adj_kernel i arg2 harg2 arg3 harg3 arg4 harg4) K := by
  simp only [cc2__adj_kernel_eq_skeleton]; unfold cc2__adj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (adjTile_cover _)

/-- The region's proof data on core `c`: the one input array at the left half share for window 0 and at the right
    half share for window 1. -/
def dat2 (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => adjTile (tile2 V c 0 t) (tile2 V c 1 t)
  Φ _ := Pipeline.ΦA spec2 c
  q w := match w with
    | ⟨0, _⟩ => fullShare.left
    | ⟨1, _⟩ => fullShare.right
    | ⟨2, _⟩ => fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = tile2 V c 0 t := by dsimp only [dat2]
theorem dat2_after1 (c : Dev nD) (t : Fin cfg2.N) : (dat2 V c).after 1 t = tile2 V c 1 t := by dsimp only [dat2]
theorem dat2_after2 (c : Dev nD) (t : Fin cfg2.N) :
    (dat2 V c).after 2 t = adjTile (tile2 V c 0 t) (tile2 V c 1 t) := by dsimp only [dat2]
theorem dat2_q0 (c : Dev nD) : (dat2 V c).q 0 = fullShare.left := by dsimp only [dat2]
theorem dat2_q1 (c : Dev nD) : (dat2 V c).q 1 = fullShare.right := by dsimp only [dat2]

theorem dat2_found0 (c : Dev nD) (t : Fin cfg2.N) (d) : (dat2 V c).before 0 t d = tile2 V c 0 t :=
  found2_0_of V (dat2 V c) (dat2_A V c 0) (dat2_after0 V c) t d
theorem dat2_found1 (c : Dev nD) (t : Fin cfg2.N) (d) : (dat2 V c).before 1 t d = tile2 V c 1 t :=
  found2_1_of V (dat2 V c) (dat2_A V c 1) (dat2_after1 V c) t d

def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_found0, dat2_found1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (body2_triple c Set.univ _ _ _ _ _ _ _ (tile2 V c 0 t) (tile2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body2_obligation (c : Dev nD) : BodyObligation (dat2 (F := F) V c) (defs₀ (F := F)) Variants.none () Set.univ := fun t => by
  rw [bigSep_W2, bigSep_W2]
  exact body2_at V c t

/-! ## The one input array, split between the two windows at entry and joined again at exit -/

/-- A window's array held at a share, spelt at its buffer: the array is a whole buffer. -/
theorem arr2_at (c : Dev nD) (w : Fin cfg2.W) (q : PosShare TreeShare) (f : Buf (Elt F) ((cfg2.win w).arr.view.loc (c : Thread nD τ))) :
    (((cfg2.win w).arr.view.loc (c : Thread nD τ)) ↦[(cfg2.win w).arr.view.set]{q} f : sProp 𝕄)
      = (((c : Thread nD τ).loc (Pipeline.arrRef spec2 w)) ↦{q} f) := by
  rw [(arr_whole2 w).set_eq_univ]

set_option maxHeartbeats 2000000 in
/-- The region's three arrays, spelt buffer by buffer: window 0's array at the left half share, window 1's at the right
    half share, the output's at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc (Pipeline.arrRef spec2 0)) ↦{fullShare.left} G 0)
          ∗ (((c : Thread nD τ).loc (Pipeline.arrRef spec2 1)) ↦{fullShare.right} G 1)
          ∗ (((c : Thread nD τ).loc (Pipeline.arrRef spec2 2)) ↦{fullShare} G 2)) := by
  have h0 : (dat2 V c).share 0 = fullShare.left := by unfold Dat.share; rw [if_neg (by decide)]; dsimp only [dat2]
  have h1 : (dat2 V c).share 1 = fullShare.right := by unfold Dat.share; rw [if_neg (by decide)]; dsimp only [dat2]
  have h2 : (dat2 V c).share 2 = fullShare := by unfold Dat.share; rw [if_pos (by decide)]
  have hg : ((dat2 V c).arrays G : sProp 𝕄)
      = bigSep Finset.univ fun w : Fin cfg2.W => ((((c : Thread nD τ).loc (Pipeline.arrRef spec2 w)) ↦{(dat2 V c).share w} G w) : sProp 𝕄) := by
    unfold Dat.arrays
    exact bigSep_congr fun w _ => arr2_at c w _ _
  rw [hg, bigSep_W2, h0, h1, h2]

/-- The two input windows read one array. -/
theorem arr2_shared : Pipeline.arrRef spec2 1 = Pipeline.arrRef spec2 0 := rfl

/-- The buffers behind the region's arrays: the shared input array's and the output array's. -/
theorem arr2_image : Finset.univ.image (Pipeline.arrRef (cfgs 2).spec) = {Pipeline.arrRef spec2 0, Pipeline.arrRef spec2 2} := by decide

theorem arrBufs2_eq (c : Dev nD) (W : (b : Ref sig .tc) → Buf (Elt F) ((c : Thread nD τ).loc b)) :
    (Pipeline.arrBufs (cfgs 2).spec c W : sProp 𝕄)
      = iprop((((c : Thread nD τ).loc (Pipeline.arrRef spec2 0)) ↦{fullShare} W (Pipeline.arrRef spec2 0))
          ∗ (((c : Thread nD τ).loc (Pipeline.arrRef spec2 2)) ↦{fullShare} W (Pipeline.arrRef spec2 2))) := by
  unfold Pipeline.arrBufs
  rw [arr2_image, bigSep_insert (by decide), bigSep_singleton]
  rfl

/-- Entry: the core's unscoped buffers at `V` are the region's arrays at the contents `V` gives them — the shared input
    array's full share split into the two windows' halves — and the unscoped rest. -/
theorem split2 (c : Dev nD) :
    (unscopedBufs c (V c) : sProp 𝕄)
      ⊢ iprop((dat2 V c).arrays (fun w => V c (Pipeline.arrRef spec2 w)) ∗ Pipeline.unscopedRest (cfgs 2).spec c (V c)) := by
  rw [Pipeline.unscopedBufs_split₀ cfgs 2 winFacts₀2.arr_unscoped c (V c), arrays2_eq, arrBufs2_eq, arr2_shared]
  refine sep_mono ?_ .rfl
  exact (sep_mono (pointsTo_share (PosShare.mem_left_op_right fullShare)).1 .rfl).trans Idealize.SL.BI.sep_assoc

/-- Exit: the two halves of the input array still at `V`'s contents, the output array at `Z` and the unscoped rest at `V`
    are the core's unscoped buffers at any `V'` that has the output array at `Z` and agrees with `V` elsewhere. -/
theorem join2 (V' : (c : Dev nD) → (b : Ref sig .tc) → Buf (Elt F) ((c : Thread nD τ).loc b)) (c : Dev nD)
    (Z : Buf (Elt F) ((c : Thread nD τ).loc (Pipeline.arrRef spec2 2)))
    (hout : V' c (Pipeline.arrRef spec2 2) = Z) (hrest : ∀ b, b ≠ Pipeline.arrRef spec2 2 → V' c b = V c b) :
    iprop((((c : Thread nD τ).loc (Pipeline.arrRef spec2 0)) ↦{fullShare.left} V c (Pipeline.arrRef spec2 0))
        ∗ (((c : Thread nD τ).loc (Pipeline.arrRef spec2 0)) ↦{fullShare.right} V c (Pipeline.arrRef spec2 0))
        ∗ (((c : Thread nD τ).loc (Pipeline.arrRef spec2 2)) ↦{fullShare} Z)
        ∗ Pipeline.unscopedRest (cfgs 2).spec c (V c)) ⊢ (unscopedBufs c (V' c) : sProp 𝕄) := by
  have hR : (Pipeline.unscopedRest (cfgs 2).spec c (V' c) : sProp 𝕄) = Pipeline.unscopedRest (cfgs 2).spec c (V c) := by
    unfold Pipeline.unscopedRest
    refine bigSep_congr fun b hb => ?_
    rw [hrest b fun e => (Finset.mem_sdiff.mp hb).2 (Finset.mem_image.mpr ⟨2, Finset.mem_univ _, e.symm⟩)]
  rw [Pipeline.unscopedBufs_split₀ cfgs 2 winFacts₀2.arr_unscoped c (V' c), arrBufs2_eq, hout, hrest _ (by decide), hR]
  iintro ⟨Hl, Hr, Ho, Hrest⟩
  isplitl [Hl Hr Ho]
  · isplitl [Hl Hr]
    · iapply (pointsTo_share (PosShare.mem_left_op_right fullShare)).2
      isplitl [Hl] <;> iassumption
    iexact Ho
  iexact Hrest

/-- The entry in the form a region's record asks: the arrays at the proof data's contents before the first point. -/
theorem enter2 (c : Dev nD) :
    (unscopedBufs c (V c) : sProp 𝕄) ⊢ iprop((dat2 V c).arrays ((dat2 V c).arrAt · 0) ∗ Pipeline.unscopedRest (cfgs 2).spec c (V c)) :=
  split2 V c

/-- The exit in the form a region's record asks: the arrays at the proof data's contents after the last point. -/
theorem leave2 (V' : (c : Dev nD) → (b : Ref sig .tc) → Buf (Elt F) ((c : Thread nD τ).loc b)) (c : Dev nD)
    (hout : V' c (Pipeline.arrRef spec2 2) = (dat2 V c).arrAt 2 cfg2.N) (hrest : ∀ b, b ≠ Pipeline.arrRef spec2 2 → V' c b = V c b) :
    iprop((dat2 V c).arrays ((dat2 V c).arrAt · cfg2.N) ∗ Pipeline.unscopedRest (cfgs 2).spec c (V c)) ⊢ (unscopedBufs c (V' c) : sProp 𝕄) := by
  have e0 : (dat2 V c).arrAt 0 cfg2.N = V c (Pipeline.arrRef spec2 0) := ((dat2 V c).arrAt_in 0 rfl _).trans (dat2_A V c 0)
  have e1 : (dat2 V c).arrAt 1 cfg2.N = V c (Pipeline.arrRef spec2 1) := ((dat2 V c).arrAt_in 1 rfl _).trans (dat2_A V c 1)
  rw [arrays2_eq, e0, e1, arr2_shared]
  iintro ⟨⟨Hl, Hr, Ho⟩, Hrest⟩
  iapply (join2 V V' c _ hout hrest)
  isplitl [Hl]; · iexact Hl
  isplitl [Hr]; · iexact Hr
  isplitl [Ho]; · iexact Ho
  iexact Hrest

end Cert.KernelIdeal.Fr

end
-- ==== Proof.KIRun.lean ====
/-
  The run of @main as seven segments — three stretches of host operations, the first kernel region, a fourth stretch,
  the second and the third kernel regions — over one thread state per boundary: every unscoped buffer of the core held
  at that boundary's contents, the generator register at some state, nothing owed. The contents are a fold from the
  launch memory: a host stretch applies its operations; a region leaves its output arrays at what its write-backs
  leave and everything else as entered. The run ends with every unscoped buffer read at the last boundary's contents.
-/
import proofs.«131769_j3100966387958_2_alg».proof.Proof.KIRegion0
import proofs.«131769_j3100966387958_2_alg».proof.Proof.KIRegion1
import proofs.«131769_j3100966387958_2_alg».proof.Proof.KIRegion2
import proofs.«131769_j3100966387958_2_alg».proof.Proof.Gen.KernelIdeal.Regions
import Idealize.ShloMosaic.Lib.Pipeline.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the boundaries -/

/-- At launch. -/
abbrev B0 (c : Dev nD) : Valuation τ sig (Elt F) := fun b => m (c, b)
/-- After the first, second and third stretches of host operations (the first region's entry). -/
abbrev B1 (c : Dev nD) : Valuation τ sig (Elt F) := StableHlo.after hostOps0 (B0 m c)
abbrev B2 (c : Dev nD) : Valuation τ sig (Elt F) := StableHlo.after hostOps0_1 (B1 m c)
abbrev B3 (c : Dev nD) : Valuation τ sig (Elt F) := StableHlo.after hostOps0_2 (B2 m c)
abbrev E3 : (c : Dev nD) → (b : Ref sig .tc) → Buf (Elt F) ((c : Thread nD τ).loc b) := fun c b => B3 m c b
/-- After the first region: its arrays at what the pipeline leaves, the rest as entered. -/
def B4 (c : Dev nD) : Valuation τ sig (Elt F) :=
  Pipeline.withArrays spec0 c (B3 m c) fun w => (dat0 (E3 m) c).arrAt w cfg0.N
abbrev E4 : (c : Dev nD) → (b : Ref sig .tc) → Buf (Elt F) ((c : Thread nD τ).loc b) := fun c b => B4 m c b
/-- After the fourth stretch (the second region's entry). -/
abbrev B5 (c : Dev nD) : Valuation τ sig (Elt F) := StableHlo.after hostOps1 (B4 m c)
abbrev E5 : (c : Dev nD) → (b : Ref sig .tc) → Buf (Elt F) ((c : Thread nD τ).loc b) := fun c b => B5 m c b
/-- After the second region (the third region's entry). -/
def B6 (c : Dev nD) : Valuation τ sig (Elt F) :=
  Pipeline.withArrays spec1 c (B5 m c) fun w => (dat1 (E5 m) c).arrAt w cfg1.N
abbrev E6 : (c : Dev nD) → (b : Ref sig .tc) → Buf (Elt F) ((c : Thread nD τ).loc b) := fun c b => B6 m c b
/-- After the third region: its one output array at what the write-backs leave; its input array is only read. -/
def B7 (c : Dev nD) : Valuation τ sig (Elt F) :=
  Function.update (B6 m c) (Proc.devRef .tc main_v68) ((dat2 (E6 m) c).arrAt 2 cfg2.N)
abbrev E7 : (c : Dev nD) → (b : Ref sig .tc) → Buf (Elt F) ((c : Thread nD τ).loc b) := fun c b => B7 m c b

theorem B4_arr (c : Dev nD) (w : Fin cfg0.W) :
    B4 m c (Proc.devRef .tc (Pipeline.arrRef spec0 w)) = (dat0 (E3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
theorem exitArr0 (c : Dev nD) (w : Fin cfg0.W) : (dat0 (E3 m) c).arrAt w cfg0.N = E4 m c (Pipeline.arrRef spec0 w) :=
  (B4_arr m c w).symm
theorem exitRest0 (c : Dev nD) : ∀ b, b ∉ Finset.univ.image (Pipeline.arrRef spec0) → E4 m c b = E3 m c b :=
  fun b hb => B4_of_ne m c b fun w e => hb (Finset.mem_image.mpr ⟨w, Finset.mem_univ _, e⟩)

theorem B6_arr (c : Dev nD) (w : Fin cfg1.W) :
    B6 m c (Proc.devRef .tc (Pipeline.arrRef spec1 w)) = (dat1 (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
theorem exitArr1 (c : Dev nD) (w : Fin cfg1.W) : (dat1 (E5 m) c).arrAt w cfg1.N = E6 m c (Pipeline.arrRef spec1 w) :=
  (B6_arr m c w).symm
theorem exitRest1 (c : Dev nD) : ∀ b, b ∉ Finset.univ.image (Pipeline.arrRef spec1) → E6 m c b = E5 m c b :=
  fun b hb => B6_of_ne m c b fun w e => hb (Finset.mem_image.mpr ⟨w, Finset.mem_univ _, e⟩)

theorem B7_out (c : Dev nD) : B7 m c (Proc.devRef .tc main_v68) = (dat2 (E6 m) c).arrAt 2 cfg2.N := by
  unfold B7; exact Function.update_self _ _ _
theorem B7_of_ne (c : Dev nD) (b : Ref sig .tc) (hb : b ≠ main_v68) :
    B7 m c (Proc.devRef .tc b) = B6 m c (Proc.devRef .tc b) := by
  unfold B7; exact Function.update_of_ne (StableHlo.devRef_ne_of_ne hb) _ _

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (B7 m c) ∗ ∃ r, prngReg c r)

/-! ## The regions as segments -/

set_option backward.isDefEq.respectTransparency.types false in
/-- The first region over the thread state: entered from every unscoped buffer at `B3`, left at `B4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0_obligation (E3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `B5`, left at `B6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1_obligation (E5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third region over the thread state: entered from every unscoped buffer at `B6`, left at `B7`. Its two input
    windows read one array: the entry splits that array's share between them, the exit joins the halves. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body2_obligation (E6 m) c).loose
  hwaits := Pipeline.hwaits_of_owed_zero _ _ _ _ L lv 2 fun _ _ => rfl
  pre c := iprop(StableHlo.held (c : Thread nD τ) (Pipeline.ucRefs τ sig) (B6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) (cfgs 2).spec c (E6 m c)
  hentry c := by
    rw [Pipeline.ownSems0_none]
    have hsplit : (unscopedBufs c (E6 m c) : sProp 𝕄)
        ⊢ iprop((pdats m 2 c).arrays ((pdats m 2 c).arrAt · 0)
          ∗ Pipeline.unscopedRest (Ix := Unit) (Name := ℕ) (U := UR sig nD τ) (Lvl := ℕ) (cfgs 2).spec c (E6 m c)) :=
      enter2 (F := F) (E6 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) (cfgs 2).spec c (E6 m c))
        ⊢ (unscopedBufs c (E7 m c) : sProp 𝕄) :=
      leave2 (F := F) (E6 m) (E7 m) c (B7_out m c) (fun b hb => B7_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .host (hseg hostOps1 hostOps1_sub hostOps1_fresh (B4 m)),
    .region (reg1 m),
    .region (reg2 m) ]

/-- @main is the run of the segments. -/
theorem main_is_segs (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds each unscoped buffer of each core at the last boundary's contents. -/
theorem run_reads (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B7 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c => h c)

/-! ## The arguments end as launched -/

/-- A buffer no operation of the first three stretches writes holds its launch contents at the first region's entry. -/
theorem B3_launch (c : Dev nD) (r : Ref sig .tc) (h0 : r ∉ hostOps0_W) (h1 : r ∉ hostOps0_1_W) (h2 : r ∉ hostOps0_2_W) :
    B3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0).trans rfl
/-- A buffer no operation of the fourth stretch writes is unchanged by it. -/
theorem B5_B4 (c : Dev nD) (r : Ref sig .tc) (h : r ∉ hostOps1_W) : B5 m c (Proc.devRef .tc r) = B4 m c (Proc.devRef .tc r) :=
  StableHlo.after_of_writes_sub hostOps1 _ hostOps1_writes h

/-- `main_arg0` reaches the end as launched. -/
theorem B7_main_arg0 (c : Dev nD) : B7 m c (Proc.devRef .tc main_arg0) = m ((c : Thread nD τ).loc main_arg0) :=
  (B7_of_ne m c main_arg0 (by decide)).trans <|
    (B6_of_ne m c main_arg0 (by decide)).trans <|
    (B5_B4 m c main_arg0 (by decide)).trans <|
    ((B4_arr m c 0).trans (((dat0 (E3 m) c).arrAt_in 0 rfl _).trans (dat0_A (E3 m) c 0))).trans <|
    B3_launch m c main_arg0 (by decide) (by decide) (by decide)
/-- `main_arg1` reaches the end as launched. -/
theorem B7_main_arg1 (c : Dev nD) : B7 m c (Proc.devRef .tc main_arg1) = m ((c : Thread nD τ).loc main_arg1) :=
  (B7_of_ne m c main_arg1 (by decide)).trans <|
    (B6_of_ne m c main_arg1 (by decide)).trans <|
    (B5_B4 m c main_arg1 (by decide)).trans <|
    (B4_of_ne m c main_arg1 (by decide)).trans <|
    B3_launch m c main_arg1 (by decide) (by decide) (by decide)
/-- `main_arg2` reaches the end as launched. -/
theorem B7_main_arg2 (c : Dev nD) : B7 m c (Proc.devRef .tc main_arg2) = m ((c : Thread nD τ).loc main_arg2) :=
  (B7_of_ne m c main_arg2 (by decide)).trans <|
    (B6_of_ne m c main_arg2 (by decide)).trans <|
    (B5_B4 m c main_arg2 (by decide)).trans <|
    ((B4_arr m c 1).trans (((dat0 (E3 m) c).arrAt_in 1 rfl _).trans (dat0_A (E3 m) c 1))).trans <|
    B3_launch m c main_arg2 (by decide) (by decide) (by decide)
/-- `main_arg3` reaches the end as launched. -/
theorem B7_main_arg3 (c : Dev nD) : B7 m c (Proc.devRef .tc main_arg3) = m ((c : Thread nD τ).loc main_arg3) :=
  (B7_of_ne m c main_arg3 (by decide)).trans <|
    (B6_of_ne m c main_arg3 (by decide)).trans <|
    (B5_B4 m c main_arg3 (by decide)).trans <|
    (B4_of_ne m c main_arg3 (by decide)).trans <|
    B3_launch m c main_arg3 (by decide) (by decide) (by decide)
/-- `main_arg4` reaches the end as launched. -/
theorem B7_main_arg4 (c : Dev nD) : B7 m c (Proc.devRef .tc main_arg4) = m ((c : Thread nD τ).loc main_arg4) :=
  (B7_of_ne m c main_arg4 (by decide)).trans <|
    (B6_of_ne m c main_arg4 (by decide)).trans <|
    (B5_B4 m c main_arg4 (by decide)).trans <|
    (B4_of_ne m c main_arg4 (by decide)).trans <|
    B3_launch m c main_arg4 (by decide) (by decide) (by decide)
/-- `main_arg5` reaches the end as launched. -/
theorem B7_main_arg5 (c : Dev nD) : B7 m c (Proc.devRef .tc main_arg5) = m ((c : Thread nD τ).loc main_arg5) :=
  (B7_of_ne m c main_arg5 (by decide)).trans <|
    (B6_of_ne m c main_arg5 (by decide)).trans <|
    (B5_B4 m c main_arg5 (by decide)).trans <|
    (B4_of_ne m c main_arg5 (by decide)).trans <|
    B3_launch m c main_arg5 (by decide) (by decide) (by decide)
/-- `main_arg6` reaches the end as launched. -/
theorem B7_main_arg6 (c : Dev nD) : B7 m c (Proc.devRef .tc main_arg6) = m ((c : Thread nD τ).loc main_arg6) :=
  (B7_of_ne m c main_arg6 (by decide)).trans <|
    (B6_of_ne m c main_arg6 (by decide)).trans <|
    (B5_B4 m c main_arg6 (by decide)).trans <|
    (B4_of_ne m c main_arg6 (by decide)).trans <|
    B3_launch m c main_arg6 (by decide) (by decide) (by decide)
/-- `main_arg7` reaches the end as launched. -/
theorem B7_main_arg7 (c : Dev nD) : B7 m c (Proc.devRef .tc main_arg7) = m ((c : Thread nD τ).loc main_arg7) :=
  (B7_of_ne m c main_arg7 (by decide)).trans <|
    (B6_of_ne m c main_arg7 (by decide)).trans <|
    (B5_B4 m c main_arg7 (by decide)).trans <|
    (B4_of_ne m c main_arg7 (by decide)).trans <|
    B3_launch m c main_arg7 (by decide) (by decide) (by decide)
/-- `main_arg8` reaches the end as launched. -/
theorem B7_main_arg8 (c : Dev nD) : B7 m c (Proc.devRef .tc main_arg8) = m ((c : Thread nD τ).loc main_arg8) :=
  (B7_of_ne m c main_arg8 (by decide)).trans <|
    (B6_of_ne m c main_arg8 (by decide)).trans <|
    (B5_B4 m c main_arg8 (by decide)).trans <|
    (B4_of_ne m c main_arg8 (by decide)).trans <|
    B3_launch m c main_arg8 (by decide) (by decide) (by decide)
/-- `main_arg9` reaches the end as launched. -/
theorem B7_main_arg9 (c : Dev nD) : B7 m c (Proc.devRef .tc main_arg9) = m ((c : Thread nD τ).loc main_arg9) :=
  (B7_of_ne m c main_arg9 (by decide)).trans <|
    (B6_of_ne m c main_arg9 (by decide)).trans <|
    (B5_B4 m c main_arg9 (by decide)).trans <|
    (B4_of_ne m c main_arg9 (by decide)).trans <|
    B3_launch m c main_arg9 (by decide) (by decide) (by decide)
/-- `main_arg10` reaches the end as launched. -/
theorem B7_main_arg10 (c : Dev nD) : B7 m c (Proc.devRef .tc main_arg10) = m ((c : Thread nD τ).loc main_arg10) :=
  (B7_of_ne m c main_arg10 (by decide)).trans <|
    ((B6_arr m c 3).trans (((dat1 (E5 m) c).arrAt_in 3 rfl _).trans (dat1_A (E5 m) c 3))).trans <|
    (B5_B4 m c main_arg10 (by decide)).trans <|
    (B4_of_ne m c main_arg10 (by decide)).trans <|
    B3_launch m c main_arg10 (by decide) (by decide) (by decide)

/-- THE FRAME: every weakly fair execution of @main terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (B7_main_arg0 m c),
    (h c _ (mem_uc main_arg1 (by decide))).trans (B7_main_arg1 m c),
    (h c _ (mem_uc main_arg2 (by decide))).trans (B7_main_arg2 m c),
    (h c _ (mem_uc main_arg3 (by decide))).trans (B7_main_arg3 m c),
    (h c _ (mem_uc main_arg4 (by decide))).trans (B7_main_arg4 m c),
    (h c _ (mem_uc main_arg5 (by decide))).trans (B7_main_arg5 m c),
    (h c _ (mem_uc main_arg6 (by decide))).trans (B7_main_arg6 m c),
    (h c _ (mem_uc main_arg7 (by decide))).trans (B7_main_arg7 m c),
    (h c _ (mem_uc main_arg8 (by decide))).trans (B7_main_arg8 m c),
    (h c _ (mem_uc main_arg9 (by decide))).trans (B7_main_arg9 m c),
    (h c _ (mem_uc main_arg10 (by decide))).trans (B7_main_arg10 m c)⟩) (run_reads m ρ)

end Cert.KernelIdeal.Fr

end
-- ==== Proof.Spec.lean ====
/-
  The results as whole-array functions over the extended reals, index by index.

  * `prod x w`: the matrix product, `(x · w)(p, q) = ∑ k, x(p, k) · w(k, q)`.
  * `affineCols N o x w b`: columns `o … o + N - 1` of `x · w + b`, the bias `b` one row added to every row.
  * `sample eps lv mu`: `eps · exp lv + mu`, entry by entry.
  * `gram z`: `logistic (z · zᵀ)`, `(p, q) ↦ logistic (∑ k, z(p, k) · z(q, k))`.
-/
import Idealize.ShloMosaic.Lib.ValueIdx
import Idealize.ShloMosaic.PureOps.Ideal

noncomputable section

namespace Cert.Spec

open Idealize.ShloMosaic Idealize.ShloMosaic.ValueIdx

/-- An `r × c` array of extended reals. -/
abbrev Mat (r c : ℕ) : Type := (⟨2, ![r, c]⟩ : Shape).Idx → EReal

/-- The matrix product. -/
def prod {M K N : ℕ} (x : Mat M K) (w : Mat K N) : Mat M N :=
  fun i => ∑ k : Fin K, x (ix2 (i 0) k) * w (ix2 k (i 1))

theorem prod_ix2 {M K N : ℕ} (x : Mat M K) (w : Mat K N) (p : Fin M) (q : Fin N) :
    prod x w (ix2 p q) = ∑ k : Fin K, x (ix2 p k) * w (ix2 k q) := rfl

/-- Columns `o … o + N - 1` of `x · w + b`, where the one row `b` is added to every row of the product. -/
def affineCols {M K C : ℕ} (N o : ℕ) (h : o + N ≤ C) (x : Mat M K) (w : Mat K C) (b : Mat 1 C) : Mat M N :=
  fun i => (∑ k : Fin K, x (ix2 (i 0) k) * w (ix2 k ⟨o + (i 1).val, by have := idx2_lt1 i; omega⟩))
    + b (ix2 0 ⟨o + (i 1).val, by have := idx2_lt1 i; omega⟩)

theorem affineCols_ix2 {M K C : ℕ} (N o : ℕ) (h : o + N ≤ C) (x : Mat M K) (w : Mat K C) (b : Mat 1 C) (p : Fin M) (q : Fin N) :
    affineCols N o h x w b (ix2 p q)
      = (∑ k : Fin K, x (ix2 p k) * w (ix2 k ⟨o + q.val, by omega⟩)) + b (ix2 0 ⟨o + q.val, by omega⟩) := rfl

/-- `eps · exp lv + mu`, entry by entry. -/
def sample {M N : ℕ} (eps lv mu : Mat M N) : Mat M N := fun i => eps i * Ideal.exp (lv i) + mu i

/-- `logistic (z · zᵀ)`. -/
def gram {M K : ℕ} (z : Mat M K) : Mat M M :=
  fun i => Ideal.logistic (∑ k : Fin K, z (ix2 (i 0) k) * z (ix2 (i 1) k))

theorem gram_ix2 {M K : ℕ} (z : Mat M K) (p q : Fin M) :
    gram z (ix2 p q) = Ideal.logistic (∑ k : Fin K, z (ix2 p k) * z (ix2 q k)) := rfl

end Cert.Spec

end
-- ==== Proof.LibAffineLayer.lean ====
/-
  General lemmas for an affine layer `x ↦ x · W + b` written two ways: as ONE product over a concatenated
  operand, and as a SUM of products over the concatenation's pieces against the matching row blocks of `W`.

  * `sum_split2`, `sum_split3`: a finite sum over `Fin n` is the sum of its sums over two (three) consecutive
    ranges — in any commutative monoid, so it holds on the extended reals with no finiteness asked.
  * `plain_sum`: the contraction sum of a plain `[M,K] × [K,N]` product (one contracted axis, no batch axis),
    read at the output index `(p, q)`, is `∑ k, l (p, k) · r (k, q)`.
  * `matmul_zero_ix2` / `dotGeneral_ix2`: a matrix product into a zero accumulator, and the host's product, at the
    ideal values are that sum.
  * `concat2_left/right`, `concat3_fst/snd/thd`: a concatenation of two (three) matrices along the columns read at
    `(p, k)` with `k` in the first, second, third range of columns.
  * `row_bias_apply`: a vector cast to one row and broadcast over many rows reads, at `(p, q)`, the vector at `q`.
  * `rowBlock`, `slice_rows_eq`: rows `o … o + r - 1` of a matrix, and a slice along the rows as that block.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.AffineLayer

open Idealize.ShloMosaic Idealize.ShloMosaic.ValueIdx

/-! ## Sums over consecutive ranges -/

/-- A sum over `Fin n` with `n = a + b` is the sum over the first `a` positions plus the sum over the next `b`. -/
theorem sum_split2 {M : Type*} [AddCommMonoid M] (a b n : ℕ) (h : a + b = n) (f : Fin n → M) :
    ∑ k : Fin n, f k = ∑ k : Fin a, f ⟨k.val, by omega⟩ + ∑ k : Fin b, f ⟨a + k.val, by omega⟩ := by
  subst h
  rw [Fin.sum_univ_add]
  rfl

/-- A sum over `Fin n` with `n = a + b + c` is the sum of its sums over the three consecutive ranges. -/
theorem sum_split3 {M : Type*} [AddCommMonoid M] (a b c n : ℕ) (h : a + b + c = n) (f : Fin n → M) :
    ∑ k : Fin n, f k
      = (∑ k : Fin a, f ⟨k.val, by omega⟩ + ∑ k : Fin b, f ⟨a + k.val, by omega⟩) + ∑ k : Fin c, f ⟨a + b + k.val, by omega⟩ := by
  subst h
  rw [Fin.sum_univ_add, Fin.sum_univ_add]
  rfl

/-! ## A plain matrix product read at an index -/

/-- The contraction sum of a plain `[M,K] × [K,N]` product at the output index `(p, q)`: the left operand's row `p`
    against the right operand's column `q`. -/
theorem plain_sum {M K N : ℕ} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- A kernel's matrix product into the zero accumulator, at the ideal values, read at `(p, q)`. -/
theorem matmul_zero_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    matmul D prec a b (constant (F := Ideal) ⟨2, ![M, N]⟩ .f32 0x00000000#32) (ix2 p q)
      = ∑ k : Fin K, a (ix2 p k) * b (ix2 k q) := by
  subst hD
  exact (Ideal.matmul_constant_zero_apply _ prec a b (ix2 p q)).trans (plain_sum a b p q)

/-- The host's matrix product, at the ideal values, read at `(p, q)`. -/
theorem dotGeneral_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    Host.dotGeneral D prec a b (ix2 p q) = ∑ k : Fin K, a (ix2 p k) * b (ix2 k q) := by
  subst hD
  exact (Ideal.dotGeneral_apply _ prec .single a b (ix2 p q)).trans (plain_sum a b p q)

/-! ## A concatenation along the columns read at an index -/

section Concat
variable {α : Type}

/-- Two matrices joined along the columns, read in the first one's columns. -/
theorem concat2_left {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩] h (ix2 p k') = x₁ (ix2 p k) :=
  concatenate_apply_piece 1 [⟨⟨2, ![R, a]⟩, x₁⟩, ⟨⟨2, ![R, b]⟩, x₂⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Two matrices joined along the columns, read in the second one's columns. -/
theorem concat2_right {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩] h (ix2 p k') = x₂ (ix2 p k) :=
  concatenate_apply_piece 1 [⟨⟨2, ![R, a]⟩, x₁⟩, ⟨⟨2, ![R, b]⟩, x₂⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the first one's columns. -/
theorem concat3_fst {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩, ⟨⟨2, ![R, c]⟩, x₃⟩] h (ix2 p k') = x₁ (ix2 p k) :=
  concatenate_apply_piece 1 [⟨⟨2, ![R, a]⟩, x₁⟩, ⟨⟨2, ![R, b]⟩, x₂⟩, ⟨⟨2, ![R, c]⟩, x₃⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Three matrices joined along the columns, read in the second one's columns. -/
theorem concat3_snd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩, ⟨⟨2, ![R, c]⟩, x₃⟩] h (ix2 p k') = x₂ (ix2 p k) :=
  concatenate_apply_piece 1 [⟨⟨2, ![R, a]⟩, x₁⟩, ⟨⟨2, ![R, b]⟩, x₂⟩, ⟨⟨2, ![R, c]⟩, x₃⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the third one's columns. -/
theorem concat3_thd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin c) (k' : Fin n)
    (hk : k'.val = a + b + k.val) :
    concatenate ⟨2, ![R, n]⟩ 1 [⟨⟨2, ![R, a]⟩, x₁⟩, ⟨⟨2, ![R, b]⟩, x₂⟩, ⟨⟨2, ![R, c]⟩, x₃⟩] h (ix2 p k') = x₃ (ix2 p k) :=
  concatenate_apply_piece 1 [⟨⟨2, ![R, a]⟩, x₁⟩, ⟨⟨2, ![R, b]⟩, x₂⟩, ⟨⟨2, ![R, c]⟩, x₃⟩] h (ix2 p k') 2 (Nat.succ_lt_succ (Nat.succ_lt_succ (Nat.zero_lt_succ _))) _ x₃ rfl rfl (a + b) (by simp) (ix2 p k)
    (fun b hb => by
      match b with
      | ⟨0, _⟩ => rfl
      | ⟨1, _⟩ => exact absurd rfl hb)
    (by show a + b + k.val = k'.val; omega)

/-- A vector cast to one row and broadcast over `a` rows reads, at `(p, q)`, the vector at `q`. -/
theorem row_bias_apply {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix1 q) :=
  (broadcastTo_1b_ab_apply _ h₂ p q).trans (shapeCast_a_1a_apply v h₁ 0 q)

/-- Rows `o … o + r - 1` of a matrix with `n` rows. -/
def rowBlock {n c : ℕ} (o r : ℕ) (h : o + r ≤ n) (W : (⟨2, ![n, c]⟩ : Shape).Idx → α) : (⟨2, ![r, c]⟩ : Shape).Idx → α :=
  fun j => W (ix2 ⟨o + (j 0).val, by have := idx2_lt0 j; omega⟩ (j 1))

theorem rowBlock_ix2 {n c : ℕ} (o r : ℕ) (h : o + r ≤ n) (W : (⟨2, ![n, c]⟩ : Shape).Idx → α) (p : Fin r) (q : Fin c) :
    rowBlock o r h W (ix2 p q) = W (ix2 ⟨o + p.val, by omega⟩ q) := rfl

/-- A slice of a matrix along its rows from row `o` is that block of rows. -/
theorem slice_rows_eq {n c r : ℕ} (o : ℕ) (h : o + r ≤ n) (W : (⟨2, ![n, c]⟩ : Shape).Idx → α)
    (hs : (⟨2, ![n, c]⟩ : Shape).Slices ![o, 0] ⟨2, ![r, c]⟩) :
    extractStridedSlice ⟨2, ![r, c]⟩ ![o, 0] W hs = rowBlock o r h W := by
  funext j
  obtain ⟨p, q, rfl⟩ : ∃ (p : Fin r) (q : Fin c), j = ix2 p q := ⟨j 0, j 1, eq_ix2 j⟩
  exact slice2_axis0_apply o W hs p q ⟨o + p.val, by omega⟩ rfl

end Concat

end Cert.Lib.AffineLayer

end
-- ==== Proof.KIValue0.lean ====
/-
  The first region's output as one function of its inputs: after the eight points have run, the output array is the
  matrix product of the two input arrays, (x · W)(r, q) = ∑ k, x(r, k) · W(k, q), over the extended reals.

  * `pay0_ix2`: the body's one stored value at the entry (p, q) of a tile is row p of the first loaded block against
    column q of the second.
  * `pay0_block`: so, when the first block is rows 2048 r … 2048 r + 2047 of A and the second all of B, that entry is
    (A · B)(2048 r + p, q).
  * `idx_facts0`: the index maps over the grid — block (t, 0) of the first operand and of the output, block (0, 0)
    of the second.
  * `flushed0_eq`: what point t writes back is block t of the product; `mem_blk0`: the indices of a block;
    `prod_final`: the blocks of the eight points cover the array (row r is in the block of point r / 2048).
-/
import proofs.«131769_j3100966387958_2_alg».proof.Proof.KIRegion0
import proofs.«131769_j3100966387958_2_alg».proof.Proof.Spec
import proofs.«131769_j3100966387958_2_alg».proof.Proof.LibAffineLayer
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val0

open Cert.KernelIdeal Cert.KernelIdeal.Gen Cert.KernelIdeal.Fr Cert.Spec Cert.Lib.AffineLayer
open Idealize.ShloMosaic Idealize.ShloMosaic.ValueIdx Idealize.ShloMosaic.TcCoe
open Idealize.ShloMosaic.Pipeline (Dat)

theorem hz : (![0, 0] : Fin 2 → Nat) = fun _ => 0 := funext fun a => by fin_cases a <;> rfl

/-- The dimension numbers of the block product are the plain ones: the left operand's columns against the right
    operand's rows. -/
theorem dot0_plain : dot_S2048x512_S512x256_S2048x256_1_0_0_1_n_n = DotDims.plain 2048 512 256 := rfl

/-- The body's payload at the entry (p, q) of the output tile: row p of the first loaded block against column q of
    the second (the two narrowings are the identity on extended reals, the accumulator is zero). -/
theorem pay0_ix2 (x0 : Vec Ideal S2048x512 .f32) (x1 : Vec Ideal S512x256 .f32) (p : Fin 2048) (q : Fin 256) :
    k0_pay1 x0 x1 (ix2 p q) = ∑ k : Fin 512, x0 (ix2 p k) * x1 (ix2 k q) := by
  unfold Gen.k0_pay1
  exact matmul_zero_ix2 _ dot0_plain none _ _ p q

/-- A tile of the product from tiles of its factors: when the first block is rows 2048 r … 2048 r + 2047 of A and
    the second is all of B, the payload at (p, q) is (A · B)(2048 r + p, q). -/
theorem pay0_block (A : Mat 16384 512) (B : Mat 512 256) (x0 : Vec Ideal S2048x512 .f32) (x1 : Vec Ideal S512x256 .f32)
    (r : ℕ) (hr : r < 8)
    (h0 : ∀ (p : Fin 2048) (k : Fin 512), x0 (ix2 p k) = A (ix2 ⟨2048 * r + p.val, by have := p.isLt; omega⟩ k))
    (h1 : ∀ (k : Fin 512) (q : Fin 256), x1 (ix2 k q) = B (ix2 k q))
    (p : Fin 2048) (q : Fin 256) (i : (⟨2, ![16384, 256]⟩ : Shape).Idx)
    (hi0 : (i 0).val = 2048 * r + p.val) (hi1 : (i 1).val = q.val) :
    k0_pay1 x0 x1 (ix2 p q) = prod A B i := by
  rw [pay0_ix2]
  have ei : i = ix2 ⟨2048 * r + p.val, by have := p.isLt; omega⟩ q := funext fun a => by
    match a with
    | ⟨0, _⟩ => exact Fin.ext hi0
    | ⟨1, _⟩ => exact Fin.ext hi1
  rw [ei, prod_ix2]
  exact Finset.sum_congr rfl fun k _ => by rw [h0 p k, h1 k q]

/-- The printed index maps over the eight points: the first operand's window and the output's move down the rows
    with the point, the second operand's stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the two arrays as the region finds them. -/
theorem flushed0_eq (c : Dev nD) (t : Fin cfg0.N) :
    (dat0 (F := Ideal) V c).flushed 2 t
      = ((cfg0.win 2).blk t).view.read (Elt Ideal) (prod (V c main_arg0) (V c main_arg2)) := by
  show (cfg0.win 2).cut (grid0.coords t) ((dat0 V c).after 2 t) = _
  rw [dat0_after2]
  unfold prodTile
  rw [View.canon_unit_zero hz]
  simp only [View.ld_unit_zero (S := S2048x512) hz, View.ld_unit_zero (S := S512x256) hz]
  obtain ⟨e00, e01, e10, e11, e20, e21⟩ := idx_facts0 t
  have ht : t.val < 8 := lt_of_lt_of_eq t.isLt N_0
  funext j
  obtain ⟨p, q, rfl⟩ : ∃ (p : Fin 2048) (q : Fin 256), j = ix2 p q := ⟨j 0, j 1, eq_ix2 j⟩
  refine pay0_block (V c main_arg0) (V c main_arg2) _ _ t.val ht (fun p k => ?_) (fun k q => ?_) p q _ ?_ ?_
  · show V c main_arg0 (((cfg0.win 0).blk t).view.emb (ix2 p k)) = _
    congr 1
    funext a; apply Fin.ext
    match a with
    | ⟨0, _⟩ => show win0_0.index t (0 : Fin 2) * 2048 + 1 * p.val = 2048 * t.val + p.val; rw [e00]; omega
    | ⟨1, _⟩ => show win0_0.index t (1 : Fin 2) * 512 + 1 * k.val = k.val; rw [e01]; omega
  · show V c main_arg2 (((cfg0.win 1).blk t).view.emb (ix2 k q)) = _
    congr 1
    funext a; apply Fin.ext
    match a with
    | ⟨0, _⟩ => show win0_1.index t (0 : Fin 2) * 512 + 1 * k.val = k.val; rw [e10]; omega
    | ⟨1, _⟩ => show win0_1.index t (1 : Fin 2) * 256 + 1 * q.val = q.val; rw [e11]; omega
  · show win0_2.index t (0 : Fin 2) * 2048 + 1 * p.val = 2048 * t.val + p.val; rw [e20]; omega
  · show win0_2.index t (1 : Fin 2) * 256 + 1 * q.val = q.val; rw [e21]; omega

/-- An index of the output array is in point t's block iff each coordinate is in the block's range on its axis. -/
theorem mem_blk0 (t : Fin cfg0.N) (i : S16384x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v30).slice (win0_2.rect t)).set ↔ _
  rw [View.set_slice_whole, Rect.mem_set_unit]
  exact Iff.rfl

/-- The output array after the region: the product of the two input arrays. Row r of the array lies in the block of
    the point r / 2048, and every point writes its block back. -/
theorem prod_final (c : Dev nD) :
    (dat0 (F := Ideal) V c).arrAt 2 cfg0.N = prod (V c main_arg0) (V c main_arg2) :=
  (dat0 V c).arrAt_eq_of_cover 2 (prod (V c main_arg0) (V c main_arg2)) (fun t _ => flushed0_eq V c t) fun i => by
    have hi0 : (i 0).val < 16384 := (i 0).isLt
    have hi1 : (i 1).val < 256 := (i 1).isLt
    have hq : (i 0).val / 2048 < cfg0.N := lt_of_lt_of_eq (by omega : (i 0).val / 2048 < 8) N_0.symm
    refine ⟨⟨(i 0).val / 2048, hq⟩, flush0_2 _, ?_⟩
    rw [mem_blk0]
    obtain ⟨-, -, -, -, e20, e21⟩ := idx_facts0 ⟨(i 0).val / 2048, hq⟩
    intro a
    match a with
    | ⟨0, _⟩ =>
      show win0_2.index ⟨(i 0).val / 2048, hq⟩ (0 : Fin 2) * 2048 ≤ (i 0).val
        ∧ (i 0).val < win0_2.index ⟨(i 0).val / 2048, hq⟩ (0 : Fin 2) * 2048 + 2048
      rw [e20]; show (i 0).val / 2048 * 2048 ≤ (i 0).val ∧ (i 0).val < (i 0).val / 2048 * 2048 + 2048; omega
    | ⟨1, _⟩ =>
      show win0_2.index ⟨(i 0).val / 2048, hq⟩ (1 : Fin 2) * 256 ≤ (i 1).val
        ∧ (i 1).val < win0_2.index ⟨(i 0).val / 2048, hq⟩ (1 : Fin 2) * 256 + 256
      rw [e21]; omega

end Cert.KernelIdeal.Val0

end
-- ==== Proof.KIValue1.lean ====
/-
  The second kernel region's four output arrays as whole-array functions of its input arrays, at the ideal values.

  With `x` the 16384 × 512 features, `w` the 512 × 256 weight, `b` the 1 × 256 bias row and `eps` the 16384 × 128
  noise, the region leaves
    * the mean        `(x · w + b)[:, 0:128]`,
    * the log-variance `(x · w + b)[:, 128:256]`,
    * the sample       `eps · exp(log-variance) + mean`, and
    * the sample again in the narrower float format (the same extended reals).
  First each store's value at an index `(p, q)` of its 1024 × 128 tile, over arbitrary loaded blocks; then, at a grid
  point `t`, the tile written back is rows `1024 t … 1024 t + 1023` of the whole-array function (row `p` of the tile
  depends on row `1024 t + p` of `x` and `eps` and on all of `w` and `b`); the sixteen tiles cover the rows.
-/
import proofs.«131769_j3100966387958_2_alg».proof.Proof.KIRegion1
import proofs.«131769_j3100966387958_2_alg».proof.Proof.Spec
import proofs.«131769_j3100966387958_2_alg».proof.Proof.LibAffineLayer
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Fr Cert.Spec Cert.Lib.AffineLayer
open Idealize.ShloMosaic Idealize.ShloMosaic.TcCoe Idealize.ShloMosaic.ValueIdx
open Idealize.ShloMosaic.Pipeline (Dat)

/-- The printed dimension numbers of the projection are the plain ones: rows of the left operand against columns of
    the right. -/
theorem dot1_plain : dot_S1024x512_S512x256_S1024x256_1_0_0_1_n_n = DotDims.plain 1024 512 256 := rfl

/-- The 1024 × 256 block `feat · w + bias` at `(p, q)`. -/
theorem acc_ix2 (x0 : Vec Ideal S1024x512 .f32) (x1 : Vec Ideal S512x256 .f32) (x2 : Vec Ideal S1x256 .f32)
    (p : Fin 1024) (q : Fin 256) :
    k1_pay1 (F := Ideal) x0 x1 x2 (ix2 p q) = (∑ k : Fin 512, x0 (ix2 p k) * x1 (ix2 k q)) + x2 (ix2 0 q) := by
  unfold Gen.k1_pay1
  simp only [shapeCast_self]
  refine (addf_apply _ _ _).trans ?_
  refine congrArg₂ (· + ·) ?_ ?_
  · exact matmul_zero_ix2 _ dot1_plain (some .fp32) x0 x1 p q
  · exact broadcastTo_1b_ab_apply x2 _ p q

/-- Its columns `0 … 127` (the mean) at `(p, q)`. -/
theorem mean_ix2 (x0 : Vec Ideal S1024x512 .f32) (x1 : Vec Ideal S512x256 .f32) (x2 : Vec Ideal S1x256 .f32)
    (p : Fin 1024) (q : Fin 128) :
    k1_pay2 (F := Ideal) x0 x1 x2 (ix2 p q)
      = (∑ k : Fin 512, x0 (ix2 p k) * x1 (ix2 k ⟨0 + q.val, by omega⟩)) + x2 (ix2 0 ⟨0 + q.val, by omega⟩) := by
  unfold Gen.k1_pay2
  exact (slice2_axis1_apply 0 _ _ p q ⟨0 + q.val, by omega⟩ rfl).trans (acc_ix2 x0 x1 x2 p _)

/-- Its columns `128 … 255` (the log-variance) at `(p, q)`. -/
theorem logvar_ix2 (x0 : Vec Ideal S1024x512 .f32) (x1 : Vec Ideal S512x256 .f32) (x2 : Vec Ideal S1x256 .f32)
    (p : Fin 1024) (q : Fin 128) :
    k1_pay3 (F := Ideal) x0 x1 x2 (ix2 p q)
      = (∑ k : Fin 512, x0 (ix2 p k) * x1 (ix2 k ⟨128 + q.val, by omega⟩)) + x2 (ix2 0 ⟨128 + q.val, by omega⟩) := by
  unfold Gen.k1_pay3
  exact (slice2_axis1_apply 128 _ _ p q ⟨128 + q.val, by omega⟩ rfl).trans (acc_ix2 x0 x1 x2 p _)

/-- The sample `eps · exp(log-variance) + mean` at `(p, q)`. -/
theorem sample_ix2 (x0 : Vec Ideal S1024x512 .f32) (x1 : Vec Ideal S512x256 .f32) (x2 : Vec Ideal S1x256 .f32)
    (x3 : Vec Ideal S1024x128 .f32) (p : Fin 1024) (q : Fin 128) :
    k1_pay4 (F := Ideal) x0 x1 x2 x3 (ix2 p q)
      = x3 (ix2 p q) * Ideal.exp ((∑ k : Fin 512, x0 (ix2 p k) * x1 (ix2 k ⟨128 + q.val, by omega⟩)) + x2 (ix2 0 ⟨128 + q.val, by omega⟩))
        + ((∑ k : Fin 512, x0 (ix2 p k) * x1 (ix2 k ⟨0 + q.val, by omega⟩)) + x2 (ix2 0 ⟨0 + q.val, by omega⟩)) := by
  unfold Gen.k1_pay4
  refine (addf_apply _ _ _).trans ?_
  refine congrArg₂ (· + ·) ?_ (mean_ix2 x0 x1 x2 p q)
  refine (mulf_apply _ _ _).trans ?_
  refine congrArg (x3 (ix2 p q) * ·) ?_
  show Ideal.exp (k1_pay3 (F := Ideal) x0 x1 x2 (ix2 p q)) = _
  exact congrArg Ideal.exp (logvar_ix2 x0 x1 x2 p q)

/-- The narrowed sample at `(p, q)`: the change of format is the identity on the extended reals. -/
theorem narrow_ix2 (x0 : Vec Ideal S1024x512 .f32) (x1 : Vec Ideal S512x256 .f32) (x2 : Vec Ideal S1x256 .f32)
    (x3 : Vec Ideal S1024x128 .f32) (p : Fin 1024) (q : Fin 128) :
    k1_pay5 (F := Ideal) x0 x1 x2 x3 (ix2 p q) = k1_pay4 (F := Ideal) x0 x1 x2 x3 (ix2 p q) := by
  unfold Gen.k1_pay5
  exact truncf_apply _ _ _

/-! ## Each store's value at an index, against whole-array functions of arrays the loaded blocks are read off -/

/-- If row `p` of the feature block is row `i 0` of `A0`, and the weight and bias blocks are `A1` and `A2`, the mean's
    tile at `(p, q)` is the whole-array mean at `i`, `q` being `i`'s column. -/
theorem mean_at (x0 : Vec Ideal S1024x512 .f32) (x1 : Vec Ideal S512x256 .f32) (x2 : Vec Ideal S1x256 .f32)
    (A0 : Mat 16384 512) (A1 : Mat 512 256) (A2 : Mat 1 256) (p : Fin 1024) (q : Fin 128)
    (i : (⟨2, ![16384, 128]⟩ : Shape).Idx)
    (h0 : ∀ k : Fin 512, x0 (ix2 p k) = A0 (ix2 (i 0) k))
    (h1 : ∀ (k : Fin 512) (q' : Fin 256), x1 (ix2 k q') = A1 (ix2 k q'))
    (h2 : ∀ q' : Fin 256, x2 (ix2 0 q') = A2 (ix2 0 q'))
    (hq : (i 1).val = q.val) :
    k1_pay2 (F := Ideal) x0 x1 x2 (ix2 p q) = affineCols 128 0 (by norm_num) A0 A1 A2 i := by
  have hq' : (⟨0 + q.val, by omega⟩ : Fin 256) = ⟨0 + (i 1).val, by have := idx2_lt1 i; omega⟩ :=
    Fin.ext (by show 0 + q.val = 0 + (i 1).val; omega)
  rw [mean_ix2]
  show _ = (∑ k : Fin 512, A0 (ix2 (i 0) k) * A1 (ix2 k ⟨0 + (i 1).val, _⟩)) + A2 (ix2 0 ⟨0 + (i 1).val, _⟩)
  rw [← hq']
  simp only [h0, h1, h2]

/-- The same for the log-variance: columns `128 … 255`. -/
theorem logvar_at (x0 : Vec Ideal S1024x512 .f32) (x1 : Vec Ideal S512x256 .f32) (x2 : Vec Ideal S1x256 .f32)
    (A0 : Mat 16384 512) (A1 : Mat 512 256) (A2 : Mat 1 256) (p : Fin 1024) (q : Fin 128)
    (i : (⟨2, ![16384, 128]⟩ : Shape).Idx)
    (h0 : ∀ k : Fin 512, x0 (ix2 p k) = A0 (ix2 (i 0) k))
    (h1 : ∀ (k : Fin 512) (q' : Fin 256), x1 (ix2 k q') = A1 (ix2 k q'))
    (h2 : ∀ q' : Fin 256, x2 (ix2 0 q') = A2 (ix2 0 q'))
    (hq : (i 1).val = q.val) :
    k1_pay3 (F := Ideal) x0 x1 x2 (ix2 p q) = affineCols 128 128 (by norm_num) A0 A1 A2 i := by
  have hq' : (⟨128 + q.val, by omega⟩ : Fin 256) = ⟨128 + (i 1).val, by have := idx2_lt1 i; omega⟩ :=
    Fin.ext (by show 128 + q.val = 128 + (i 1).val; omega)
  rw [logvar_ix2]
  show _ = (∑ k : Fin 512, A0 (ix2 (i 0) k) * A1 (ix2 k ⟨128 + (i 1).val, _⟩)) + A2 (ix2 0 ⟨128 + (i 1).val, _⟩)
  rw [← hq']
  simp only [h0, h1, h2]

/-- The same for the sample, `x3`'s entry `(p, q)` being `A3`'s at `i`. -/
theorem sample_at (x0 : Vec Ideal S1024x512 .f32) (x1 : Vec Ideal S512x256 .f32) (x2 : Vec Ideal S1x256 .f32)
    (x3 : Vec Ideal S1024x128 .f32)
    (A0 : Mat 16384 512) (A1 : Mat 512 256) (A2 : Mat 1 256) (A3 : Mat 16384 128) (p : Fin 1024) (q : Fin 128)
    (i : (⟨2, ![16384, 128]⟩ : Shape).Idx)
    (h0 : ∀ k : Fin 512, x0 (ix2 p k) = A0 (ix2 (i 0) k))
    (h1 : ∀ (k : Fin 512) (q' : Fin 256), x1 (ix2 k q') = A1 (ix2 k q'))
    (h2 : ∀ q' : Fin 256, x2 (ix2 0 q') = A2 (ix2 0 q'))
    (h3 : x3 (ix2 p q) = A3 i)
    (hq : (i 1).val = q.val) :
    k1_pay4 (F := Ideal) x0 x1 x2 x3 (ix2 p q)
      = sample A3 (affineCols 128 128 (by norm_num) A0 A1 A2) (affineCols 128 0 (by norm_num) A0 A1 A2) i := by
  unfold Gen.k1_pay4
  refine (addf_apply _ _ _).trans ?_
  refine congrArg₂ (· + ·) ?_ (mean_at x0 x1 x2 A0 A1 A2 p q i h0 h1 h2 hq)
  refine (mulf_apply _ _ _).trans ?_
  refine congrArg₂ (· * ·) h3 ?_
  show Ideal.exp (k1_pay3 (F := Ideal) x0 x1 x2 (ix2 p q)) = _
  exact congrArg Ideal.exp (logvar_at x0 x1 x2 A0 A1 A2 p q i h0 h1 h2 hq)

/-- And for the narrowed sample: the change of format is the identity on the extended reals. -/
theorem narrow_at (x0 : Vec Ideal S1024x512 .f32) (x1 : Vec Ideal S512x256 .f32) (x2 : Vec Ideal S1x256 .f32)
    (x3 : Vec Ideal S1024x128 .f32)
    (A0 : Mat 16384 512) (A1 : Mat 512 256) (A2 : Mat 1 256) (A3 : Mat 16384 128) (p : Fin 1024) (q : Fin 128)
    (i : (⟨2, ![16384, 128]⟩ : Shape).Idx)
    (h0 : ∀ k : Fin 512, x0 (ix2 p k) = A0 (ix2 (i 0) k))
    (h1 : ∀ (k : Fin 512) (q' : Fin 256), x1 (ix2 k q') = A1 (ix2 k q'))
    (h2 : ∀ q' : Fin 256, x2 (ix2 0 q') = A2 (ix2 0 q'))
    (h3 : x3 (ix2 p q) = A3 i)
    (hq : (i 1).val = q.val) :
    k1_pay5 (F := Ideal) x0 x1 x2 x3 (ix2 p q)
      = sample A3 (affineCols 128 128 (by norm_num) A0 A1 A2) (affineCols 128 0 (by norm_num) A0 A1 A2) i :=
  (narrow_ix2 x0 x1 x2 x3 p q).trans (sample_at x0 x1 x2 x3 A0 A1 A2 A3 p q i h0 h1 h2 h3 hq)

/-! ## The tile a grid point writes back is its rows of the whole-array function -/

variable (V : (c : Dev nD) → (b : Ref sig .tc) → Buf (Elt Ideal) ((c : Thread nD τ).loc b))

theorem hz : (![0, 0] : Fin 2 → Nat) = fun _ => 0 := funext fun a => by fin_cases a <;> rfl

/-- The whole-array mean, log-variance and sample of the region's four input arrays. -/
abbrev meanArr (c : Dev nD) : Mat 16384 128 :=
  affineCols (M := 16384) (K := 512) (C := 256) 128 0 (by norm_num) (V c main_v61) (V c main_v64) (V c main_v66)
abbrev logvarArr (c : Dev nD) : Mat 16384 128 :=
  affineCols (M := 16384) (K := 512) (C := 256) 128 128 (by norm_num) (V c main_v61) (V c main_v64) (V c main_v66)
abbrev sampleArr (c : Dev nD) : Mat 16384 128 :=
  sample (M := 16384) (N := 128) (V c main_arg10) (logvarArr V c) (meanArr V c)

/-- The printed index maps, decided over the sixteen grid points: the feature, noise and output windows sit at block
    row `t`, block column 0; the weight and bias windows at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Row `p` of the feature block at point `t` is row `1024 t + p` of the feature array. -/
theorem feat_row (c : Dev nD) (t : Fin cfg1.N) (p : Fin 1024) (k : Fin 512) (r : Fin 16384)
    (hr : r.val = t.val * 1024 + p.val) :
    tile1 V c 0 t (ix2 p k) = (V c main_v61 : Mat 16384 512) (ix2 r k) := by
  obtain ⟨e00, e01, -⟩ := idx_facts1 t
  show (V c main_v61 : Mat 16384 512) (((cfg1.win 0).blk t).view.emb (ix2 p k)) = _
  refine congrArg (V c main_v61 : Mat 16384 512) (funext fun a => Fin.ext ?_)
  match a with
  | ⟨0, _⟩ => show win1_0.index t (0 : Fin 2) * 1024 + 1 * p.val = r.val; omega
  | ⟨1, _⟩ => show win1_0.index t (1 : Fin 2) * 512 + 1 * k.val = k.val; omega

/-- The weight block at every point is the whole weight array. -/
theorem weight_all (c : Dev nD) (t : Fin cfg1.N) (k : Fin 512) (q : Fin 256) :
    tile1 V c 1 t (ix2 k q) = (V c main_v64 : Mat 512 256) (ix2 k q) := by
  obtain ⟨-, -, e10, e11, -⟩ := idx_facts1 t
  show (V c main_v64 : Mat 512 256) (((cfg1.win 1).blk t).view.emb (ix2 k q)) = _
  refine congrArg (V c main_v64 : Mat 512 256) (funext fun a => Fin.ext ?_)
  match a with
  | ⟨0, _⟩ => show win1_1.index t (0 : Fin 2) * 512 + 1 * k.val = k.val; omega
  | ⟨1, _⟩ => show win1_1.index t (1 : Fin 2) * 256 + 1 * q.val = q.val; omega

/-- The bias block at every point is the whole bias row. -/
theorem bias_all (c : Dev nD) (t : Fin cfg1.N) (q : Fin 256) :
    tile1 V c 2 t (ix2 0 q) = (V c main_v66 : Mat 1 256) (ix2 0 q) := by
  obtain ⟨-, -, -, -, e20, e21, -⟩ := idx_facts1 t
  show (V c main_v66 : Mat 1 256) (((cfg1.win 2).blk t).view.emb (ix2 0 q)) = _
  refine congrArg (V c main_v66 : Mat 1 256) (funext fun a => Fin.ext ?_)
  match a with
  | ⟨0, _⟩ => show win1_2.index t (0 : Fin 2) * 1 + 1 * 0 = 0; omega
  | ⟨1, _⟩ => show win1_2.index t (1 : Fin 2) * 256 + 1 * q.val = q.val; omega

/-- Entry `(p, q)` of the noise block at point `t` is entry `(1024 t + p, q)` of the noise array. -/
theorem noise_at (c : Dev nD) (t : Fin cfg1.N) (p : Fin 1024) (q : Fin 128) (i : (⟨2, ![16384, 128]⟩ : Shape).Idx)
    (h0 : (i 0).val = t.val * 1024 + p.val) (h1 : (i 1).val = q.val) :
    tile1 V c 3 t (ix2 p q) = (V c main_arg10 : Mat 16384 128) i := by
  obtain ⟨-, -, -, -, -, -, e30, e31, -⟩ := idx_facts1 t
  show (V c main_arg10 : Mat 16384 128) (((cfg1.win 3).blk t).view.emb (ix2 p q)) = _
  refine congrArg (V c main_arg10 : Mat 16384 128) (funext fun a => Fin.ext ?_)
  match a with
  | ⟨0, _⟩ => show win1_3.index t (0 : Fin 2) * 1024 + 1 * p.val = (i 0).val; omega
  | ⟨1, _⟩ => show win1_3.index t (1 : Fin 2) * 128 + 1 * q.val = (i 1).val; omega

/-- What point `t` writes back to output window 4's array is rows `1024 t … 1024 t + 1023` of the whole-array mean. -/
theorem mean_flushed (c : Dev nD) (t : Fin cfg1.N) :
    (dat1 (F := Ideal) V c).flushed 4 t = ((cfg1.win 4).blk t).view.read (Elt Ideal) (meanArr V c) := by
  show (cfg1.win 4).cut (grid1.coords t) ((dat1 V c).after 4 t) = _
  rw [dat1_after4]
  unfold meanTile
  rw [View.canon_unit_zero hz]
  simp only [View.ld_unit_zero (S := S1024x512) hz, View.ld_unit_zero (S := S512x256) hz, View.ld_unit_zero (S := S1x256) hz]
  funext j
  obtain ⟨p, q, rfl⟩ : ∃ (p : Fin 1024) (q : Fin 128), j = ix2 p q := ⟨j 0, j 1, eq_ix2 j⟩
  obtain ⟨-, -, -, -, -, -, -, -, e0, e1, -⟩ := idx_facts1 t
  show k1_pay2 (F := Ideal) (tile1 V c 0 t) (tile1 V c 1 t) (tile1 V c 2 t) (ix2 p q)
    = meanArr V c (((cfg1.win 4).blk t).view.emb (ix2 p q))
  refine mean_at _ _ _ (V c main_v61) (V c main_v64) (V c main_v66) p q _
    (fun k => feat_row V c t p k _ ?_) (weight_all V c t) (bias_all V c t) ?_
  · show win1_4.index t (0 : Fin 2) * 1024 + 1 * p.val = t.val * 1024 + p.val; omega
  · show win1_4.index t (1 : Fin 2) * 128 + 1 * q.val = q.val; omega

/-- What point `t` writes back to output window 5's array is rows `1024 t … 1024 t + 1023` of the whole-array log-variance. -/
theorem logvar_flushed (c : Dev nD) (t : Fin cfg1.N) :
    (dat1 (F := Ideal) V c).flushed 5 t = ((cfg1.win 5).blk t).view.read (Elt Ideal) (logvarArr V c) := by
  show (cfg1.win 5).cut (grid1.coords t) ((dat1 V c).after 5 t) = _
  rw [dat1_after5]
  unfold logvarTile
  rw [View.canon_unit_zero hz]
  simp only [View.ld_unit_zero (S := S1024x512) hz, View.ld_unit_zero (S := S512x256) hz, View.ld_unit_zero (S := S1x256) hz]
  funext j
  obtain ⟨p, q, rfl⟩ : ∃ (p : Fin 1024) (q : Fin 128), j = ix2 p q := ⟨j 0, j 1, eq_ix2 j⟩
  obtain ⟨-, -, -, -, -, -, -, -, -, -, e0, e1, -⟩ := idx_facts1 t
  show k1_pay3 (F := Ideal) (tile1 V c 0 t) (tile1 V c 1 t) (tile1 V c 2 t) (ix2 p q)
    = logvarArr V c (((cfg1.win 5).blk t).view.emb (ix2 p q))
  refine logvar_at _ _ _ (V c main_v61) (V c main_v64) (V c main_v66) p q _
    (fun k => feat_row V c t p k _ ?_) (weight_all V c t) (bias_all V c t) ?_
  · show win1_5.index t (0 : Fin 2) * 1024 + 1 * p.val = t.val * 1024 + p.val; omega
  · show win1_5.index t (1 : Fin 2) * 128 + 1 * q.val = q.val; omega

/-- What point `t` writes back to output window 6's array is rows `1024 t … 1024 t + 1023` of the whole-array sample. -/
theorem sample_flushed (c : Dev nD) (t : Fin cfg1.N) :
    (dat1 (F := Ideal) V c).flushed 6 t = ((cfg1.win 6).blk t).view.read (Elt Ideal) (sampleArr V c) := by
  show (cfg1.win 6).cut (grid1.coords t) ((dat1 V c).after 6 t) = _
  rw [dat1_after6]
  unfold sampleTile
  rw [View.canon_unit_zero hz]
  simp only [View.ld_unit_zero (S := S1024x512) hz, View.ld_unit_zero (S := S512x256) hz, View.ld_unit_zero (S := S1x256) hz,
    View.ld_unit_zero (S := S1024x128) hz]
  funext j
  obtain ⟨p, q, rfl⟩ : ∃ (p : Fin 1024) (q : Fin 128), j = ix2 p q := ⟨j 0, j 1, eq_ix2 j⟩
  obtain ⟨-, -, -, -, -, -, -, -, -, -, -, -, e0, e1, -⟩ := idx_facts1 t
  show k1_pay4 (F := Ideal) (tile1 V c 0 t) (tile1 V c 1 t) (tile1 V c 2 t) (tile1 V c 3 t) (ix2 p q)
    = sampleArr V c (((cfg1.win 6).blk t).view.emb (ix2 p q))
  refine sample_at _ _ _ _ (V c main_v61) (V c main_v64) (V c main_v66) (V c main_arg10) p q _
    (fun k => feat_row V c t p k _ ?_) (weight_all V c t) (bias_all V c t) (noise_at V c t p q _ ?_ ?_) ?_
  · show win1_6.index t (0 : Fin 2) * 1024 + 1 * p.val = t.val * 1024 + p.val; omega
  · show win1_6.index t (0 : Fin 2) * 1024 + 1 * p.val = t.val * 1024 + p.val; omega
  · show win1_6.index t (1 : Fin 2) * 128 + 1 * q.val = q.val; omega
  · show win1_6.index t (1 : Fin 2) * 128 + 1 * q.val = q.val; omega

/-- What point `t` writes back to output window 7's array is rows `1024 t … 1024 t + 1023` of the whole-array sample. -/
theorem narrow_flushed (c : Dev nD) (t : Fin cfg1.N) :
    (dat1 (F := Ideal) V c).flushed 7 t = ((cfg1.win 7).blk t).view.read (Elt Ideal) (sampleArr V c) := by
  show (cfg1.win 7).cut (grid1.coords t) ((dat1 V c).after 7 t) = _
  rw [dat1_after7]
  unfold narrowTile
  rw [View.canon_unit_zero hz]
  simp only [View.ld_unit_zero (S := S1024x512) hz, View.ld_unit_zero (S := S512x256) hz, View.ld_unit_zero (S := S1x256) hz,
    View.ld_unit_zero (S := S1024x128) hz]
  funext j
  obtain ⟨p, q, rfl⟩ : ∃ (p : Fin 1024) (q : Fin 128), j = ix2 p q := ⟨j 0, j 1, eq_ix2 j⟩
  obtain ⟨-, -, -, -, -, -, -, -, -, -, -, -, -, -, e0, e1⟩ := idx_facts1 t
  show k1_pay5 (F := Ideal) (tile1 V c 0 t) (tile1 V c 1 t) (tile1 V c 2 t) (tile1 V c 3 t) (ix2 p q)
    = sampleArr V c (((cfg1.win 7).blk t).view.emb (ix2 p q))
  refine narrow_at _ _ _ _ (V c main_v61) (V c main_v64) (V c main_v66) (V c main_arg10) p q _
    (fun k => feat_row V c t p k _ ?_) (weight_all V c t) (bias_all V c t) (noise_at V c t p q _ ?_ ?_) ?_
  · show win1_7.index t (0 : Fin 2) * 1024 + 1 * p.val = t.val * 1024 + p.val; omega
  · show win1_7.index t (0 : Fin 2) * 1024 + 1 * p.val = t.val * 1024 + p.val; omega
  · show win1_7.index t (1 : Fin 2) * 128 + 1 * q.val = q.val; omega
  · show win1_7.index t (1 : Fin 2) * 128 + 1 * q.val = q.val; omega

/-- An index of output window 4's array is in point `t`'s block iff each coordinate is in the block's range on its axis. -/
theorem mean_mem_blk (t : Fin cfg1.N) (i : S16384x128.Idx) :
    i ∈ ((cfg1.win 4).blk t).view.set ↔ ∀ a : Fin 2, win1_4.index t a * S1024x128.size a ≤ (i a).val
      ∧ (i a).val < win1_4.index t a * S1024x128.size a + S1024x128.size a := by
  show i ∈ ((View.whole main_v67_0).slice (win1_4.rect t)).set ↔ _
  rw [View.set_slice_whole, Rect.mem_set_unit]
  exact Iff.rfl

/-- Every index of the array is in the block of the point `row / 1024`. -/
theorem mean_cover (i : S16384x128.Idx) :
    ∃ t : Fin cfg1.N, (cfg1.win 4).flush t = true ∧ i ∈ ((cfg1.win 4).blk t).view.set := by
  have hi0 : (i 0).val < 16384 := (i 0).isLt
  have hi1 : (i 1).val < 128 := (i 1).isLt
  obtain ⟨t, ht⟩ : ∃ t : Fin cfg1.N, t.val = (i 0).val / 1024 :=
    ⟨⟨(i 0).val / 1024, by have := N_1; show _ < grid1.N; omega⟩, rfl⟩
  obtain ⟨-, -, -, -, -, -, -, -, e0, e1, -⟩ := idx_facts1 t
  refine ⟨t, flush1_4 t, ?_⟩
  rw [mean_mem_blk]
  intro a
  match a with
  | ⟨0, _⟩ =>
    show win1_4.index t (0 : Fin 2) * 1024 ≤ (i 0).val ∧ (i 0).val < win1_4.index t (0 : Fin 2) * 1024 + 1024
    omega
  | ⟨1, _⟩ =>
    show win1_4.index t (1 : Fin 2) * 128 ≤ (i 1).val ∧ (i 1).val < win1_4.index t (1 : Fin 2) * 128 + 128
    omega

/-- An index of output window 5's array is in point `t`'s block iff each coordinate is in the block's range on its axis. -/
theorem logvar_mem_blk (t : Fin cfg1.N) (i : S16384x128.Idx) :
    i ∈ ((cfg1.win 5).blk t).view.set ↔ ∀ a : Fin 2, win1_5.index t a * S1024x128.size a ≤ (i a).val
      ∧ (i a).val < win1_5.index t a * S1024x128.size a + S1024x128.size a := by
  show i ∈ ((View.whole main_v67_1).slice (win1_5.rect t)).set ↔ _
  rw [View.set_slice_whole, Rect.mem_set_unit]
  exact Iff.rfl

/-- Every index of the array is in the block of the point `row / 1024`. -/
theorem logvar_cover (i : S16384x128.Idx) :
    ∃ t : Fin cfg1.N, (cfg1.win 5).flush t = true ∧ i ∈ ((cfg1.win 5).blk t).view.set := by
  have hi0 : (i 0).val < 16384 := (i 0).isLt
  have hi1 : (i 1).val < 128 := (i 1).isLt
  obtain ⟨t, ht⟩ : ∃ t : Fin cfg1.N, t.val = (i 0).val / 1024 :=
    ⟨⟨(i 0).val / 1024, by have := N_1; show _ < grid1.N; omega⟩, rfl⟩
  obtain ⟨-, -, -, -, -, -, -, -, -, -, e0, e1, -⟩ := idx_facts1 t
  refine ⟨t, flush1_5 t, ?_⟩
  rw [logvar_mem_blk]
  intro a
  match a with
  | ⟨0, _⟩ =>
    show win1_5.index t (0 : Fin 2) * 1024 ≤ (i 0).val ∧ (i 0).val < win1_5.index t (0 : Fin 2) * 1024 + 1024
    omega
  | ⟨1, _⟩ =>
    show win1_5.index t (1 : Fin 2) * 128 ≤ (i 1).val ∧ (i 1).val < win1_5.index t (1 : Fin 2) * 128 + 128
    omega

/-- An index of output window 6's array is in point `t`'s block iff each coordinate is in the block's range on its axis. -/
theorem sample_mem_blk (t : Fin cfg1.N) (i : S16384x128.Idx) :
    i ∈ ((cfg1.win 6).blk t).view.set ↔ ∀ a : Fin 2, win1_6.index t a * S1024x128.size a ≤ (i a).val
      ∧ (i a).val < win1_6.index t a * S1024x128.size a + S1024x128.size a := by
  show i ∈ ((View.whole main_v67_2).slice (win1_6.rect t)).set ↔ _
  rw [View.set_slice_whole, Rect.mem_set_unit]
  exact Iff.rfl

/-- Every index of the array is in the block of the point `row / 1024`. -/
theorem sample_cover (i : S16384x128.Idx) :
    ∃ t : Fin cfg1.N, (cfg1.win 6).flush t = true ∧ i ∈ ((cfg1.win 6).blk t).view.set := by
  have hi0 : (i 0).val < 16384 := (i 0).isLt
  have hi1 : (i 1).val < 128 := (i 1).isLt
  obtain ⟨t, ht⟩ : ∃ t : Fin cfg1.N, t.val = (i 0).val / 1024 :=
    ⟨⟨(i 0).val / 1024, by have := N_1; show _ < grid1.N; omega⟩, rfl⟩
  obtain ⟨-, -, -, -, -, -, -, -, -, -, -, -, e0, e1, -⟩ := idx_facts1 t
  refine ⟨t, flush1_6 t, ?_⟩
  rw [sample_mem_blk]
  intro a
  match a with
  | ⟨0, _⟩ =>
    show win1_6.index t (0 : Fin 2) * 1024 ≤ (i 0).val ∧ (i 0).val < win1_6.index t (0 : Fin 2) * 1024 + 1024
    omega
  | ⟨1, _⟩ =>
    show win1_6.index t (1 : Fin 2) * 128 ≤ (i 1).val ∧ (i 1).val < win1_6.index t (1 : Fin 2) * 128 + 128
    omega

/-- An index of output window 7's array is in point `t`'s block iff each coordinate is in the block's range on its axis. -/
theorem narrow_mem_blk (t : Fin cfg1.N) (i : S16384x128.Idx) :
    i ∈ ((cfg1.win 7).blk t).view.set ↔ ∀ a : Fin 2, win1_7.index t a * S1024x128.size a ≤ (i a).val
      ∧ (i a).val < win1_7.index t a * S1024x128.size a + S1024x128.size a := by
  show i ∈ ((View.whole main_v67_3).slice (win1_7.rect t)).set ↔ _
  rw [View.set_slice_whole, Rect.mem_set_unit]
  exact Iff.rfl

/-- Every index of the array is in the block of the point `row / 1024`. -/
theorem narrow_cover (i : S16384x128.Idx) :
    ∃ t : Fin cfg1.N, (cfg1.win 7).flush t = true ∧ i ∈ ((cfg1.win 7).blk t).view.set := by
  have hi0 : (i 0).val < 16384 := (i 0).isLt
  have hi1 : (i 1).val < 128 := (i 1).isLt
  obtain ⟨t, ht⟩ : ∃ t : Fin cfg1.N, t.val = (i 0).val / 1024 :=
    ⟨⟨(i 0).val / 1024, by have := N_1; show _ < grid1.N; omega⟩, rfl⟩
  obtain ⟨-, -, -, -, -, -, -, -, -, -, -, -, -, -, e0, e1⟩ := idx_facts1 t
  refine ⟨t, flush1_7 t, ?_⟩
  rw [narrow_mem_blk]
  intro a
  match a with
  | ⟨0, _⟩ =>
    show win1_7.index t (0 : Fin 2) * 1024 ≤ (i 0).val ∧ (i 0).val < win1_7.index t (0 : Fin 2) * 1024 + 1024
    omega
  | ⟨1, _⟩ =>
    show win1_7.index t (1 : Fin 2) * 128 ≤ (i 1).val ∧ (i 1).val < win1_7.index t (1 : Fin 2) * 128 + 128
    omega

/-! ## The four arrays after the region -/

/-- The mean array ends at columns `0 … 127` of `x · w + b`. -/
theorem mean_final (c : Dev nD) :
    (dat1 (F := Ideal) V c).arrAt 4 cfg1.N
      = affineCols (M := 16384) (K := 512) (C := 256) 128 0 (by norm_num) (V c main_v61) (V c main_v64) (V c main_v66) :=
  (dat1 V c).arrAt_eq_of_cover 4 (meanArr V c) (fun t _ => mean_flushed V c t) mean_cover

/-- The log-variance array ends at columns `128 … 255` of `x · w + b`. -/
theorem logvar_final (c : Dev nD) :
    (dat1 (F := Ideal) V c).arrAt 5 cfg1.N
      = affineCols (M := 16384) (K := 512) (C := 256) 128 128 (by norm_num) (V c main_v61) (V c main_v64) (V c main_v66) :=
  (dat1 V c).arrAt_eq_of_cover 5 (logvarArr V c) (fun t _ => logvar_flushed V c t) logvar_cover

/-- The sample array ends at `eps · exp(log-variance) + mean`. -/
theorem sample_final (c : Dev nD) :
    (dat1 (F := Ideal) V c).arrAt 6 cfg1.N
      = sample (M := 16384) (N := 128) (V c main_arg10)
          (affineCols (M := 16384) (K := 512) (C := 256) 128 128 (by norm_num) (V c main_v61) (V c main_v64) (V c main_v66))
          (affineCols (M := 16384) (K := 512) (C := 256) 128 0 (by norm_num) (V c main_v61) (V c main_v64) (V c main_v66)) :=
  (dat1 V c).arrAt_eq_of_cover 6 (sampleArr V c) (fun t _ => sample_flushed V c t) sample_cover

/-- The narrowed sample array ends at the same extended reals. -/
theorem narrow_final (c : Dev nD) :
    (dat1 (F := Ideal) V c).arrAt 7 cfg1.N
      = sample (M := 16384) (N := 128) (V c main_arg10)
          (affineCols (M := 16384) (K := 512) (C := 256) 128 128 (by norm_num) (V c main_v61) (V c main_v64) (V c main_v66))
          (affineCols (M := 16384) (K := 512) (C := 256) 128 0 (by norm_num) (V c main_v61) (V c main_v64) (V c main_v66)) :=
  (dat1 V c).arrAt_eq_of_cover 7 (sampleArr V c) (fun t _ => narrow_flushed V c t) narrow_cover

end Cert.KernelIdeal.Val1

end
-- ==== Proof.KIValue2.lean ====
/-
  The third region's output as one function of its input: after the 128 points have run, the output array is the
  logistic of the input array against its own transpose, (r, s) ↦ logistic (∑ k, z(r, k) · z(s, k)), over the
  extended reals.

  * `transposed_sum`, `matmulT_zero_ix2`: a product contracting the second axis of both operands, read at (p, q), is
    ∑ k, a(p, k) · b(q, k).
  * `pay2_ix2`: the body's one stored value at the entry (p, q) of a tile is the logistic of row p of the first
    loaded block against row q of the second.
  * `pay2_block`: so, when the first block is rows 1024 a … of Z and the second rows 2048 b … of the same Z, that
    entry is the result at (1024 a + p, 2048 b + q).
  * `idx_facts2`: the index maps over the grid, point t ↔ (t / 8, t % 8) — block (t / 8, 0) for the first window,
    (t % 8, 0) for the second, (t / 8, t % 8) for the output.
  * `flushed2_eq`: what point t writes back is its block of the result; `mem_blk2`: the indices of a block;
    `gram_final`: the blocks of the 128 points cover the array (the entry (r, s) is in the block of the point
    (r / 1024) · 8 + s / 2048).
-/
import proofs.«131769_j3100966387958_2_alg».proof.Proof.KIRegion2
import proofs.«131769_j3100966387958_2_alg».proof.Proof.Spec
import proofs.«131769_j3100966387958_2_alg».proof.Proof.LibAffineLayer
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val2

open Cert.KernelIdeal Cert.KernelIdeal.Gen Cert.KernelIdeal.Fr Cert.Spec Cert.Lib.AffineLayer
open Idealize.ShloMosaic Idealize.ShloMosaic.ValueIdx Idealize.ShloMosaic.TcCoe
open Idealize.ShloMosaic.Pipeline (Dat)

theorem hz : (![0, 0] : Fin 2 → Nat) = fun _ => 0 := funext fun a => by fin_cases a <;> rfl

/-! ## A product against a transposed operand read at an index -/

/-- The contraction sum of an `[M,K] × [N,K]` product contracting the second axis of both operands, at the output
    index `(p, q)`: the left operand's row `p` against the right operand's row `q`. -/
theorem transposed_sum {M K N : ℕ} (l : (⟨2, ![M, K]⟩ : Shape).Idx → EReal) (r : (⟨2, ![N, K]⟩ : Shape).Idx → EReal)
    (p : Fin M) (q : Fin N) :
    ∑ k : (DotDims.transposedRhs M K N).contr.Idx,
        l ((DotDims.transposedRhs M K N).lhsIdx (ix2 p q) k) * r ((DotDims.transposedRhs M K N).rhsIdx (ix2 p q) k)
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => rfl
      | ⟨1, _⟩ => exact ((DotDims.transposedRhs M K N).rhsIdx_val_of_single rfl _ _).trans hk)
  rw [el, er]

/-- Such a product into the zero accumulator, at the ideal values, read at `(p, q)`. -/
theorem matmulT_zero_ix2 {M K N : ℕ} {φ₁ φ₂ : FTy} (D : DotDims ⟨2, ![M, K]⟩ ⟨2, ![N, K]⟩ ⟨2, ![M, N]⟩)
    (hD : D = DotDims.transposedRhs M K N) (prec : Option ContractPrecision)
    (a : FVec Ideal ⟨2, ![M, K]⟩ φ₁) (b : FVec Ideal ⟨2, ![N, K]⟩ φ₂) (p : Fin M) (q : Fin N) :
    matmul D prec a b (constant (F := Ideal) ⟨2, ![M, N]⟩ .f32 0x00000000#32) (ix2 p q)
      = ∑ k : Fin K, a (ix2 p k) * b (ix2 q k) := by
  subst hD
  exact (Ideal.matmul_constant_zero_apply _ prec a b (ix2 p q)).trans (transposed_sum a b p q)

/-! ## The body's payload -/

/-- The dimension numbers of the block product contract the second axis of both blocks. -/
theorem dot2_transposed : dot_S1024x128_S2048x128_S1024x2048_1_1_0_0_n_n = DotDims.transposedRhs 1024 128 2048 := rfl

/-- The body's payload at the entry (p, q) of the output tile: the logistic of row p of the first loaded block
    against row q of the second. -/
theorem pay2_ix2 (x0 : Vec Ideal S1024x128 .bf16) (x1 : Vec Ideal S2048x128 .bf16) (p : Fin 1024) (q : Fin 2048) :
    k2_pay1 x0 x1 (ix2 p q) = Ideal.logistic (∑ k : Fin 128, x0 (ix2 p k) * x1 (ix2 q k)) := by
  unfold Gen.k2_pay1
  rw [shapeCast_self, shapeCast_self]
  exact congrArg Ideal.logistic (matmulT_zero_ix2 _ dot2_transposed none x0 x1 p q)

/-- A tile of the result from two row blocks of one array: when the first block is rows 1024 a … of Z and the second
    rows 2048 b … of Z, the payload at (p, q) is the result at (1024 a + p, 2048 b + q). -/
theorem pay2_block (Z : Mat 16384 128) (x0 : Vec Ideal S1024x128 .bf16) (x1 : Vec Ideal S2048x128 .bf16)
    (a b : ℕ) (ha : a < 16) (hb : b < 8)
    (h0 : ∀ (p : Fin 1024) (k : Fin 128), x0 (ix2 p k) = Z (ix2 ⟨1024 * a + p.val, by have := p.isLt; omega⟩ k))
    (h1 : ∀ (q : Fin 2048) (k : Fin 128), x1 (ix2 q k) = Z (ix2 ⟨2048 * b + q.val, by have := q.isLt; omega⟩ k))
    (p : Fin 1024) (q : Fin 2048) (i : (⟨2, ![16384, 16384]⟩ : Shape).Idx)
    (hi0 : (i 0).val = 1024 * a + p.val) (hi1 : (i 1).val = 2048 * b + q.val) :
    k2_pay1 x0 x1 (ix2 p q) = gram Z i := by
  rw [pay2_ix2]
  have ei : i = ix2 ⟨1024 * a + p.val, by have := p.isLt; omega⟩ ⟨2048 * b + q.val, by have := q.isLt; omega⟩ :=
    funext fun d => by
      match d with
      | ⟨0, _⟩ => exact Fin.ext hi0
      | ⟨1, _⟩ => exact Fin.ext hi1
  rw [ei, gram_ix2]
  exact congrArg Ideal.logistic (Finset.sum_congr rfl fun k _ => by rw [h0 p k, h1 q k])

/-- The printed index maps over the 128 points, point t ↔ (t / 8, t % 8): the first window's block is (t / 8, 0),
    the second's (t % 8, 0), the output's (t / 8, t % 8). -/
theorem idx_facts2 : ∀ t : Fin cfg2.N, win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8 :=
  (by decide +kernel : ∀ t : Fin grid2.N, _)

variable (V : (c : Dev nD) → (b : Ref sig .tc) → Buf (Elt Ideal) ((c : Thread nD τ).loc b))

/-- What point t writes back is block (t / 8, t % 8) of the logistic of the array against its own transpose, the array
    as the region finds it: both input windows read that one array. -/
theorem flushed2_eq (c : Dev nD) (t : Fin cfg2.N) :
    (dat2 (F := Ideal) V c).flushed 2 t
      = ((cfg2.win 2).blk t).view.read (Elt Ideal) (gram (V c main_v67_3)) := by
  show (cfg2.win 2).cut (grid2.coords t) ((dat2 V c).after 2 t) = _
  rw [dat2_after2]
  unfold adjTile
  rw [View.canon_unit_zero hz]
  simp only [View.ld_unit_zero (S := S1024x128) hz, View.ld_unit_zero (S := S2048x128) hz]
  obtain ⟨e00, e01, e10, e11, e20, e21⟩ := idx_facts2 t
  have ht : t.val < 128 := lt_of_lt_of_eq t.isLt N_2
  funext j
  obtain ⟨p, q, rfl⟩ : ∃ (p : Fin 1024) (q : Fin 2048), j = ix2 p q := ⟨j 0, j 1, eq_ix2 j⟩
  refine pay2_block (V c main_v67_3) _ _ (t.val / 8) (t.val % 8) (by omega) (by omega) (fun p k => ?_) (fun q k => ?_)
    p q _ ?_ ?_
  · show V c main_v67_3 (((cfg2.win 0).blk t).view.emb (ix2 p k)) = _
    congr 1
    funext a; apply Fin.ext
    match a with
    | ⟨0, _⟩ => show win2_0.index t (0 : Fin 2) * 1024 + 1 * p.val = 1024 * (t.val / 8) + p.val; rw [e00]; omega
    | ⟨1, _⟩ => show win2_0.index t (1 : Fin 2) * 128 + 1 * k.val = k.val; rw [e01]; omega
  · show V c main_v67_3 (((cfg2.win 1).blk t).view.emb (ix2 q k)) = _
    congr 1
    funext a; apply Fin.ext
    match a with
    | ⟨0, _⟩ => show win2_1.index t (0 : Fin 2) * 2048 + 1 * q.val = 2048 * (t.val % 8) + q.val; rw [e10]; omega
    | ⟨1, _⟩ => show win2_1.index t (1 : Fin 2) * 128 + 1 * k.val = k.val; rw [e11]; omega
  · show win2_2.index t (0 : Fin 2) * 1024 + 1 * p.val = 1024 * (t.val / 8) + p.val; rw [e20]; omega
  · show win2_2.index t (1 : Fin 2) * 2048 + 1 * q.val = 2048 * (t.val % 8) + q.val; rw [e21]; omega

/-- An index of the output array is in point t's block iff each coordinate is in the block's range on its axis. -/
theorem mem_blk2 (t : Fin cfg2.N) (i : S16384x16384.Idx) :
    i ∈ ((cfg2.win 2).blk t).view.set ↔ ∀ a : Fin 2, win2_2.index t a * S1024x2048.size a ≤ (i a).val
      ∧ (i a).val < win2_2.index t a * S1024x2048.size a + S1024x2048.size a := by
  show i ∈ ((View.whole main_v68).slice (win2_2.rect t)).set ↔ _
  rw [View.set_slice_whole, Rect.mem_set_unit]
  exact Iff.rfl

/-- The output array after the region: the logistic of the input array against its own transpose. The entry (r, s)
    lies in the block of the point (r / 1024) · 8 + s / 2048, and every point writes its block back. -/
theorem gram_final (c : Dev nD) :
    (dat2 (F := Ideal) V c).arrAt 2 cfg2.N = gram (V c main_v67_3) :=
  (dat2 V c).arrAt_eq_of_cover 2 (gram (V c main_v67_3)) (fun t _ => flushed2_eq V c t) fun i => by
    have hi0 : (i 0).val < 16384 := (i 0).isLt
    have hi1 : (i 1).val < 16384 := (i 1).isLt
    have hq : (i 0).val / 1024 * 8 + (i 1).val / 2048 < cfg2.N :=
      lt_of_lt_of_eq (by omega : (i 0).val / 1024 * 8 + (i 1).val / 2048 < 128) N_2.symm
    refine ⟨⟨(i 0).val / 1024 * 8 + (i 1).val / 2048, hq⟩, flush2_2 _, ?_⟩
    rw [mem_blk2]
    obtain ⟨-, -, -, -, e20, e21⟩ := idx_facts2 ⟨(i 0).val / 1024 * 8 + (i 1).val / 2048, hq⟩
    intro a
    match a with
    | ⟨0, _⟩ =>
      show win2_2.index ⟨(i 0).val / 1024 * 8 + (i 1).val / 2048, hq⟩ (0 : Fin 2) * 1024 ≤ (i 0).val
        ∧ (i 0).val < win2_2.index ⟨(i 0).val / 1024 * 8 + (i 1).val / 2048, hq⟩ (0 : Fin 2) * 1024 + 1024
      rw [e20]
      show ((i 0).val / 1024 * 8 + (i 1).val / 2048) / 8 * 1024 ≤ (i 0).val
        ∧ (i 0).val < ((i 0).val / 1024 * 8 + (i 1).val / 2048) / 8 * 1024 + 1024
      omega
    | ⟨1, _⟩ =>
      show win2_2.index ⟨(i 0).val / 1024 * 8 + (i 1).val / 2048, hq⟩ (1 : Fin 2) * 2048 ≤ (i 1).val
        ∧ (i 1).val < win2_2.index ⟨(i 0).val / 1024 * 8 + (i 1).val / 2048, hq⟩ (1 : Fin 2) * 2048 + 2048
      rw [e21]
      show ((i 0).val / 1024 * 8 + (i 1).val / 2048) % 8 * 2048 ≤ (i 1).val
        ∧ (i 1).val < ((i 0).val / 1024 * 8 + (i 1).val / 2048) % 8 * 2048 + 2048
      omega

end Cert.KernelIdeal.Val2

end
-- ==== Proof.Chain.lean ====
/-
  The host operations both programs share, as functions at the ideal values: from the edge list, the source and
  destination lists with one self-loop per node appended; a negative index wrapped by the number of nodes; each node's
  degree (a scatter-add of ones along the destinations), its inverse square root where the degree is positive and zero
  elsewhere, and the edge norm (the product of the two ends' inverse roots); the hidden layer
  (scatter-add along the destinations of the source rows of x · W scaled by the edge norm, plus the bias row); and the
  neighbour aggregation of the hidden layer over the edges without self-loops.
-/
import proofs.«131769_j3100966387958_2_alg».proof.KernelIdeal
import proofs.«131769_j3100966387958_2_alg».proof.Proof.Gen.KernelIdeal
import Idealize.ShloMosaic.PureOps.Ideal

noncomputable section

namespace Cert.KernelIdeal.Chain

open Idealize.ShloMosaic Cert.KernelIdeal
open Cert.KernelIdeal.Facts₀ Cert.KernelIdeal.Facts

/-- The edge list, the node-indexed and edge-indexed integer vectors, and the float arrays of the chain. -/
abbrev Edges : Type := (⟨S2x524288, .i32⟩ : BufTy).Contents (Elt Ideal)
abbrev Idx524 : Type := (⟨S524288, .i32⟩ : BufTy).Contents (Elt Ideal)
abbrev Idx540 : Type := (⟨S540672, .i32⟩ : BufTy).Contents (Elt Ideal)

/-- Row 0 (the sources) and row 1 (the destinations) of the edge list. -/
def row0 (ei : Edges) : Idx524 :=
  shapeCast S524288 (extractStridedSlice S1x524288 ![0, 0] ei slices_S2x524288_S1x524288_0_0) shapeCasts_S1x524288_S524288
def row1 (ei : Edges) : Idx524 :=
  shapeCast S524288 (extractStridedSlice S1x524288 ![1, 0] ei slices_S2x524288_S1x524288_1_0) shapeCasts_S1x524288_S524288

/-- A list of edge ends with the self-loops 0, 1, …, 16383 appended. -/
def withLoops (r : Idx524) : Idx540 :=
  concatenate S540672 0 [⟨S524288, r⟩, ⟨S16384, iotaInDim S16384 32 0⟩] concatenates_S524288_S16384_S540672_d0
def src (ei : Edges) : Idx540 := withLoops (row0 ei)
def dst (ei : Edges) : Idx540 := withLoops (row1 ei)

/-- A negative index wrapped by 16384, as a column of gather indices (over the edges with self-loops). -/
def wrap540 (x : Idx540) : (⟨S540672x1, .i32⟩ : BufTy).Contents (Elt Ideal) :=
  broadcastInDim S540672x1 ![0] bcast_S540672_S540672x1_0
    (select (cmpi .slt x (broadcastInDim S540672 ![] bcast_S_S540672 (constantI S_ 32 0#32)))
      (addi x (broadcastInDim S540672 ![] bcast_S_S540672 (constantI S_ 32 16384#32))) x)
/-- The same over the edges without self-loops. -/
def wrap524 (x : Idx524) : (⟨S524288x1, .i32⟩ : BufTy).Contents (Elt Ideal) :=
  broadcastInDim S524288x1 ![0] bcast_S524288_S524288x1_0
    (select (cmpi .slt x (broadcastInDim S524288 ![] bcast_S_S524288 (constantI S_ 32 0#32)))
      (addi x (broadcastInDim S524288 ![] bcast_S_S524288 (constantI S_ 32 16384#32))) x)

/-- A node's degree: the number of edges (self-loop included) that end at it. -/
def deg (ei : Edges) : FVec Ideal S16384 .f32 :=
  Host.scatterAdd scatter_S16384_S540672x1_S540672_n_0_0_1
    (broadcastInDim S16384 ![] bcast_S_S16384 (constant S_ .f32 0x00000000#32))
    (broadcastInDim S540672x1 ![0] bcast_S540672_S540672x1_0 (dst ei))
    (broadcastInDim S540672 ![] bcast_S_S540672 (constant S_ .f32 0x3F800000#32))

/-- The inverse square root of the degree where it is positive, zero elsewhere. -/
def dinv (ei : Edges) : FVec Ideal S16384 .f32 :=
  select (cmpf .ogt (deg ei) (broadcastInDim S16384 ![] bcast_S_S16384 (constant S_ .f32 0x00000000#32)))
    (Host.rsqrt (deg ei))
    (broadcastInDim S16384 ![] bcast_S_S16384 (id (constant S_ .f32 0x00000000#32)))

/-- The edge norm: the product of the inverse roots at the edge's two ends. -/
def norm (ei : Edges) : FVec Ideal S540672 .f32 :=
  mulf (Host.gather gather_S16384_S540672x1_S540672_n_0_n_n_0_1_1 (dinv ei) (wrap540 (src ei)))
    (Host.gather gather_S16384_S540672x1_S540672_n_0_n_n_0_1_1 (dinv ei) (wrap540 (dst ei)))

/-- The hidden layer from the sources `s`, the destinations `d`, the edge norm `nrm`, the product `xw` and the bias `b`. -/
def hiddenOf (s d : Idx540) (nrm : FVec Ideal S540672 .f32) (xw : FVec Ideal S16384x256 .f32) (b : FVec Ideal S256 .f32) :
    FVec Ideal S16384x256 .f32 :=
  addf
    (Host.scatterAdd scatter_S16384x256_S540672x1_S540672x256_1_0_0_1
      (broadcastInDim S16384x256 ![] bcast_S_S16384x256 (constant S_ .f32 0x00000000#32))
      (broadcastInDim S540672x1 ![0] bcast_S540672_S540672x1_0 d)
      (mulf (Host.gather gather_S16384x256_S540672x1_S540672x256_1_0_n_n_0_1_1256 xw (wrap540 s))
        (broadcastInDim S540672x256 ![0, 1] bcast_S540672x1_S540672x256_0_1
          (broadcastInDim S540672x1 ![0] bcast_S540672_S540672x1_0 nrm))))
    (broadcastInDim S16384x256 ![0, 1] bcast_S1x256_S16384x256_0_1 (broadcastInDim S1x256 ![1] bcast_S256_S1x256_1 b))

/-- The hidden layer of the edge list `ei`. -/
def hidden (ei : Edges) (xw : FVec Ideal S16384x256 .f32) (b : FVec Ideal S256 .f32) : FVec Ideal S16384x256 .f32 :=
  hiddenOf (src ei) (dst ei) (norm ei) xw b

/-- The neighbour aggregation: the rows of `h` at the edges' sources summed at the edges' destinations. -/
def agg (ei : Edges) (h : FVec Ideal S16384x256 .f32) : FVec Ideal S16384x256 .f32 :=
  Host.scatterAdd scatter_S16384x256_S524288x1_S524288x256_1_0_0_1
    (broadcastInDim S16384x256 ![] bcast_S_S16384x256 (constant S_ .f32 0x00000000#32))
    (broadcastInDim S524288x1 ![0] bcast_S524288_S524288x1_0 (row1 ei))
    (Host.gather gather_S16384x256_S524288x1_S524288x256_1_0_n_n_0_1_1256 h (wrap524 (row0 ei)))

end Cert.KernelIdeal.Chain

end
-- ==== Proof.AlgBridge.lean ====
/-
  The algebra that joins the two arrangements of the computation, over the extended reals, with no finiteness asked:
  only commutativity and associativity of the sum are used.

  * A concatenation along the rows read in its upper or lower piece; a concatenation of two vectors read in its first
    or second piece; a vector broadcast to one row and then over many rows (the host's two broadcasts) read at `(p, q)`.
  * THE FUSED PROJECTION. With the features `[agg | h]` joined along the columns, the weights `[Wr ; Wl]` joined along
    the rows and the two weight blocks joined along the columns, column `q` of `[agg | h] · [[Wr ; Wl] | [Wr' ; Wl']] + [b | b']`
    is `agg · Wr + h · Wl + b` for `q < 128` and `agg · Wr' + h · Wl' + b'` for the next 128 columns: the sum over the 512
    joined columns splits into its two halves of 256.
  * The host's product is the product; the host's `1 / (1 + exp (-(z · zᵀ)))` is `logistic (z · zᵀ)`, the transposed
    operand read back at `(k, q) ↦ z (q, k)`.
-/
import proofs.«131769_j3100966387958_2_alg».proof.Proof.Spec
import proofs.«131769_j3100966387958_2_alg».proof.Proof.LibAffineLayer
import Idealize.ShloMosaic.Lib.ValueIdx
import Idealize.ShloMosaic.Lib.ValueLayout
import Idealize.ShloMosaic.Lib.Pipeline.Value
import Idealize.ShloMosaic.PureOps.Ideal.Laws

noncomputable section

namespace Cert.Alg

open Idealize.ShloMosaic Idealize.ShloMosaic.ValueIdx Cert.Spec Cert.Lib.AffineLayer

/-! ## Layout operations read at an index -/

section Layout
variable {α : Type}

/-- Two matrices joined along the rows, read in the upper one's rows. -/
theorem concat2_top {a b n C : ℕ} (x₁ : (⟨2, ![a, C]⟩ : Shape).Idx → α) (x₂ : (⟨2, ![b, C]⟩ : Shape).Idx → α)
    (h : Shape.Concatenates [⟨2, ![a, C]⟩, ⟨2, ![b, C]⟩] ⟨2, ![n, C]⟩ 0) (k : Fin a) (q : Fin C) (k' : Fin n)
    (hk : k'.val = k.val) :
    concatenate ⟨2, ![n, C]⟩ 0 [⟨⟨2, ![a, C]⟩, x₁⟩, ⟨⟨2, ![b, C]⟩, x₂⟩] h (ix2 k' q) = x₁ (ix2 k q) :=
  concatenate_apply_piece 0 [⟨⟨2, ![a, C]⟩, x₁⟩, ⟨⟨2, ![b, C]⟩, x₂⟩] h (ix2 k' q) 0 (Nat.zero_lt_succ _) _ x₁ rfl rfl 0 rfl (ix2 k q)
    (fun c hc => by
      match c with
      | ⟨0, _⟩ => exact absurd rfl hc
      | ⟨1, _⟩ => rfl)
    (by show 0 + k.val = k'.val; omega)

/-- Two matrices joined along the rows, read in the lower one's rows. -/
theorem concat2_bottom {a b n C : ℕ} (x₁ : (⟨2, ![a, C]⟩ : Shape).Idx → α) (x₂ : (⟨2, ![b, C]⟩ : Shape).Idx → α)
    (h : Shape.Concatenates [⟨2, ![a, C]⟩, ⟨2, ![b, C]⟩] ⟨2, ![n, C]⟩ 0) (k : Fin b) (q : Fin C) (k' : Fin n)
    (hk : k'.val = a + k.val) :
    concatenate ⟨2, ![n, C]⟩ 0 [⟨⟨2, ![a, C]⟩, x₁⟩, ⟨⟨2, ![b, C]⟩, x₂⟩] h (ix2 k' q) = x₂ (ix2 k q) :=
  concatenate_apply_piece 0 [⟨⟨2, ![a, C]⟩, x₁⟩, ⟨⟨2, ![b, C]⟩, x₂⟩] h (ix2 k' q) 1 (Nat.succ_lt_succ (Nat.zero_lt_succ _)) _ x₂ rfl rfl a (by simp) (ix2 k q)
    (fun c hc => by
      match c with
      | ⟨0, _⟩ => exact absurd rfl hc
      | ⟨1, _⟩ => rfl)
    (by show a + k.val = k'.val; omega)

/-- Two vectors joined end to end, read in the first. -/
theorem concat1_fst {a b n : ℕ} (x₁ : (⟨1, ![a]⟩ : Shape).Idx → α) (x₂ : (⟨1, ![b]⟩ : Shape).Idx → α)
    (h : Shape.Concatenates [⟨1, ![a]⟩, ⟨1, ![b]⟩] ⟨1, ![n]⟩ 0) (k : Fin a) (k' : Fin n) (hk : k'.val = k.val) :
    concatenate ⟨1, ![n]⟩ 0 [⟨⟨1, ![a]⟩, x₁⟩, ⟨⟨1, ![b]⟩, x₂⟩] h (ix1 k') = x₁ (ix1 k) :=
  concatenate_apply_piece 0 [⟨⟨1, ![a]⟩, x₁⟩, ⟨⟨1, ![b]⟩, x₂⟩] h (ix1 k') 0 (Nat.zero_lt_succ _) _ x₁ rfl rfl 0 rfl (ix1 k)
    (fun c hc => by
      match c with
      | ⟨0, _⟩ => exact absurd rfl hc)
    (by show 0 + k.val = k'.val; omega)

/-- Two vectors joined end to end, read in the second. -/
theorem concat1_snd {a b n : ℕ} (x₁ : (⟨1, ![a]⟩ : Shape).Idx → α) (x₂ : (⟨1, ![b]⟩ : Shape).Idx → α)
    (h : Shape.Concatenates [⟨1, ![a]⟩, ⟨1, ![b]⟩] ⟨1, ![n]⟩ 0) (k : Fin b) (k' : Fin n) (hk : k'.val = a + k.val) :
    concatenate ⟨1, ![n]⟩ 0 [⟨⟨1, ![a]⟩, x₁⟩, ⟨⟨1, ![b]⟩, x₂⟩] h (ix1 k') = x₂ (ix1 k) :=
  concatenate_apply_piece 0 [⟨⟨1, ![a]⟩, x₁⟩, ⟨⟨1, ![b]⟩, x₂⟩] h (ix1 k') 1 (Nat.succ_lt_succ (Nat.zero_lt_succ _)) _ x₂ rfl rfl a (by simp) (ix1 k)
    (fun c hc => by
      match c with
      | ⟨0, _⟩ => exact absurd rfl hc)
    (by show a + k.val = k'.val; omega)

/-- A vector broadcast to one row and that row over `a` rows (the host's two broadcasts) reads, at `(p, q)`, the vector
    at `q`. -/
theorem host_row_apply {a b : ℕ} (hb : b ≠ 1) (v : (⟨1, ![b]⟩ : Shape).Idx → α)
    (h₁ : (⟨1, ![b]⟩ : Shape).BroadcastsInDim ⟨2, ![1, b]⟩ ![1])
    (h₂ : (⟨2, ![1, b]⟩ : Shape).BroadcastsInDim ⟨2, ![a, b]⟩ ![0, 1]) (p : Fin a) (q : Fin b) :
    broadcastInDim ⟨2, ![a, b]⟩ ![0, 1] h₂ (broadcastInDim ⟨2, ![1, b]⟩ ![1] h₁ v) (ix2 p q) = v (ix1 q) := by
  rw [broadcastInDim_apply ![0, 1] h₂ _ (ix2 p q) (ix2 (0 : Fin 1) q) (fun c => by
        match c with
        | ⟨0, _⟩ => simp
        | ⟨1, _⟩ => show q.val = if b = 1 then 0 else q.val; rw [if_neg hb]),
    broadcastInDim_apply ![1] h₁ v (ix2 (0 : Fin 1) q) (ix1 q) (fun c => by
        match c with
        | ⟨0, _⟩ => show q.val = if b = 1 then 0 else q.val; rw [if_neg hb])]

/-- A scalar broadcast over a matrix reads the scalar everywhere. -/
theorem host_splat_apply {a b : ℕ} (x : (⟨0, ![]⟩ : Shape).Idx → α)
    (h : (⟨0, ![]⟩ : Shape).BroadcastsInDim ⟨2, ![a, b]⟩ ![]) (j : (⟨2, ![a, b]⟩ : Shape).Idx) :
    broadcastInDim ⟨2, ![a, b]⟩ ![] h x j = x ix0 :=
  broadcastInDim_apply ![] h x j ix0 (fun c => c.elim0)

end Layout

/-! ## The products -/

/-- The host's product of an `M × K` by a `K × N` matrix is the product. -/
theorem hostProd_eq {M K N : ℕ} {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂) :
    (Host.dotGeneral D prec x w : Mat M N) = prod x w := by
  funext j
  obtain ⟨p, q, rfl⟩ : ∃ (p : Fin M) (q : Fin N), j = ix2 p q := ⟨j 0, j 1, eq_ix2 j⟩
  exact dotGeneral_ix2 D hD prec x w p q

/-! ## The fused projection -/

/-- A vector of extended reals. -/
abbrev Vec1 (n : ℕ) : Type := (⟨1, ![n]⟩ : Shape).Idx → EReal

section Fused
variable (agg h : Mat 16384 256) (Wr Wl Wr' Wl' : Mat 256 128) (b b' : Vec1 128)
  (hf : Shape.Concatenates [⟨2, ![16384, 256]⟩, ⟨2, ![16384, 256]⟩] ⟨2, ![16384, 512]⟩ 1)
  (hw : Shape.Concatenates [⟨2, ![256, 128]⟩, ⟨2, ![256, 128]⟩] ⟨2, ![512, 128]⟩ 0)
  (hW : Shape.Concatenates [⟨2, ![512, 128]⟩, ⟨2, ![512, 128]⟩] ⟨2, ![512, 256]⟩ 1)
  (hb : Shape.Concatenates [⟨1, ![128]⟩, ⟨1, ![128]⟩] ⟨1, ![256]⟩ 0)
  (hs : (⟨1, ![256]⟩ : Shape).ShapeCasts ⟨2, ![1, 256]⟩)

/-- The joined features, the joined weights and the joined bias row. -/
abbrev feats : Mat 16384 512 :=
  concatenate ⟨2, ![16384, 512]⟩ 1 [⟨⟨2, ![16384, 256]⟩, agg⟩, ⟨⟨2, ![16384, 256]⟩, h⟩] hf
abbrev weights : Mat 512 256 :=
  concatenate ⟨2, ![512, 256]⟩ 1
    [⟨⟨2, ![512, 128]⟩, concatenate ⟨2, ![512, 128]⟩ 0 [⟨⟨2, ![256, 128]⟩, Wr⟩, ⟨⟨2, ![256, 128]⟩, Wl⟩] hw⟩,
     ⟨⟨2, ![512, 128]⟩, concatenate ⟨2, ![512, 128]⟩ 0 [⟨⟨2, ![256, 128]⟩, Wr'⟩, ⟨⟨2, ![256, 128]⟩, Wl'⟩] hw⟩] hW
abbrev biasRow : Mat 1 256 :=
  shapeCast ⟨2, ![1, 256]⟩ (concatenate ⟨1, ![256]⟩ 0 [⟨⟨1, ![128]⟩, b⟩, ⟨⟨1, ![128]⟩, b'⟩] hb) hs

/-- The first 128 columns of the fused projection: `agg · Wr + h · Wl + b`. The sum over the 512 joined columns is the
    sum over the first 256 (where the features are `agg` and the weight rows are `Wr`'s) plus the sum over the next 256
    (`h` and `Wl`). -/
theorem fused_first :
    affineCols 128 0 (by norm_num) (feats agg h hf) (weights Wr Wl Wr' Wl' hw hW) (biasRow b b' hb hs)
      = fun i => (prod agg Wr i + prod h Wl i) + b (ix1 (i 1)) := by
  funext j
  obtain ⟨p, q, rfl⟩ : ∃ (p : Fin 16384) (q : Fin 128), j = ix2 p q := ⟨j 0, j 1, eq_ix2 j⟩
  show _ = (∑ k : Fin 256, agg (ix2 p k) * Wr (ix2 k q) + ∑ k : Fin 256, h (ix2 p k) * Wl (ix2 k q)) + b (ix1 q)
  unfold feats weights biasRow
  rw [affineCols_ix2, sum_split2 256 256 512 rfl]
  congr 1
  · congr 1
    · refine Finset.sum_congr rfl fun k _ => ?_
      rw [concat2_left agg h hf p k ⟨k.val, by omega⟩ rfl,
        concat2_left _ _ hW ⟨k.val, by omega⟩ q ⟨0 + q.val, by omega⟩ (Nat.zero_add _),
        concat2_top Wr Wl hw k q ⟨k.val, by omega⟩ rfl]
    · refine Finset.sum_congr rfl fun k _ => ?_
      rw [concat2_right agg h hf p k ⟨256 + k.val, by omega⟩ rfl,
        concat2_left _ _ hW ⟨256 + k.val, by omega⟩ q ⟨0 + q.val, by omega⟩ (Nat.zero_add _),
        concat2_bottom Wr Wl hw k q ⟨256 + k.val, by omega⟩ rfl]
  · rw [shapeCast_a_1a_apply _ hs 0 ⟨0 + q.val, by omega⟩, concat1_fst b b' hb q ⟨0 + q.val, by omega⟩ (Nat.zero_add _)]

/-- The next 128 columns of the fused projection: `agg · Wr' + h · Wl' + b'`. -/
theorem fused_second :
    affineCols 128 128 (by norm_num) (feats agg h hf) (weights Wr Wl Wr' Wl' hw hW) (biasRow b b' hb hs)
      = fun i => (prod agg Wr' i + prod h Wl' i) + b' (ix1 (i 1)) := by
  funext j
  obtain ⟨p, q, rfl⟩ : ∃ (p : Fin 16384) (q : Fin 128), j = ix2 p q := ⟨j 0, j 1, eq_ix2 j⟩
  show _ = (∑ k : Fin 256, agg (ix2 p k) * Wr' (ix2 k q) + ∑ k : Fin 256, h (ix2 p k) * Wl' (ix2 k q)) + b' (ix1 q)
  unfold feats weights biasRow
  rw [affineCols_ix2, sum_split2 256 256 512 rfl]
  congr 1
  · congr 1
    · refine Finset.sum_congr rfl fun k _ => ?_
      rw [concat2_left agg h hf p k ⟨k.val, by omega⟩ rfl,
        concat2_right _ _ hW ⟨k.val, by omega⟩ q ⟨128 + q.val, by omega⟩ rfl,
        concat2_top Wr' Wl' hw k q ⟨k.val, by omega⟩ rfl]
    · refine Finset.sum_congr rfl fun k _ => ?_
      rw [concat2_right agg h hf p k ⟨256 + k.val, by omega⟩ rfl,
        concat2_right _ _ hW ⟨256 + k.val, by omega⟩ q ⟨128 + q.val, by omega⟩ rfl,
        concat2_bottom Wr' Wl' hw k q ⟨256 + k.val, by omega⟩ rfl]
  · rw [shapeCast_a_1a_apply _ hs 0 ⟨128 + q.val, by omega⟩, concat1_snd b b' hb q ⟨128 + q.val, by omega⟩ rfl]

end Fused

/-! ## The host's spellings -/

/-- The host's `agg · Wr + h · Wl + b`, the bias broadcast to one row and then over every row. -/
theorem host_affine (D : DotDims ⟨2, ![16384, 256]⟩ ⟨2, ![256, 128]⟩ ⟨2, ![16384, 128]⟩) (hD : D = DotDims.plain 16384 256 128)
    (agg h : FVec Ideal ⟨2, ![16384, 256]⟩ .f32) (Wr Wl : FVec Ideal ⟨2, ![256, 128]⟩ .f32) (b : FVec Ideal ⟨1, ![128]⟩ .f32)
    (h₁ : (⟨1, ![128]⟩ : Shape).BroadcastsInDim ⟨2, ![1, 128]⟩ ![1])
    (h₂ : (⟨2, ![1, 128]⟩ : Shape).BroadcastsInDim ⟨2, ![16384, 128]⟩ ![0, 1]) :
    (addf (addf (Host.dotGeneral D none agg Wr) (Host.dotGeneral D none h Wl))
        (broadcastInDim ⟨2, ![16384, 128]⟩ ![0, 1] h₂ (broadcastInDim ⟨2, ![1, 128]⟩ ![1] h₁ b)) : Mat 16384 128)
      = fun i => (prod (agg : Mat 16384 256) Wr i + prod (h : Mat 16384 256) Wl i) + b (ix1 (i 1)) := by
  funext j
  obtain ⟨p, q, rfl⟩ : ∃ (p : Fin 16384) (q : Fin 128), j = ix2 p q := ⟨j 0, j 1, eq_ix2 j⟩
  show (Host.dotGeneral D none agg Wr (ix2 p q) + Host.dotGeneral D none h Wl (ix2 p q))
      + broadcastInDim ⟨2, ![16384, 128]⟩ ![0, 1] h₂ (broadcastInDim ⟨2, ![1, 128]⟩ ![1] h₁ b) (ix2 p q) = _
  rw [dotGeneral_ix2 D hD none agg Wr p q, dotGeneral_ix2 D hD none h Wl p q, host_row_apply (by norm_num) b h₁ h₂ p q]
  rfl

/-- The host's `eps · exp lv + mu` is the sample. -/
theorem host_sample (eps lv mu : FVec Ideal ⟨2, ![16384, 128]⟩ .f32) :
    (addf (mulf eps (Host.exp lv)) mu : Mat 16384 128) = sample eps lv mu := rfl

/-- The word of the float one is the real one. -/
theorem one_f32 : Ideal.ofBits .f32 0x3F800000#32 = 1 := by
  simp [Ideal.ofBits, Ideal.ieee, -EReal.coe_mul]; norm_num

/-- The host's `1 / (1 + exp (-(z · zᵀ)))` is `logistic (z · zᵀ)`: the transposed operand at `(k, q)` is `z (q, k)`. -/
theorem host_gram (D : DotDims ⟨2, ![16384, 128]⟩ ⟨2, ![128, 16384]⟩ ⟨2, ![16384, 16384]⟩) (hD : D = DotDims.plain 16384 128 16384)
    (z : FVec Ideal ⟨2, ![16384, 128]⟩ .f32)
    (ht : (⟨2, ![16384, 128]⟩ : Shape).Transposes [1, 0] ⟨2, ![128, 16384]⟩)
    (hs : (⟨0, ![]⟩ : Shape).BroadcastsInDim ⟨2, ![16384, 16384]⟩ ![]) :
    (Host.divf (broadcastInDim ⟨2, ![16384, 16384]⟩ ![] hs (constant (F := Ideal) ⟨0, ![]⟩ .f32 0x3F800000#32))
        (addf (broadcastInDim ⟨2, ![16384, 16384]⟩ ![] hs (constant (F := Ideal) ⟨0, ![]⟩ .f32 0x3F800000#32))
          (Host.exp (Host.negf (Host.dotGeneral D none z (transpose ⟨2, ![128, 16384]⟩ [1, 0] z ht))))) : Mat 16384 16384)
      = gram z := by
  funext j
  obtain ⟨p, q, rfl⟩ : ∃ (p : Fin 16384) (q : Fin 16384), j = ix2 p q := ⟨j 0, j 1, eq_ix2 j⟩
  show Ideal.div (broadcastInDim ⟨2, ![16384, 16384]⟩ ![] hs (constant (F := Ideal) ⟨0, ![]⟩ .f32 0x3F800000#32) (ix2 p q))
      (broadcastInDim ⟨2, ![16384, 16384]⟩ ![] hs (constant (F := Ideal) ⟨0, ![]⟩ .f32 0x3F800000#32) (ix2 p q)
        + Ideal.exp (-(Host.dotGeneral D none z (transpose ⟨2, ![128, 16384]⟩ [1, 0] z ht) (ix2 p q))))
    = Ideal.logistic (∑ k : Fin 128, z (ix2 p k) * z (ix2 q k))
  rw [host_splat_apply, dotGeneral_ix2 D hD none z _ p q]
  show Ideal.div (Ideal.ofBits .f32 0x3F800000#32) (Ideal.ofBits .f32 0x3F800000#32 + Ideal.exp (-(∑ k : Fin 128, z (ix2 p k) * transpose ⟨2, ![128, 16384]⟩ [1, 0] z ht (ix2 k q)))) = _
  rw [one_f32, Finset.sum_congr rfl fun k _ => by rw [transpose_ix2_apply z ht k q]]
  rfl

end Cert.Alg

end
-- ==== Proof.KIBoundary.lean ====
/-
  The contents of the buffers at the boundaries of the run, as functions of the launch arguments at the ideal values.

  With `x` the features, `ei` the edge list, `W`, `b` the first layer's weight and bias, `Wr`, `Wl`, `bm` and `Wr'`,
  `Wl'`, `bl` the two heads' weights and biases, and `eps` the noise: before the first kernel region the host has the
  source and destination lists with self-loops and the edge norm; the first region leaves `x · W`; the host then forms the
  hidden layer `h`, its neighbour aggregation `a`, the joined features `[a | h]`, the joined weights and the joined bias
  row; the second region leaves the mean `a · Wr + h · Wl + bm`, the log-variance `a · Wr' + h · Wl' + bl`, the sample
  `eps · exp(log-variance) + mean` (twice, the second in the narrower format); the third leaves `logistic (z · zᵀ)` of
  the sample `z`.
-/
import proofs.«131769_j3100966387958_2_alg».proof.Proof.KIRun
import proofs.«131769_j3100966387958_2_alg».proof.Proof.KIValue0
import proofs.«131769_j3100966387958_2_alg».proof.Proof.KIValue1
import proofs.«131769_j3100966387958_2_alg».proof.Proof.KIValue2
import proofs.«131769_j3100966387958_2_alg».proof.Proof.Chain
import proofs.«131769_j3100966387958_2_alg».proof.Proof.AlgBridge
import proofs.«131769_j3100966387958_2_alg».proof.Proof.Spec
import Idealize.ShloMosaic.Lib.StableHlo.Run
import Idealize.ShloMosaic.Lib.ValueIdx

set_option maxRecDepth 16384

noncomputable section

namespace Cert.KernelIdeal.Bd

open Cert.KernelIdeal Cert.KernelIdeal.Gen Cert.KernelIdeal.Fr Cert.KernelIdeal.Chain Cert.Spec Cert.Alg
open Idealize.ShloMosaic Idealize.ShloMosaic.TcCoe Idealize.ShloMosaic.StableHlo Idealize.ShloMosaic.ValueIdx

variable (m : (ℓ : Loc nD τ sig) → Buf (Elt Ideal) ℓ) (c : Dev nD)

/-! ## The launch arguments, typed -/

/-- The features, the edge list, the first layer's weight and bias, the two heads' weights and biases, the noise. -/
abbrev kx : FVec Ideal S16384x512 .f32 := m ((c : Thread nD τ).loc main_arg0)
abbrev kei : Edges := m ((c : Thread nD τ).loc main_arg1)
abbrev kW : FVec Ideal S512x256 .f32 := m ((c : Thread nD τ).loc main_arg2)
abbrev kb : FVec Ideal S256 .f32 := m ((c : Thread nD τ).loc main_arg3)
abbrev kWr : FVec Ideal S256x128 .f32 := m ((c : Thread nD τ).loc main_arg4)
abbrev kWl : FVec Ideal S256x128 .f32 := m ((c : Thread nD τ).loc main_arg5)
abbrev kbm : FVec Ideal S128 .f32 := m ((c : Thread nD τ).loc main_arg6)
abbrev kWr' : FVec Ideal S256x128 .f32 := m ((c : Thread nD τ).loc main_arg7)
abbrev kWl' : FVec Ideal S256x128 .f32 := m ((c : Thread nD τ).loc main_arg8)
abbrev kbl : FVec Ideal S128 .f32 := m ((c : Thread nD τ).loc main_arg9)
abbrev keps : FVec Ideal S16384x128 .f32 := m ((c : Thread nD τ).loc main_arg10)

/-- The hidden layer and its neighbour aggregation. -/
abbrev khid : FVec Ideal S16384x256 .f32 := hidden (kei m c) (prod (kx m c) (kW m c) : Mat 16384 256) (kb m c)
abbrev kagg : FVec Ideal S16384x256 .f32 := agg (kei m c) (khid m c)

/-- The mean `a · Wr + h · Wl + bm` and the log-variance `a · Wr' + h · Wl' + bl`. -/
abbrev kmu : Mat 16384 128 :=
  fun i => (prod (kagg m c : Mat 16384 256) (kWr m c) i + prod (khid m c : Mat 16384 256) (kWl m c) i) + kbm m c (ix1 (i 1))
abbrev klv : Mat 16384 128 :=
  fun i => (prod (kagg m c : Mat 16384 256) (kWr' m c) i + prod (khid m c : Mat 16384 256) (kWl' m c) i) + kbl m c (ix1 (i 1))

/-! ## A concatenation of two pieces is a function of its pieces -/

/-- Equal pieces concatenate alike (the rule a rewriting pass follows into a concatenation's pieces). -/
theorem concat2_congr {α : Type} (t : Shape) (a : Fin t.rank) (s₁ s₂ : Shape) (x₁ x₁' : s₁.Idx → α) (x₂ x₂' : s₂.Idx → α)
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

attribute [local congr] concat2_congr

/-! ## Before the first region: the edge lists with self-loops, the degrees, the edge norm -/

set_option maxHeartbeats 4000000 in
/-- The sources with the self-loops appended. -/
theorem B1_src : B1 m c (Proc.devRef .tc main_v3) = src (kei m c) := by
  show StableHlo.after hostOps0 (B0 m c) (Proc.devRef .tc main_v3) = _
  after_results_simp
  rfl

set_option maxHeartbeats 4000000 in
/-- The destinations with the self-loops appended. -/
theorem B1_dst : B1 m c (Proc.devRef .tc main_v6) = dst (kei m c) := by
  show StableHlo.after hostOps0 (B0 m c) (Proc.devRef .tc main_v6) = _
  after_results_simp
  rfl

set_option maxHeartbeats 4000000 in
/-- The degrees. -/
theorem B1_deg : B1 m c (Proc.devRef .tc main_v10) = deg (kei m c) := by
  show StableHlo.after hostOps0 (B0 m c) (Proc.devRef .tc main_v10) = _
  after_results_simp
  rfl

set_option maxHeartbeats 4000000 in
/-- Which degrees are positive. -/
theorem B1_pos : B1 m c (Proc.devRef .tc main_v12)
    = cmpf .ogt (deg (kei m c)) (broadcastInDim S16384 ![] bcast_S_S16384 (constant S_ .f32 0x00000000#32)) := by
  show StableHlo.after hostOps0 (B0 m c) (Proc.devRef .tc main_v12) = _
  after_results_simp
  rfl

set_option maxHeartbeats 4000000 in
/-- The inverse square roots of the degrees. -/
theorem B1_rsqrt : B1 m c (Proc.devRef .tc main_v13) = Host.rsqrt (deg (kei m c)) := by
  show StableHlo.after hostOps0 (B0 m c) (Proc.devRef .tc main_v13) = _
  after_results_simp
  rfl

set_option maxHeartbeats 4000000 in
/-- The float zero. -/
theorem B1_zero : B1 m c (Proc.devRef .tc main_cst_2) = constant (F := Ideal) S_ .f32 0x00000000#32 := by
  show StableHlo.after hostOps0 (B0 m c) (Proc.devRef .tc main_cst_2) = _
  after_results_simp

set_option maxHeartbeats 4000000 in
/-- The second stretch selects the inverse root where the degree is positive and zero elsewhere. -/
theorem dinv_of (W : Valuation τ sig (Elt Ideal)) :
    StableHlo.after hostOps0_1 W (Proc.devRef .tc main_v14)
      = select (W (Proc.devRef .tc main_v12)) (W (Proc.devRef .tc main_v13))
          (broadcastInDim S16384 ![] bcast_S_S16384 (id (W (Proc.devRef .tc main_cst_2)))) := by
  after_results_simp
  rfl

/-- The inverse roots at the first region's entry. -/
theorem B2_dinv : B2 m c (Proc.devRef .tc main_v14) = dinv (kei m c) := by
  refine (dinv_of (B1 m c)).trans ?_
  rw [B1_pos, B1_rsqrt, B1_zero]
  rfl

/-- The two lists of edge ends are not written by the second stretch. -/
theorem B2_src : B2 m c (Proc.devRef .tc main_v3) = src (kei m c) :=
  (StableHlo.after_of_writes_sub hostOps0_1 _ hostOps0_1_writes (by decide)).trans (B1_src m c)
theorem B2_dst : B2 m c (Proc.devRef .tc main_v6) = dst (kei m c) :=
  (StableHlo.after_of_writes_sub hostOps0_1 _ hostOps0_1_writes (by decide)).trans (B1_dst m c)

set_option maxHeartbeats 4000000 in
/-- The third stretch forms the edge norm from the inverse roots and the two lists of ends. -/
theorem norm_of (W : Valuation τ sig (Elt Ideal)) :
    StableHlo.after hostOps0_2 W (Proc.devRef .tc main_v29)
      = (mulf (Host.gather gather_S16384_S540672x1_S540672_n_0_n_n_0_1_1 (W (Proc.devRef .tc main_v14)) (wrap540 (W (Proc.devRef .tc main_v3))))
          (Host.gather gather_S16384_S540672x1_S540672_n_0_n_n_0_1_1 (W (Proc.devRef .tc main_v14)) (wrap540 (W (Proc.devRef .tc main_v6))))
          : FVec Ideal S540672 .f32) := by
  after_results_simp
  rfl

/-! ## At the first region's entry and exit -/

theorem B3_src : B3 m c (Proc.devRef .tc main_v3) = src (kei m c) :=
  (StableHlo.after_of_writes_sub hostOps0_2 _ hostOps0_2_writes (by decide)).trans (B2_src m c)
theorem B3_dst : B3 m c (Proc.devRef .tc main_v6) = dst (kei m c) :=
  (StableHlo.after_of_writes_sub hostOps0_2 _ hostOps0_2_writes (by decide)).trans (B2_dst m c)
/-- The edge norm at the first region's entry. -/
theorem B3_norm : B3 m c (Proc.devRef .tc main_v29) = norm (kei m c) := by
  refine (norm_of (B2 m c)).trans ?_
  rw [B2_dinv, B2_src, B2_dst]
  rfl

/-- The first region leaves the product of the features and the first layer's weight. -/
theorem B4_prod : B4 m c (Proc.devRef .tc main_v30) = prod (kx m c) (kW m c) := by
  refine (B4_arr m c 2).trans ((Val0.prod_final (E3 m) c).trans ?_)
  show prod (B3 m c (Proc.devRef .tc main_arg0)) (B3 m c (Proc.devRef .tc main_arg2)) = _
  rw [B3_launch m c main_arg0 (by decide) (by decide) (by decide), B3_launch m c main_arg2 (by decide) (by decide) (by decide)]

theorem B4_src : B4 m c (Proc.devRef .tc main_v3) = src (kei m c) :=
  (B4_of_ne m c main_v3 (by decide)).trans (B3_src m c)
theorem B4_dst : B4 m c (Proc.devRef .tc main_v6) = dst (kei m c) :=
  (B4_of_ne m c main_v6 (by decide)).trans (B3_dst m c)
theorem B4_norm : B4 m c (Proc.devRef .tc main_v29) = norm (kei m c) :=
  (B4_of_ne m c main_v29 (by decide)).trans (B3_norm m c)
/-- An argument the first region does not window is as launched after it. -/
theorem B4_launch (r : Ref sig .tc) (hw : ∀ w, Pipeline.arrRef spec0 w ≠ r) (h0 : r ∉ hostOps0_W) (h1 : r ∉ hostOps0_1_W)
    (h2 : r ∉ hostOps0_2_W) : B4 m c (Proc.devRef .tc r) = m ((c : Thread nD τ).loc r) :=
  (B4_of_ne m c r hw).trans (B3_launch m c r h0 h1 h2)

/-! ## The fourth stretch over any contents -/

set_option maxHeartbeats 4000000 in
/-- The hidden layer. -/
theorem hidden_of (W : Valuation τ sig (Elt Ideal)) :
    StableHlo.after hostOps1 W (Proc.devRef .tc main_v46)
      = hiddenOf (W (Proc.devRef .tc main_v3)) (W (Proc.devRef .tc main_v6)) (W (Proc.devRef .tc main_v29))
          (W (Proc.devRef .tc main_v30)) (W (Proc.devRef .tc main_arg3)) := by
  after_results_simp
  rfl

/-- The hidden layer of the contents W, named. -/
abbrev hidW (W : Valuation τ sig (Elt Ideal)) : FVec Ideal S16384x256 .f32 :=
  hiddenOf (W (Proc.devRef .tc main_v3)) (W (Proc.devRef .tc main_v6)) (W (Proc.devRef .tc main_v29))
    (W (Proc.devRef .tc main_v30)) (W (Proc.devRef .tc main_arg3))

set_option maxHeartbeats 4000000 in
/-- The neighbour aggregation of the hidden layer. -/
theorem agg_of (W : Valuation τ sig (Elt Ideal)) :
    StableHlo.after hostOps1 W (Proc.devRef .tc main_v60) = agg (W (Proc.devRef .tc main_arg1)) (hidW W) := by
  after_results_simp
  rfl

set_option maxHeartbeats 4000000 in
/-- The joined features: the aggregation beside the hidden layer. -/
theorem feats_of (W : Valuation τ sig (Elt Ideal)) :
    StableHlo.after hostOps1 W (Proc.devRef .tc main_v61)
      = concatenate S16384x512 1 [⟨S16384x256, agg (W (Proc.devRef .tc main_arg1)) (hidW W)⟩, ⟨S16384x256, hidW W⟩]
          concatenates_S16384x256_S16384x256_S16384x512_d1 := by
  after_results_simp
  rfl

set_option maxHeartbeats 4000000 in
/-- The joined weights: each head's two weights one above the other, the two heads side by side. -/
theorem weights_of (W : Valuation τ sig (Elt Ideal)) :
    StableHlo.after hostOps1 W (Proc.devRef .tc main_v64)
      = concatenate S512x256 1
          [⟨S512x128, concatenate S512x128 0 [⟨S256x128, W (Proc.devRef .tc main_arg4)⟩, ⟨S256x128, W (Proc.devRef .tc main_arg5)⟩]
              concatenates_S256x128_S256x128_S512x128_d0⟩,
           ⟨S512x128, concatenate S512x128 0 [⟨S256x128, W (Proc.devRef .tc main_arg7)⟩, ⟨S256x128, W (Proc.devRef .tc main_arg8)⟩]
              concatenates_S256x128_S256x128_S512x128_d0⟩]
          concatenates_S512x128_S512x128_S512x256_d1 := by
  after_results_simp

set_option maxHeartbeats 4000000 in
/-- The joined bias row. -/
theorem bias_of (W : Valuation τ sig (Elt Ideal)) :
    StableHlo.after hostOps1 W (Proc.devRef .tc main_v66)
      = shapeCast S1x256 (concatenate S256 0 [⟨S128, W (Proc.devRef .tc main_arg6)⟩, ⟨S128, W (Proc.devRef .tc main_arg9)⟩]
          concatenates_S128_S128_S256_d0) shapeCasts_S256_S1x256 := by
  after_results_simp
  rfl

/-! ## At the second region's entry -/

/-- The hidden layer of the contents after the first region is the hidden layer of the arguments. -/
theorem hidW_B4 : hidW (B4 m c) = khid m c := by
  show hiddenOf (B4 m c (Proc.devRef .tc main_v3)) (B4 m c (Proc.devRef .tc main_v6)) (B4 m c (Proc.devRef .tc main_v29))
    (B4 m c (Proc.devRef .tc main_v30)) (B4 m c (Proc.devRef .tc main_arg3)) = _
  rw [B4_src, B4_dst, B4_norm, B4_prod, B4_launch m c main_arg3 (by decide) (by decide) (by decide) (by decide)]
  rfl

theorem aggW_B4 : agg (B4 m c (Proc.devRef .tc main_arg1)) (hidW (B4 m c)) = kagg m c := by
  rw [hidW_B4, B4_launch m c main_arg1 (by decide) (by decide) (by decide) (by decide)]

/-- The joined features at the second region's entry. -/
theorem B5_feats : B5 m c (Proc.devRef .tc main_v61)
    = feats (kagg m c) (khid m c) concatenates_S16384x256_S16384x256_S16384x512_d1 :=
  (feats_of (B4 m c)).trans
    (concat2_congr S16384x512 1 S16384x256 S16384x256 _ _ _ _ concatenates_S16384x256_S16384x256_S16384x512_d1
      (aggW_B4 m c) (hidW_B4 m c))

/-- The joined weights at the second region's entry. -/
theorem B5_weights : B5 m c (Proc.devRef .tc main_v64)
    = weights (kWr m c) (kWl m c) (kWr' m c) (kWl' m c) concatenates_S256x128_S256x128_S512x128_d0
        concatenates_S512x128_S512x128_S512x256_d1 := by
  refine (weights_of (B4 m c)).trans ?_
  rw [B4_launch m c main_arg4 (by decide) (by decide) (by decide) (by decide),
    B4_launch m c main_arg5 (by decide) (by decide) (by decide) (by decide),
    B4_launch m c main_arg7 (by decide) (by decide) (by decide) (by decide),
    B4_launch m c main_arg8 (by decide) (by decide) (by decide) (by decide)]

/-- The joined bias row at the second region's entry. -/
theorem B5_bias : B5 m c (Proc.devRef .tc main_v66)
    = biasRow (kbm m c) (kbl m c) concatenates_S128_S128_S256_d0 shapeCasts_S256_S1x256 := by
  refine (bias_of (B4 m c)).trans ?_
  rw [B4_launch m c main_arg6 (by decide) (by decide) (by decide) (by decide),
    B4_launch m c main_arg9 (by decide) (by decide) (by decide) (by decide)]

/-- The noise at the second region's entry. -/
theorem B5_eps : B5 m c (Proc.devRef .tc main_arg10) = keps m c :=
  (B5_B4 m c main_arg10 (by decide)).trans (B4_launch m c main_arg10 (by decide) (by decide) (by decide) (by decide))

/-- Columns 0 … 127 of the fused projection of the second region's operands are the mean. -/
theorem mean_form :
    affineCols (M := 16384) (K := 512) (C := 256) 128 0 (by norm_num) (E5 m c main_v61) (E5 m c main_v64) (E5 m c main_v66) = kmu m c := by
  show affineCols (M := 16384) (K := 512) (C := 256) 128 0 _ (B5 m c (Proc.devRef .tc main_v61)) (B5 m c (Proc.devRef .tc main_v64))
    (B5 m c (Proc.devRef .tc main_v66)) = _
  rw [B5_feats, B5_weights, B5_bias]
  exact fused_first (kagg m c) (khid m c) (kWr m c) (kWl m c) (kWr' m c) (kWl' m c) (kbm m c) (kbl m c) _ _ _ _ _

/-- Columns 128 … 255 are the log-variance. -/
theorem logvar_form :
    affineCols (M := 16384) (K := 512) (C := 256) 128 128 (by norm_num) (E5 m c main_v61) (E5 m c main_v64) (E5 m c main_v66) = klv m c := by
  show affineCols (M := 16384) (K := 512) (C := 256) 128 128 _ (B5 m c (Proc.devRef .tc main_v61)) (B5 m c (Proc.devRef .tc main_v64))
    (B5 m c (Proc.devRef .tc main_v66)) = _
  rw [B5_feats, B5_weights, B5_bias]
  exact fused_second (kagg m c) (khid m c) (kWr m c) (kWl m c) (kWr' m c) (kWl' m c) (kbm m c) (kbl m c) _ _ _ _ _

/-! ## The four results -/

/-- The mean. -/
theorem out_mean : B7 m c (Proc.devRef .tc main_v67_0) = kmu m c :=
  (B7_of_ne m c main_v67_0 (by decide)).trans ((B6_arr m c 4).trans ((Val1.mean_final (E5 m) c).trans (mean_form m c)))

/-- The log-variance. -/
theorem out_logvar : B7 m c (Proc.devRef .tc main_v67_1) = klv m c :=
  (B7_of_ne m c main_v67_1 (by decide)).trans ((B6_arr m c 5).trans ((Val1.logvar_final (E5 m) c).trans (logvar_form m c)))

/-- The second region's sample, in either of its two arrays. -/
theorem sample_form :
    sample (M := 16384) (N := 128) (E5 m c main_arg10)
        (affineCols (M := 16384) (K := 512) (C := 256) 128 128 (by norm_num) (E5 m c main_v61) (E5 m c main_v64) (E5 m c main_v66))
        (affineCols (M := 16384) (K := 512) (C := 256) 128 0 (by norm_num) (E5 m c main_v61) (E5 m c main_v64) (E5 m c main_v66))
      = sample (keps m c) (klv m c) (kmu m c) := by
  rw [mean_form, logvar_form]
  show sample (B5 m c (Proc.devRef .tc main_arg10)) _ _ = _
  rw [B5_eps]

/-- The sample. -/
theorem out_sample : B7 m c (Proc.devRef .tc main_v67_2) = sample (keps m c) (klv m c) (kmu m c) :=
  (B7_of_ne m c main_v67_2 (by decide)).trans ((B6_arr m c 6).trans ((Val1.sample_final (E5 m) c).trans (sample_form m c)))

/-- The sample as the third region reads it. -/
theorem B6_narrow : B6 m c (Proc.devRef .tc main_v67_3) = sample (keps m c) (klv m c) (kmu m c) :=
  (B6_arr m c 7).trans ((Val1.narrow_final (E5 m) c).trans (sample_form m c))

/-- The decoded adjacency. -/
theorem out_adj : B7 m c (Proc.devRef .tc main_v68) = gram (sample (keps m c) (klv m c) (kmu m c)) := by
  refine (B7_out m c).trans ((Val2.gram_final (E6 m) c).trans ?_)
  show gram (B6 m c (Proc.devRef .tc main_v67_3)) = _
  rw [B6_narrow]

end Cert.KernelIdeal.Bd

end
-- ==== Proof.RefValue.lean ====
import proofs.«131769_j3100966387958_2_alg».proof.Proof.RefRunPatched
import proofs.«131769_j3100966387958_2_alg».proof.Proof.Chain
import proofs.«131769_j3100966387958_2_alg».proof.Proof.AlgBridge

set_option maxRecDepth 16384
noncomputable section

/-
  The reference's four results in closed form over its launch memory: through the shared chain of host operations, the
  mean and the log-variance are agg · Wr + h · Wl + b with their own weights and bias, the sample is eps · exp(log-variance)
  + mean, and the decoded adjacency is logistic (z · zᵀ).
-/
namespace Cert.RefSide

open Idealize.ShloMosaic Idealize.ShloMosaic.TcCoe Idealize.SL.Sem Idealize.ShloMosaic.ValueIdx
open Cert.Spec Cert.Alg Cert.KernelIdeal.Chain

variable (m' : (ℓ : Loc Cert.ReferenceIdeal.nD Cert.ReferenceIdeal.τ Cert.ReferenceIdeal.sig) → Buf (Elt Ideal) ℓ) (c : Dev Cert.ReferenceIdeal.nD)

/-- The reference's argument arrays, typed. -/
abbrev rx : FVec Ideal Cert.ReferenceIdeal.S16384x512 .f32 := m' ((c.tc : Thread Cert.ReferenceIdeal.nD Cert.ReferenceIdeal.τ).loc Cert.ReferenceIdeal.main_arg0)
abbrev rei : Edges := m' ((c.tc : Thread Cert.ReferenceIdeal.nD Cert.ReferenceIdeal.τ).loc Cert.ReferenceIdeal.main_arg1)
abbrev rW : FVec Ideal Cert.ReferenceIdeal.S512x256 .f32 := m' ((c.tc : Thread Cert.ReferenceIdeal.nD Cert.ReferenceIdeal.τ).loc Cert.ReferenceIdeal.main_arg2)
abbrev rb : FVec Ideal Cert.ReferenceIdeal.S256 .f32 := m' ((c.tc : Thread Cert.ReferenceIdeal.nD Cert.ReferenceIdeal.τ).loc Cert.ReferenceIdeal.main_arg3)
abbrev rWr : FVec Ideal Cert.ReferenceIdeal.S256x128 .f32 := m' ((c.tc : Thread Cert.ReferenceIdeal.nD Cert.ReferenceIdeal.τ).loc Cert.ReferenceIdeal.main_arg4)
abbrev rWl : FVec Ideal Cert.ReferenceIdeal.S256x128 .f32 := m' ((c.tc : Thread Cert.ReferenceIdeal.nD Cert.ReferenceIdeal.τ).loc Cert.ReferenceIdeal.main_arg5)
abbrev rbm : FVec Ideal Cert.ReferenceIdeal.S128 .f32 := m' ((c.tc : Thread Cert.ReferenceIdeal.nD Cert.ReferenceIdeal.τ).loc Cert.ReferenceIdeal.main_arg6)
abbrev rWr' : FVec Ideal Cert.ReferenceIdeal.S256x128 .f32 := m' ((c.tc : Thread Cert.ReferenceIdeal.nD Cert.ReferenceIdeal.τ).loc Cert.ReferenceIdeal.main_arg7)
abbrev rWl' : FVec Ideal Cert.ReferenceIdeal.S256x128 .f32 := m' ((c.tc : Thread Cert.ReferenceIdeal.nD Cert.ReferenceIdeal.τ).loc Cert.ReferenceIdeal.main_arg8)
abbrev rbl : FVec Ideal Cert.ReferenceIdeal.S128 .f32 := m' ((c.tc : Thread Cert.ReferenceIdeal.nD Cert.ReferenceIdeal.τ).loc Cert.ReferenceIdeal.main_arg9)
abbrev reps : FVec Ideal Cert.ReferenceIdeal.S16384x128 .f32 := m' ((c.tc : Thread Cert.ReferenceIdeal.nD Cert.ReferenceIdeal.τ).loc Cert.ReferenceIdeal.main_arg10)

/-- The reference's hidden layer and its neighbour aggregation, through the shared chain. -/
abbrev rhid : FVec Ideal Cert.KernelIdeal.S16384x256 .f32 :=
  hidden (rei m' c) (Host.dotGeneral Cert.ReferenceIdeal.dot_S16384x512_S512x256_S16384x256_1_0_0_1_n_n none (rx m' c) (rW m' c)) (rb m' c)
abbrev ragg : FVec Ideal Cert.KernelIdeal.S16384x256 .f32 := agg (rei m' c) (rhid m' c)

/-- The same with the host's product x · W read as the product. -/
abbrev rhidP : FVec Ideal Cert.KernelIdeal.S16384x256 .f32 :=
  hidden (rei m' c) (prod (rx m' c : Mat 16384 512) (rW m' c : Mat 512 256)) (rb m' c)
abbrev raggP : FVec Ideal Cert.KernelIdeal.S16384x256 .f32 := agg (rei m' c) (rhidP m' c)

theorem rdot0_plain : Cert.ReferenceIdeal.dot_S16384x512_S512x256_S16384x256_1_0_0_1_n_n = DotDims.plain 16384 512 256 := rfl
theorem rdot1_plain : Cert.ReferenceIdeal.dot_S16384x256_S256x128_S16384x128_1_0_0_1_n_n = DotDims.plain 16384 256 128 := rfl
theorem rdot2_plain : Cert.ReferenceIdeal.dot_S16384x128_S128x16384_S16384x16384_1_0_0_1_n_n = DotDims.plain 16384 128 16384 := rfl

theorem rhid_eq : rhid m' c = rhidP m' c := by
  show hidden _ (Host.dotGeneral _ none (rx m' c) (rW m' c)) _ = hidden _ (prod (rx m' c : Mat 16384 512) (rW m' c : Mat 512 256)) _
  rw [hostProd_eq _ rdot0_plain none (rx m' c) (rW m' c)]
theorem ragg_eq : ragg m' c = raggP m' c := by
  show agg _ (rhid m' c) = agg _ (rhidP m' c)
  rw [rhid_eq]

/-- The reference's mean and log-variance, as closed forms. -/
abbrev rmu : Mat 16384 128 :=
  fun i => (prod (raggP m' c : Mat 16384 256) (rWr m' c : Mat 256 128) i + prod (rhidP m' c : Mat 16384 256) (rWl m' c : Mat 256 128) i) + rbm m' c (ix1 (i 1))
abbrev rlv : Mat 16384 128 :=
  fun i => (prod (raggP m' c : Mat 16384 256) (rWr' m' c : Mat 256 128) i + prod (rhidP m' c : Mat 16384 256) (rWl' m' c : Mat 256 128) i) + rbl m' c (ix1 (i 1))

set_option maxHeartbeats 4000000 in
theorem ref_mean_raw : Cert.ReferenceIdeal.ValueP.res_main_v66 m' c
    = addf (addf (Host.dotGeneral Cert.ReferenceIdeal.dot_S16384x256_S256x128_S16384x128_1_0_0_1_n_n none (ragg m' c) (rWr m' c))
                 (Host.dotGeneral Cert.ReferenceIdeal.dot_S16384x256_S256x128_S16384x128_1_0_0_1_n_n none (rhid m' c) (rWl m' c)))
        (broadcastInDim Cert.ReferenceIdeal.S16384x128 ![0, 1] Cert.ReferenceIdeal.Facts₀.bcast_S1x128_S16384x128_0_1
          (broadcastInDim Cert.ReferenceIdeal.S1x128 ![1] Cert.ReferenceIdeal.Facts₀.bcast_S128_S1x128_1 (rbm m' c))) := by
  unfold Cert.ReferenceIdeal.ValueP.res_main_v66
  rfl

set_option maxHeartbeats 4000000 in
theorem ref_logvar_raw : Cert.ReferenceIdeal.ValueP.res_main_v86 m' c
    = addf (addf (Host.dotGeneral Cert.ReferenceIdeal.dot_S16384x256_S256x128_S16384x128_1_0_0_1_n_n none (ragg m' c) (rWr' m' c))
                 (Host.dotGeneral Cert.ReferenceIdeal.dot_S16384x256_S256x128_S16384x128_1_0_0_1_n_n none (rhid m' c) (rWl' m' c)))
        (broadcastInDim Cert.ReferenceIdeal.S16384x128 ![0, 1] Cert.ReferenceIdeal.Facts₀.bcast_S1x128_S16384x128_0_1
          (broadcastInDim Cert.ReferenceIdeal.S1x128 ![1] Cert.ReferenceIdeal.Facts₀.bcast_S128_S1x128_1 (rbl m' c))) := by
  unfold Cert.ReferenceIdeal.ValueP.res_main_v86
  rfl

/-- The reference's mean. -/
theorem ref_mean : (Cert.ReferenceIdeal.ValueP.res_main_v66 m' c : Mat 16384 128) = rmu m' c := by
  rw [ref_mean_raw, rhid_eq, ragg_eq]
  exact host_affine _ rdot1_plain (raggP m' c) (rhidP m' c) (rWr m' c) (rWl m' c) (rbm m' c) _ _

/-- The reference's log-variance. -/
theorem ref_logvar : (Cert.ReferenceIdeal.ValueP.res_main_v86 m' c : Mat 16384 128) = rlv m' c := by
  rw [ref_logvar_raw, rhid_eq, ragg_eq]
  exact host_affine _ rdot1_plain (raggP m' c) (rhidP m' c) (rWr' m' c) (rWl' m' c) (rbl m' c) _ _

set_option maxHeartbeats 4000000 in
theorem ref_sample_raw : Cert.ReferenceIdeal.ValueP.res_main_v89 m' c
    = addf (mulf (reps m' c) (Host.exp (Cert.ReferenceIdeal.ValueP.res_main_v86 m' c))) (Cert.ReferenceIdeal.ValueP.res_main_v66 m' c) := by
  unfold Cert.ReferenceIdeal.ValueP.res_main_v89 Cert.ReferenceIdeal.ValueP.res_main_v86 Cert.ReferenceIdeal.ValueP.res_main_v66
  rfl

/-- The reference's sample. -/
theorem ref_sample : (Cert.ReferenceIdeal.ValueP.res_main_v89 m' c : Mat 16384 128) = sample (reps m' c) (rlv m' c) (rmu m' c) := by
  rw [ref_sample_raw]
  show (addf (mulf (reps m' c) (Host.exp (Cert.ReferenceIdeal.ValueP.res_main_v86 m' c))) (Cert.ReferenceIdeal.ValueP.res_main_v66 m' c) : Mat 16384 128) = _
  rw [host_sample, ref_mean, ref_logvar]

/-- The reference's sample buffer, typed. -/
abbrev rz : FVec Ideal Cert.ReferenceIdeal.S16384x128 .f32 := Cert.ReferenceIdeal.ValueP.res_main_v89 m' c

set_option maxHeartbeats 4000000 in
theorem ref_adj_raw : Cert.ReferenceIdeal.ValueP.res_main_v97 m' c
    = Host.divf (broadcastInDim Cert.ReferenceIdeal.S16384x16384 ![] Cert.ReferenceIdeal.Facts₀.bcast_S_S16384x16384 (constant (F := Ideal) Cert.ReferenceIdeal.S_ .f32 0x3F800000#32))
        (addf (broadcastInDim Cert.ReferenceIdeal.S16384x16384 ![] Cert.ReferenceIdeal.Facts₀.bcast_S_S16384x16384 (constant (F := Ideal) Cert.ReferenceIdeal.S_ .f32 0x3F800000#32))
          (Host.exp (Host.negf (Host.dotGeneral Cert.ReferenceIdeal.dot_S16384x128_S128x16384_S16384x16384_1_0_0_1_n_n none (rz m' c)
            (transpose Cert.ReferenceIdeal.S128x16384 [1, 0] (rz m' c) Cert.ReferenceIdeal.Facts₀.transposes_S16384x128_S128x16384_1_0))))) := by
  unfold Cert.ReferenceIdeal.ValueP.res_main_v97
  rfl

/-- The reference's decoded adjacency. -/
theorem ref_adj : (Cert.ReferenceIdeal.ValueP.res_main_v97 m' c : Mat 16384 16384) = gram (sample (reps m' c) (rlv m' c) (rmu m' c)) := by
  rw [ref_adj_raw]
  refine (host_gram _ rdot2_plain (rz m' c) _ _).trans ?_
  show gram (Cert.ReferenceIdeal.ValueP.res_main_v89 m' c : Mat 16384 128) = _
  rw [ref_sample]

end Cert.RefSide

end
-- ==== Proof.Algebraic.lean ====
/-
  The value claim: run from memories that agree on the eleven arguments, the idealized kernel and the idealized reference
  end with equal results. Both sides' results are the same closed forms of the arguments — the hidden layer h and its
  neighbour aggregation agg through the shared host operations over x · W; the mean agg · Wr + h · Wl + b and the
  log-variance with their own weights; the sample eps · exp(log-variance) + mean; the adjacency logistic (z · zᵀ) —
  so equal arguments give equal results.
-/
import proofs.«131769_j3100966387958_2_alg».proof.Defs
import proofs.«131769_j3100966387958_2_alg».proof.Proof.Gen.KernelIdeal
import proofs.«131769_j3100966387958_2_alg».proof.Proof.Gen.ReferenceIdeal
import proofs.«131769_j3100966387958_2_alg».proof.Proof.Gen.Pre_finite_inputs
import proofs.«131769_j3100966387958_2_alg».proof.Proof.KIRun
import proofs.«131769_j3100966387958_2_alg».proof.Proof.KIBoundary
import proofs.«131769_j3100966387958_2_alg».proof.Proof.RefRunPatched
import proofs.«131769_j3100966387958_2_alg».proof.Proof.RefValue

set_option maxRecDepth 16384

noncomputable section

namespace Cert.Proof

open Idealize.ShloMosaic Idealize.ShloMosaic.TcCoe Idealize.SL.Sem Idealize.ShloMosaic.ValueIdx
open Cert.Spec Cert.KernelIdeal.Chain

/-! ## The closed forms as functions of the arguments -/

/-- The hidden layer and its neighbour aggregation. -/
abbrev hidF (ei : Edges) (x : Mat 16384 512) (W : Mat 512 256) (b : FVec Ideal Cert.KernelIdeal.S256 .f32) : FVec Ideal Cert.KernelIdeal.S16384x256 .f32 :=
  hidden ei (prod x W) b
/-- `agg · Wr + h · Wl + bias`. -/
abbrev projF (ei : Edges) (x : Mat 16384 512) (W : Mat 512 256) (b : FVec Ideal Cert.KernelIdeal.S256 .f32)
    (Wr Wl : Mat 256 128) (bias : (⟨1, ![128]⟩ : Shape).Idx → EReal) : Mat 16384 128 :=
  fun i => (prod (agg ei (hidF ei x W b) : Mat 16384 256) Wr i + prod (hidF ei x W b : Mat 16384 256) Wl i) + bias (ix1 (i 1))

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem kmu_eq : Cert.KernelIdeal.Bd.kmu m c = projF (Cert.KernelIdeal.Bd.kei m c) (Cert.KernelIdeal.Bd.kx m c) (Cert.KernelIdeal.Bd.kW m c) (Cert.KernelIdeal.Bd.kb m c) (Cert.KernelIdeal.Bd.kWr m c) (Cert.KernelIdeal.Bd.kWl m c) (Cert.KernelIdeal.Bd.kbm m c) := rfl
theorem klv_eq : Cert.KernelIdeal.Bd.klv m c = projF (Cert.KernelIdeal.Bd.kei m c) (Cert.KernelIdeal.Bd.kx m c) (Cert.KernelIdeal.Bd.kW m c) (Cert.KernelIdeal.Bd.kb m c) (Cert.KernelIdeal.Bd.kWr' m c) (Cert.KernelIdeal.Bd.kWl' m c) (Cert.KernelIdeal.Bd.kbl m c) := rfl
theorem rmu_eq : Cert.RefSide.rmu m' c = projF (Cert.RefSide.rei m' c) (Cert.RefSide.rx m' c) (Cert.RefSide.rW m' c) (Cert.RefSide.rb m' c) (Cert.RefSide.rWr m' c) (Cert.RefSide.rWl m' c) (Cert.RefSide.rbm m' c) := rfl
theorem rlv_eq : Cert.RefSide.rlv m' c = projF (Cert.RefSide.rei m' c) (Cert.RefSide.rx m' c) (Cert.RefSide.rW m' c) (Cert.RefSide.rb m' c) (Cert.RefSide.rWr' m' c) (Cert.RefSide.rWl' m' c) (Cert.RefSide.rbl m' c) := rfl
end

/-! ## The claim -/

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  -- the arguments agree, one by one
  have a0 : ∀ c, Cert.RefSide.rx m' c = Cert.KernelIdeal.Bd.kx m c := fun c => (hagree c).1
  have a1 : ∀ c, Cert.RefSide.rei m' c = Cert.KernelIdeal.Bd.kei m c := fun c => (hagree c).2.1
  have a2 : ∀ c, Cert.RefSide.rW m' c = Cert.KernelIdeal.Bd.kW m c := fun c => (hagree c).2.2.1
  have a3 : ∀ c, Cert.RefSide.rb m' c = Cert.KernelIdeal.Bd.kb m c := fun c => (hagree c).2.2.2.1
  have a4 : ∀ c, Cert.RefSide.rWr m' c = Cert.KernelIdeal.Bd.kWr m c := fun c => (hagree c).2.2.2.2.1
  have a5 : ∀ c, Cert.RefSide.rWl m' c = Cert.KernelIdeal.Bd.kWl m c := fun c => (hagree c).2.2.2.2.2.1
  have a6 : ∀ c, Cert.RefSide.rbm m' c = Cert.KernelIdeal.Bd.kbm m c := fun c => (hagree c).2.2.2.2.2.2.1
  have a7 : ∀ c, Cert.RefSide.rWr' m' c = Cert.KernelIdeal.Bd.kWr' m c := fun c => (hagree c).2.2.2.2.2.2.2.1
  have a8 : ∀ c, Cert.RefSide.rWl' m' c = Cert.KernelIdeal.Bd.kWl' m c := fun c => (hagree c).2.2.2.2.2.2.2.2.1
  have a9 : ∀ c, Cert.RefSide.rbl m' c = Cert.KernelIdeal.Bd.kbl m c := fun c => (hagree c).2.2.2.2.2.2.2.2.2.1
  have a10 : ∀ c, Cert.RefSide.reps m' c = Cert.KernelIdeal.Bd.keps m c := fun c => (hagree c).2.2.2.2.2.2.2.2.2.2
  -- so the closed forms agree
  have hmu : ∀ c, Cert.RefSide.rmu m' c = Cert.KernelIdeal.Bd.kmu m c := fun c => by
    rw [rmu_eq, kmu_eq, a0 c, a1 c, a2 c, a3 c, a4 c, a5 c, a6 c]
  have hlv : ∀ c, Cert.RefSide.rlv m' c = Cert.KernelIdeal.Bd.klv m c := fun c => by
    rw [rlv_eq, klv_eq, a0 c, a1 c, a2 c, a3 c, a7 c, a8 c, a9 c]
  refine ⟨fun c => Cert.KernelIdeal.Fr.B7 m c (Proc.devRef .tc Cert.KernelIdeal.main_v68), fun c => Cert.KernelIdeal.Fr.B7 m c (Proc.devRef .tc Cert.KernelIdeal.main_v67_2),
    fun c => Cert.KernelIdeal.Fr.B7 m c (Proc.devRef .tc Cert.KernelIdeal.main_v67_0), fun c => Cert.KernelIdeal.Fr.B7 m c (Proc.devRef .tc Cert.KernelIdeal.main_v67_1), ?_, ?_⟩
  · -- the kernel's run: every buffer read at the last boundary
    exact (θ_run Cert.KernelIdeal.defs _ _).mono (fun r h c =>
      ⟨h c _ (Cert.KernelIdeal.Fr.mem_uc Cert.KernelIdeal.main_v68 (by decide)), h c _ (Cert.KernelIdeal.Fr.mem_uc Cert.KernelIdeal.main_v67_2 (by decide)),
        h c _ (Cert.KernelIdeal.Fr.mem_uc Cert.KernelIdeal.main_v67_0 (by decide)), h c _ (Cert.KernelIdeal.Fr.mem_uc Cert.KernelIdeal.main_v67_1 (by decide)),
        (h c _ (Cert.KernelIdeal.Fr.mem_uc Cert.KernelIdeal.main_arg0 (by decide))).trans (Cert.KernelIdeal.Fr.B7_main_arg0 m c),
        (h c _ (Cert.KernelIdeal.Fr.mem_uc Cert.KernelIdeal.main_arg1 (by decide))).trans (Cert.KernelIdeal.Fr.B7_main_arg1 m c),
        (h c _ (Cert.KernelIdeal.Fr.mem_uc Cert.KernelIdeal.main_arg2 (by decide))).trans (Cert.KernelIdeal.Fr.B7_main_arg2 m c),
        (h c _ (Cert.KernelIdeal.Fr.mem_uc Cert.KernelIdeal.main_arg3 (by decide))).trans (Cert.KernelIdeal.Fr.B7_main_arg3 m c),
        (h c _ (Cert.KernelIdeal.Fr.mem_uc Cert.KernelIdeal.main_arg4 (by decide))).trans (Cert.KernelIdeal.Fr.B7_main_arg4 m c),
        (h c _ (Cert.KernelIdeal.Fr.mem_uc Cert.KernelIdeal.main_arg5 (by decide))).trans (Cert.KernelIdeal.Fr.B7_main_arg5 m c),
        (h c _ (Cert.KernelIdeal.Fr.mem_uc Cert.KernelIdeal.main_arg6 (by decide))).trans (Cert.KernelIdeal.Fr.B7_main_arg6 m c),
        (h c _ (Cert.KernelIdeal.Fr.mem_uc Cert.KernelIdeal.main_arg7 (by decide))).trans (Cert.KernelIdeal.Fr.B7_main_arg7 m c),
        (h c _ (Cert.KernelIdeal.Fr.mem_uc Cert.KernelIdeal.main_arg8 (by decide))).trans (Cert.KernelIdeal.Fr.B7_main_arg8 m c),
        (h c _ (Cert.KernelIdeal.Fr.mem_uc Cert.KernelIdeal.main_arg9 (by decide))).trans (Cert.KernelIdeal.Fr.B7_main_arg9 m c),
        (h c _ (Cert.KernelIdeal.Fr.mem_uc Cert.KernelIdeal.main_arg10 (by decide))).trans (Cert.KernelIdeal.Fr.B7_main_arg10 m c)⟩)
      (Cert.KernelIdeal.Fr.run_reads m ρ)
  · -- the reference's run: its four results are the same closed forms
    refine (θ_run Cert.ReferenceIdeal.defs _ _).mono (fun r h c =>
      ⟨(h c).1.trans ?_, (h c).2.1.trans ?_, (h c).2.2.1.trans ?_, (h c).2.2.2.1.trans ?_, (h c).2.2.2.2⟩)
      (Cert.ReferenceIdeal.ValueP.run (F := Ideal) m' ρ')
    · exact (Cert.RefSide.ref_adj m' c).trans (by rw [hmu c, hlv c, a10 c]; exact (Cert.KernelIdeal.Bd.out_adj m c).symm)
    · exact (Cert.RefSide.ref_sample m' c).trans (by rw [hmu c, hlv c, a10 c]; exact (Cert.KernelIdeal.Bd.out_sample m c).symm)
    · exact (Cert.RefSide.ref_mean m' c).trans ((hmu c).trans (Cert.KernelIdeal.Bd.out_mean m c).symm)
    · exact (Cert.RefSide.ref_logvar m' c).trans ((hlv c).trans (Cert.KernelIdeal.Bd.out_logvar m c).symm)

end Cert.Proof

end
-- ==== Proof.lean ====
/-
  The claim: the kernel program and its idealization run to the end, fault nowhere and leave their eleven argument arrays
  as launched; so does the reference; the idealization rewrote nothing; and at the ideal values the idealized kernel and
  the idealized reference, run from memories that agree on the arguments, end with equal results.

  The kernel is three regions among four stretches of host operations. Each region's frame is its body's triple at every
  grid point under the pipeline's proof data; the third region reads ONE array through two windows, holding it at half
  shares. The run over the seven segments ends with every buffer read at the last boundary's contents, a fold from the
  launch memory; the frame reads the arguments there, the value claim the four results.

  At the ideal values: the first region's array is x · W; the second region's arrays are the two column blocks of
  [agg | h] · [[Wr ; Wl] | [Wr' ; Wl']] + [b | b'] — which are agg · Wr + h · Wl + b and agg · Wr' + h · Wl' + b', the
  512-term sum split into its halves — and eps · exp(logvar) + mean; the third region's array is logistic (z · zᵀ),
  which is the host's 1 / (1 + exp(-(z · zᵀ))). The scatter and gather stages are the same host operations on both sides.
-/
import proofs.«131769_j3100966387958_2_alg».proof.Defs
import proofs.«131769_j3100966387958_2_alg».proof.Proof.Gen.Kernel
import proofs.«131769_j3100966387958_2_alg».proof.Proof.Gen.KernelIdeal
import proofs.«131769_j3100966387958_2_alg».proof.Proof.Gen.ReferenceIdeal
import proofs.«131769_j3100966387958_2_alg».proof.Proof.Gen.Pre_finite_inputs
import proofs.«131769_j3100966387958_2_alg».proof.Proof.KRun
import proofs.«131769_j3100966387958_2_alg».proof.Proof.KIRun
import proofs.«131769_j3100966387958_2_alg».proof.Proof.RefRunPatched
import proofs.«131769_j3100966387958_2_alg».proof.Proof.Algebraic
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Fr.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Fr.frame m ρ

/-- The reference's frame is its run with the four results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.ValueP.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.algebraic⟩

end Cert.Proof

end
